-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)) →
    ∃ (v0 : (c : Dev Cert.KernelIdeal.nD) → Buf (Elt Ideal) ((c.tc : Thread Cert.KernelIdeal.nD Cert.KernelIdeal.τ).loc Cert.KernelIdeal.main_v44)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v44) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v55) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S100000x128 : Shape := ⟨2, ![100000, 128]⟩
abbrev S128x128 : Shape := ⟨2, ![128, 128]⟩
abbrev S128 : Shape := ⟨1, ![128]⟩
abbrev S128x2 : Shape := ⟨2, ![128, 2]⟩
abbrev S2 : Shape := ⟨1, ![2]⟩
abbrev S1600000 : Shape := ⟨1, ![1600000]⟩
abbrev S_ : Shape := ⟨0, ![]⟩

class Facts : Prop where
  bcast_S_S100000x128 : S_.BroadcastsInDim S100000x128 (![] : Fin 0 → Fin S100000x128.rank)
  reducesTo_S100000x128_S_d0_1 : S100000x128.ReducesTo [0, 1] S_
  h_S_ : 0 < S_.numel
  bcast_S_S128x128 : S_.BroadcastsInDim S128x128 (![] : Fin 0 → Fin S128x128.rank)
  reducesTo_S128x128_S_d0_1 : S128x128.ReducesTo [0, 1] S_
  bcast_S_S128 : S_.BroadcastsInDim S128 (![] : Fin 0 → Fin S128.rank)
  reducesTo_S128_S_d0 : S128.ReducesTo [0] S_
  bcast_S_S128x2 : S_.BroadcastsInDim S128x2 (![] : Fin 0 → Fin S128x2.rank)
  reducesTo_S128x2_S_d0_1 : S128x2.ReducesTo [0, 1] S_
  bcast_S_S2 : S_.BroadcastsInDim S2 (![] : Fin 0 → Fin S2.rank)
  reducesTo_S2_S_d0 : S2.ReducesTo [0] S_

variable [Facts]

def fn_part1 {F : FTy → Type} [FloatOps F] (main_arg4 : FVec F S2 .f32) (main_v13 : IVec S_ 1) (main_v16 : IVec S128x2 1) : IVec S_ 1 :=
  let main_c_5 : IVec S_ 1 := constantI S_ 1 1#1
  let main_v17 : IVec S_ 1 := (fun x v => Host.reduce IntOp.andi x v reducesTo_S128x2_S_d0_1 h_S_) main_v16 main_c_5
  let main_v18 : IVec S_ 1 := andi main_v13 main_v17
  let main_v19 : FVec F S2 .f32 := Host.absf main_arg4
  let main_cst_6 : FVec F S_ .f32 := constant S_ .f32 0x7F800000#32
  let main_v20 : FVec F S2 .f32 := broadcastInDim S2 ![] bcast_S_S2 main_cst_6
  let main_v21 : IVec S2 1 := cmpf .olt main_v19 main_v20
  let main_c_7 : IVec S_ 1 := constantI S_ 1 1#1
  let main_v22 : IVec S_ 1 := (fun x v => Host.reduce IntOp.andi x v reducesTo_S2_S_d0 h_S_) main_v21 main_c_7
  let main_v23 : IVec S_ 1 := andi main_v18 main_v22
  main_v23

def fn {F : FTy → Type} [FloatOps F] (main_arg0 : FVec F S100000x128 .f32) (main_arg1 : FVec F S128x128 .f32) (main_arg2 : FVec F S128 .f32) (main_arg3 : FVec F S128x2 .f32) (main_arg4 : FVec F S2 .f32) (main_arg5 : IVec S1600000 32) (main_arg6 : IVec S1600000 32) : IVec S_ 1 :=
  let main_v0 : FVec F S100000x128 .f32 := Host.absf main_arg0
  let main_cst : FVec F S_ .f32 := constant S_ .f32 0x7F800000#32
  let main_v1 : FVec F S100000x128 .f32 := broadcastInDim S100000x128 ![] bcast_S_S100000x128 main_cst
  let main_v2 : IVec S100000x128 1 := cmpf .olt main_v0 main_v1
  let main_c : IVec S_ 1 := constantI S_ 1 1#1
  let main_v3 : IVec S_ 1 := (fun x v => Host.reduce IntOp.andi x v reducesTo_S100000x128_S_d0_1 h_S_) main_v2 main_c
  let main_v4 : FVec F S128x128 .f32 := Host.absf main_arg1
  let main_cst_0 : FVec F S_ .f32 := constant S_ .f32 0x7F800000#32
  let main_v5 : FVec F S128x128 .f32 := broadcastInDim S128x128 ![] bcast_S_S128x128 main_cst_0
  let main_v6 : IVec S128x128 1 := cmpf .olt main_v4 main_v5
  let main_c_1 : IVec S_ 1 := constantI S_ 1 1#1
  let main_v7 : IVec S_ 1 := (fun x v => Host.reduce IntOp.andi x v reducesTo_S128x128_S_d0_1 h_S_) main_v6 main_c_1
  let main_v8 : IVec S_ 1 := andi main_v3 main_v7
  let main_v9 : FVec F S128 .f32 := Host.absf main_arg2
  let main_cst_2 : FVec F S_ .f32 := constant S_ .f32 0x7F800000#32
  let main_v10 : FVec F S128 .f32 := broadcastInDim S128 ![] bcast_S_S128 main_cst_2
  let main_v11 : IVec S128 1 := cmpf .olt main_v9 main_v10
  let main_c_3 : IVec S_ 1 := constantI S_ 1 1#1
  let main_v12 : IVec S_ 1 := (fun x v => Host.reduce IntOp.andi x v reducesTo_S128_S_d0 h_S_) main_v11 main_c_3
  let main_v13 : IVec S_ 1 := andi main_v8 main_v12
  let main_v14 : FVec F S128x2 .f32 := Host.absf main_arg3
  let main_cst_4 : FVec F S_ .f32 := constant S_ .f32 0x7F800000#32
  let main_v15 : FVec F S128x2 .f32 := broadcastInDim S128x2 ![] bcast_S_S128x2 main_cst_4
  let main_v16 : IVec S128x2 1 := cmpf .olt main_v14 main_v15
  fn_part1 (F := F) main_arg4 main_v13 main_v16
-- ==== Kernel.lean ====
abbrev S100000x128 : Shape := ⟨2, ![100000, 128]⟩
abbrev S128x128 : Shape := ⟨2, ![128, 128]⟩
abbrev S128 : Shape := ⟨1, ![128]⟩
abbrev S128x2 : Shape := ⟨2, ![128, 2]⟩
abbrev S2 : Shape := ⟨1, ![2]⟩
abbrev S1600000 : Shape := ⟨1, ![1600000]⟩
abbrev S_ : Shape := ⟨0, ![]⟩
abbrev S100000 : Shape := ⟨1, ![100000]⟩
abbrev S1600000x1 : Shape := ⟨2, ![1600000, 1]⟩
abbrev S100000x1 : Shape := ⟨2, ![100000, 1]⟩
abbrev S100000x2 : Shape := ⟨2, ![100000, 2]⟩
abbrev S2000x128 : Shape := ⟨2, ![2000, 128]⟩
abbrev S2000x2 : Shape := ⟨2, ![2000, 2]⟩
abbrev S2000x1 : Shape := ⟨2, ![2000, 1]⟩
abbrev S1600000x128 : Shape := ⟨2, ![1600000, 128]⟩
abbrev S1x128 : Shape := ⟨2, ![1, 128]⟩
abbrev S1600000x2 : Shape := ⟨2, ![1600000, 2]⟩
abbrev S1x2 : Shape := ⟨2, ![1, 2]⟩

abbrev nBuf : Space → Nat
  | .hbm => 71
  | .vmem => 22
  | .smem => 0
  | _ => 0

abbrev bufTy : (tb : Table) → Fin (tcTables nBuf tb) → BufTy
  | .hbm, ⟨0, _⟩ => ⟨S100000x128, .f32⟩
  | .hbm, ⟨1, _⟩ => ⟨S128x128, .f32⟩
  | .hbm, ⟨2, _⟩ => ⟨S128, .f32⟩
  | .hbm, ⟨3, _⟩ => ⟨S128x2, .f32⟩
  | .hbm, ⟨4, _⟩ => ⟨S2, .f32⟩
  | .hbm, ⟨5, _⟩ => ⟨S1600000, .i32⟩
  | .hbm, ⟨6, _⟩ => ⟨S1600000, .i32⟩
  | .hbm, ⟨7, _⟩ => ⟨S_, .f32⟩
  | .hbm, ⟨8, _⟩ => ⟨S1600000, .f32⟩
  | .hbm, ⟨9, _⟩ => ⟨S_, .f32⟩
  | .hbm, ⟨10, _⟩ => ⟨S100000, .f32⟩
  | .hbm, ⟨11, _⟩ => ⟨S1600000x1, .i32⟩
  | .hbm, ⟨12, _⟩ => ⟨S100000, .f32⟩
  | .hbm, ⟨13, _⟩ => ⟨S_, .f32⟩
  | .hbm, ⟨14, _⟩ => ⟨S100000, .f32⟩
  | .hbm, ⟨15, _⟩ => ⟨S1600000x1, .i32⟩
  | .hbm, ⟨16, _⟩ => ⟨S100000, .f32⟩
  | .hbm, ⟨17, _⟩ => ⟨S_, .f32⟩
  | .hbm, ⟨18, _⟩ => ⟨S100000, .f32⟩
  | .hbm, ⟨19, _⟩ => ⟨S100000, .i1⟩
  | .hbm, ⟨20, _⟩ => ⟨S_, .f32⟩
  | .hbm, ⟨21, _⟩ => ⟨S100000, .f32⟩
  | .hbm, ⟨22, _⟩ => ⟨S100000, .f32⟩
  | .hbm, ⟨23, _⟩ => ⟨S_, .f32⟩
  | .hbm, ⟨24, _⟩ => ⟨S_, .f32⟩
  | .hbm, ⟨25, _⟩ => ⟨S100000, .f32⟩
  | .hbm, ⟨26, _⟩ => ⟨S100000, .f32⟩
  | .hbm, ⟨27, _⟩ => ⟨S_, .f32⟩
  | .hbm, ⟨28, _⟩ => ⟨S100000, .f32⟩
  | .hbm, ⟨29, _⟩ => ⟨S100000, .i1⟩
  | .hbm, ⟨30, _⟩ => ⟨S_, .f32⟩
  | .hbm, ⟨31, _⟩ => ⟨S100000, .f32⟩
  | .hbm, ⟨32, _⟩ => ⟨S100000, .f32⟩
  | .hbm, ⟨33, _⟩ => ⟨S_, .f32⟩
  | .hbm, ⟨34, _⟩ => ⟨S_, .f32⟩
  | .hbm, ⟨35, _⟩ => ⟨S100000, .f32⟩
  | .hbm, ⟨36, _⟩ => ⟨S100000, .f32⟩
  | .hbm, ⟨37, _⟩ => ⟨S100000x1, .f32⟩
  | .hbm, ⟨38, _⟩ => ⟨S100000x1, .f32⟩
  | .hbm, ⟨39, _⟩ => ⟨S100000x2, .f32⟩
  | .hbm, ⟨40, _⟩ => ⟨S100000x128, .f32⟩
  | .hbm, ⟨41, _⟩ => ⟨S_, .i32⟩
  | .hbm, ⟨42, _⟩ => ⟨S1600000, .i32⟩
  | .hbm, ⟨43, _⟩ => ⟨S1600000, .i1⟩
  | .hbm, ⟨44, _⟩ => ⟨S_, .i32⟩
  | .hbm, ⟨45, _⟩ => ⟨S1600000, .i32⟩
  | .hbm, ⟨46, _⟩ => ⟨S1600000, .i32⟩
  | .hbm, ⟨47, _⟩ => ⟨S1600000, .i32⟩
  | .hbm, ⟨48, _⟩ => ⟨S1600000x1, .i32⟩
  | .hbm, ⟨49, _⟩ => ⟨S1600000x128, .f32⟩
  | .hbm, ⟨50, _⟩ => ⟨S_, .f32⟩
  | .hbm, ⟨51, _⟩ => ⟨S100000x128, .f32⟩
  | .hbm, ⟨52, _⟩ => ⟨S1600000x1, .i32⟩
  | .hbm, ⟨53, _⟩ => ⟨S100000x128, .f32⟩
  | .hbm, ⟨54, _⟩ => ⟨S1x128, .f32⟩
  | .hbm, ⟨55, _⟩ => ⟨S100000x2, .f32⟩
  | .hbm, ⟨56, _⟩ => ⟨S_, .i32⟩
  | .hbm, ⟨57, _⟩ => ⟨S1600000, .i32⟩
  | .hbm, ⟨58, _⟩ => ⟨S1600000, .i1⟩
  | .hbm, ⟨59, _⟩ => ⟨S_, .i32⟩
  | .hbm, ⟨60, _⟩ => ⟨S1600000, .i32⟩
  | .hbm, ⟨61, _⟩ => ⟨S1600000, .i32⟩
  | .hbm, ⟨62, _⟩ => ⟨S1600000, .i32⟩
  | .hbm, ⟨63, _⟩ => ⟨S1600000x1, .i32⟩
  | .hbm, ⟨64, _⟩ => ⟨S1600000x2, .f32⟩
  | .hbm, ⟨65, _⟩ => ⟨S_, .f32⟩
  | .hbm, ⟨66, _⟩ => ⟨S100000x2, .f32⟩
  | .hbm, ⟨67, _⟩ => ⟨S1600000x1, .i32⟩
  | .hbm, ⟨68, _⟩ => ⟨S100000x2, .f32⟩
  | .hbm, ⟨69, _⟩ => ⟨S1x2, .f32⟩
  | .hbm, ⟨70, _⟩ => ⟨S100000x2, .f32⟩
  | .local _ .vmem, ⟨0, _⟩ => ⟨S2000x128, .f32⟩
  | .local _ .vmem, ⟨1, _⟩ => ⟨S2000x128, .f32⟩
  | .local _ .vmem, ⟨2, _⟩ => ⟨S2000x2, .f32⟩
  | .local _ .vmem, ⟨3, _⟩ => ⟨S2000x2, .f32⟩
  | .local _ .vmem, ⟨4, _⟩ => ⟨S128x128, .f32⟩
  | .local _ .vmem, ⟨5, _⟩ => ⟨S2000x128, .f32⟩
  | .local _ .vmem, ⟨6, _⟩ => ⟨S2000x128, .f32⟩
  | .local _ .vmem, ⟨7, _⟩ => ⟨S2000x128, .f32⟩
  | .local _ .vmem, ⟨8, _⟩ => ⟨S2000x128, .f32⟩
  | .local _ .vmem, ⟨9, _⟩ => ⟨S2000x2, .f32⟩
  | .local _ .vmem, ⟨10, _⟩ => ⟨S2000x2, .f32⟩
  | .local _ .vmem, ⟨11, _⟩ => ⟨S1x128, .f32⟩
  | .local _ .vmem, ⟨12, _⟩ => ⟨S128x2, .f32⟩
  | .local _ .vmem, ⟨13, _⟩ => ⟨S2000x2, .f32⟩
  | .local _ .vmem, ⟨14, _⟩ => ⟨S2000x2, .f32⟩
  | .local _ .vmem, ⟨15, _⟩ => ⟨S2000x2, .f32⟩
  | .local _ .vmem, ⟨16, _⟩ => ⟨S2000x2, .f32⟩
  | .local _ .vmem, ⟨17, _⟩ => ⟨S2000x2, .f32⟩
  | .local _ .vmem, ⟨18, _⟩ => ⟨S2000x2, .f32⟩
  | .local _ .vmem, ⟨19, _⟩ => ⟨S1x2, .f32⟩
  | .local _ .vmem, ⟨20, _⟩ => ⟨S2000x2, .f32⟩
  | .local _ .vmem, ⟨21, _⟩ => ⟨S2000x2, .f32⟩
  | _, _ => ⟨S100000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | _, _ => false

abbrev semScoped : Fin 0 → Bool
  | ⟨_, h⟩ => absurd h (Nat.not_lt_zero _)

abbrev dmaSemScoped : Fin 22 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | _ => false

abbrev sig : RefSig :=
  ofTc nBuf bufTy 0 22 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_cst : Ref sig .tc := ⟨.hbm, 7, rfl⟩
abbrev main_v0 : Ref sig .tc := ⟨.hbm, 8, rfl⟩
abbrev main_cst_0 : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_cst_1 : Ref sig .tc := ⟨.hbm, 13, rfl⟩
abbrev main_v4 : Ref sig .tc := ⟨.hbm, 14, rfl⟩
abbrev main_v5 : Ref sig .tc := ⟨.hbm, 15, rfl⟩
abbrev main_v6 : Ref sig .tc := ⟨.hbm, 16, rfl⟩
abbrev main_cst_2 : Ref sig .tc := ⟨.hbm, 17, rfl⟩
abbrev main_v7 : Ref sig .tc := ⟨.hbm, 18, rfl⟩
abbrev main_v8 : Ref sig .tc := ⟨.hbm, 19, rfl⟩
abbrev main_cst_3 : Ref sig .tc := ⟨.hbm, 20, rfl⟩
abbrev main_v9 : Ref sig .tc := ⟨.hbm, 21, rfl⟩
abbrev main_v10 : Ref sig .tc := ⟨.hbm, 22, rfl⟩
abbrev main_cst_4 : Ref sig .tc := ⟨.hbm, 23, rfl⟩
abbrev main_call0_v0 : Ref sig .tc := ⟨.hbm, 24, rfl⟩
abbrev main_call0_v1 : Ref sig .tc := ⟨.hbm, 25, rfl⟩
abbrev main_v11 : Ref sig .tc := ⟨.hbm, 26, rfl⟩
abbrev main_cst_5 : Ref sig .tc := ⟨.hbm, 27, rfl⟩
abbrev main_v12 : Ref sig .tc := ⟨.hbm, 28, rfl⟩
abbrev main_v13 : Ref sig .tc := ⟨.hbm, 29, rfl⟩
abbrev main_cst_6 : Ref sig .tc := ⟨.hbm, 30, rfl⟩
abbrev main_v14 : Ref sig .tc := ⟨.hbm, 31, rfl⟩
abbrev main_v15 : Ref sig .tc := ⟨.hbm, 32, rfl⟩
abbrev main_cst_7 : Ref sig .tc := ⟨.hbm, 33, rfl⟩
abbrev main_call1_v0 : Ref sig .tc := ⟨.hbm, 34, rfl⟩
abbrev main_call1_v1 : Ref sig .tc := ⟨.hbm, 35, rfl⟩
abbrev main_v16 : Ref sig .tc := ⟨.hbm, 36, rfl⟩
abbrev main_v17 : Ref sig .tc := ⟨.hbm, 37, rfl⟩
abbrev main_v18 : Ref sig .tc := ⟨.hbm, 38, rfl⟩
abbrev main_v19 : Ref sig .tc := ⟨.hbm, 39, rfl⟩
abbrev main_v20 : Ref sig .tc := ⟨.hbm, 40, rfl⟩
abbrev main_c : Ref sig .tc := ⟨.hbm, 41, rfl⟩
abbrev main_v21 : Ref sig .tc := ⟨.hbm, 42, rfl⟩
abbrev main_v22 : Ref sig .tc := ⟨.hbm, 43, rfl⟩
abbrev main_c_8 : Ref sig .tc := ⟨.hbm, 44, rfl⟩
abbrev main_v23 : Ref sig .tc := ⟨.hbm, 45, rfl⟩
abbrev main_v24 : Ref sig .tc := ⟨.hbm, 46, rfl⟩
abbrev main_v25 : Ref sig .tc := ⟨.hbm, 47, rfl⟩
abbrev main_v26 : Ref sig .tc := ⟨.hbm, 48, rfl⟩
abbrev main_v27 : Ref sig .tc := ⟨.hbm, 49, rfl⟩
abbrev main_cst_9 : Ref sig .tc := ⟨.hbm, 50, rfl⟩
abbrev main_v28 : Ref sig .tc := ⟨.hbm, 51, rfl⟩
abbrev main_v29 : Ref sig .tc := ⟨.hbm, 52, rfl⟩
abbrev main_v30 : Ref sig .tc := ⟨.hbm, 53, rfl⟩
abbrev main_v31 : Ref sig .tc := ⟨.hbm, 54, rfl⟩
abbrev main_v32 : Ref sig .tc := ⟨.hbm, 55, rfl⟩
abbrev main_c_10 : Ref sig .tc := ⟨.hbm, 56, rfl⟩
abbrev main_v33 : Ref sig .tc := ⟨.hbm, 57, rfl⟩
abbrev main_v34 : Ref sig .tc := ⟨.hbm, 58, rfl⟩
abbrev main_c_11 : Ref sig .tc := ⟨.hbm, 59, rfl⟩
abbrev main_v35 : Ref sig .tc := ⟨.hbm, 60, rfl⟩
abbrev main_v36 : Ref sig .tc := ⟨.hbm, 61, rfl⟩
abbrev main_v37 : Ref sig .tc := ⟨.hbm, 62, rfl⟩
abbrev main_v38 : Ref sig .tc := ⟨.hbm, 63, rfl⟩
abbrev main_v39 : Ref sig .tc := ⟨.hbm, 64, rfl⟩
abbrev main_cst_12 : Ref sig .tc := ⟨.hbm, 65, rfl⟩
abbrev main_v40 : Ref sig .tc := ⟨.hbm, 66, rfl⟩
abbrev main_v41 : Ref sig .tc := ⟨.hbm, 67, rfl⟩
abbrev main_v42 : Ref sig .tc := ⟨.hbm, 68, rfl⟩
abbrev main_v43 : Ref sig .tc := ⟨.hbm, 69, rfl⟩
abbrev main_v44 : Ref sig .tc := ⟨.hbm, 70, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg3_1 : Ref sig .tc := ⟨.vmem, 6, rfl⟩
abbrev cc1_stg0_0 : Ref sig .tc := ⟨.vmem, 7, rfl⟩
abbrev cc1_stg0_1 : Ref sig .tc := ⟨.vmem, 8, rfl⟩
abbrev cc1_stg1_0 : Ref sig .tc := ⟨.vmem, 9, rfl⟩
abbrev cc1_stg1_1 : Ref sig .tc := ⟨.vmem, 10, rfl⟩
abbrev cc1_stg2_0 : Ref sig .tc := ⟨.vmem, 11, rfl⟩
abbrev cc1_stg3_0 : Ref sig .tc := ⟨.vmem, 12, rfl⟩
abbrev cc1_stg4_0 : Ref sig .tc := ⟨.vmem, 13, rfl⟩
abbrev cc1_stg4_1 : Ref sig .tc := ⟨.vmem, 14, rfl⟩
abbrev cc2_stg0_0 : Ref sig .tc := ⟨.vmem, 15, rfl⟩
abbrev cc2_stg0_1 : Ref sig .tc := ⟨.vmem, 16, rfl⟩
abbrev cc2_stg1_0 : Ref sig .tc := ⟨.vmem, 17, rfl⟩
abbrev cc2_stg1_1 : Ref sig .tc := ⟨.vmem, 18, rfl⟩
abbrev cc2_stg2_0 : Ref sig .tc := ⟨.vmem, 19, rfl⟩
abbrev cc2_stg3_0 : Ref sig .tc := ⟨.vmem, 20, rfl⟩
abbrev cc2_stg3_1 : Ref sig .tc := ⟨.vmem, 21, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem3_1 : DmaSem sig := 6
abbrev cc1_sem0_0 : DmaSem sig := 7
abbrev cc1_sem0_1 : DmaSem sig := 8
abbrev cc1_sem1_0 : DmaSem sig := 9
abbrev cc1_sem1_1 : DmaSem sig := 10
abbrev cc1_sem2_0 : DmaSem sig := 11
abbrev cc1_sem3_0 : DmaSem sig := 12
abbrev cc1_sem4_0 : DmaSem sig := 13
abbrev cc1_sem4_1 : DmaSem sig := 14
abbrev cc2_sem0_0 : DmaSem sig := 15
abbrev cc2_sem0_1 : DmaSem sig := 16
abbrev cc2_sem1_0 : DmaSem sig := 17
abbrev cc2_sem1_1 : DmaSem sig := 18
abbrev cc2_sem2_0 : DmaSem sig := 19
abbrev cc2_sem3_0 : DmaSem sig := 20
abbrev cc2_sem3_1 : DmaSem sig := 21

abbrev nD : Nat := 1
abbrev τ : Topo := Topo.v7x

variable {F : FTy → Type} [FloatOps F]

abbrev grid0 : Pipeline.Grid := ⟨1, ![50], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S2000x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S2000x2 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S128x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S2000x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev grid1 : Pipeline.Grid := ⟨1, ![50], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S2000x128 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S2000x2 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 1 → Memref sig .tc .vmem S1x128 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 1 → Memref sig .tc .vmem S128x2 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 2 → Memref sig .tc .vmem S2000x2 .f32 := fun | 0 => Memref.whole cc1_stg4_0 | 1 => Memref.whole cc1_stg4_1 | ⟨_ + 2, h⟩ => absurd h (Nat.not_lt.2 (Nat.le_add_left _ _))
abbrev sem1_4 : Fin 2 → DmaSem sig := fun | 0 => cc1_sem4_0 | 1 => cc1_sem4_1 | ⟨_ + 2, h⟩ => absurd h (Nat.not_lt.2 (Nat.le_add_left _ _))
abbrev reads1_4 : Fin grid1.rank → Bool := ![true]

abbrev grid2 : Pipeline.Grid := ⟨1, ![50], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_2 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_3 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S2000x2 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 2 → Memref sig .tc .vmem S2000x2 .f32 := fun | 0 => Memref.whole cc2_stg1_0 | 1 => Memref.whole cc2_stg1_1 | ⟨_ + 2, h⟩ => absurd h (Nat.not_lt.2 (Nat.le_add_left _ _))
abbrev sem2_1 : Fin 2 → DmaSem sig := fun | 0 => cc2_sem1_0 | 1 => cc2_sem1_1 | ⟨_ + 2, h⟩ => absurd h (Nat.not_lt.2 (Nat.le_add_left _ _))
abbrev reads2_1 : Fin grid2.rank → Bool := ![true]

abbrev stage2_2 : Fin 1 → Memref sig .tc .vmem S1x2 .f32 := fun | 0 => Memref.whole cc2_stg2_0 | ⟨_ + 1, h⟩ => absurd h (Nat.not_lt.2 (Nat.le_add_left _ _))
abbrev sem2_2 : Fin 1 → DmaSem sig := fun | 0 => cc2_sem2_0 | ⟨_ + 1, h⟩ => absurd h (Nat.not_lt.2 (Nat.le_add_left _ _))
abbrev reads2_2 : Fin grid2.rank → Bool := ![false]

abbrev stage2_3 : Fin 2 → Memref sig .tc .vmem S2000x2 .f32 := fun | 0 => Memref.whole cc2_stg3_0 | 1 => Memref.whole cc2_stg3_1 | ⟨_ + 2, h⟩ => absurd h (Nat.not_lt.2 (Nat.le_add_left _ _))
abbrev sem2_3 : Fin 2 → DmaSem sig := fun | 0 => cc2_sem3_0 | 1 => cc2_sem3_1 | ⟨_ + 2, h⟩ => absurd h (Nat.not_lt.2 (Nat.le_add_left _ _))
abbrev reads2_3 : Fin grid2.rank → Bool := ![true]

class Facts₀ : Prop where
  bcast_S_S1600000 : S_.BroadcastsInDim S1600000 (![] : Fin 0 → Fin S1600000.rank)
  bcast_S_S100000 : S_.BroadcastsInDim S100000 (![] : Fin 0 → Fin S100000.rank)
  bcast_S1600000_S1600000x1_0 : S1600000.BroadcastsInDim S1600000x1 (![0] : Fin 1 → Fin S1600000x1.rank)
  bcast_S100000_S100000x1_0 : S100000.BroadcastsInDim S100000x1 (![0] : Fin 1 → Fin S100000x1.rank)
  concatenates_S100000x1_S100000x1_S100000x2_d1 : Shape.Concatenates [S100000x1, S100000x1] S100000x2 1
  inb_S2000x128_S2000x128_0_0 : ∀ a, (![0, 0] : Fin 2 → Nat) a + S2000x128.size a ≤ S2000x128.size a
  h_S2000x128 : 0 < S2000x128.numel
  inb_S2000x2_S2000x2_0_0 : ∀ a, (![0, 0] : Fin 2 → Nat) a + S2000x2.size a ≤ S2000x2.size a
  h_S2000x2 : 0 < S2000x2.numel
  shapeCasts_S2000x2_S2000x2 : S2000x2.ShapeCasts S2000x2
  slices_S2000x2_o0_0_S2000x1 : S2000x2.Slices ![0, 0] S2000x1
  broadcasts_S2000x1_S2000x128 : S2000x1.Broadcasts S2000x128
  bitsLt_bf16_f32 : FTy.bits .bf16 < FTy.bits .f32
  inb_S128x128_S128x128_0_0 : ∀ a, (![0, 0] : Fin 2 → Nat) a + S128x128.size a ≤ S128x128.size a
  h_S128x128 : 0 < S128x128.numel
  bcast_S_S100000x128 : S_.BroadcastsInDim S100000x128 (![] : Fin 0 → Fin S100000x128.rank)
  shapeCasts_S128_S1x128 : S128.ShapeCasts S1x128
  shapeCasts_S2000x128_S2000x128 : S2000x128.ShapeCasts S2000x128
  slices_S2000x2_o0_1_S2000x1 : S2000x2.Slices ![0, 1] S2000x1
  inb_S1x128_S1x128_0_0 : ∀ a, (![0, 0] : Fin 2 → Nat) a + S1x128.size a ≤ S1x128.size a
  h_S1x128 : 0 < S1x128.numel
  shapeCasts_S1x128_S1x128 : S1x128.ShapeCasts S1x128
  broadcasts_S1x128_S2000x128 : S1x128.Broadcasts S2000x128
  inb_S128x2_S128x2_0_0 : ∀ a, (![0, 0] : Fin 2 → Nat) a + S128x2.size a ≤ S128x2.size a
  h_S128x2 : 0 < S128x2.numel
  bcast_S_S100000x2 : S_.BroadcastsInDim S100000x2 (![] : Fin 0 → Fin S100000x2.rank)
  shapeCasts_S2_S1x2 : S2.ShapeCasts S1x2
  broadcasts_S2000x1_S2000x2 : S2000x1.Broadcasts S2000x2
  inb_S1x2_S1x2_0_0 : ∀ a, (![0, 0] : Fin 2 → Nat) a + S1x2.size a ≤ S1x2.size a
  h_S1x2 : 0 < S1x2.numel
  shapeCasts_S1x2_S1x2 : S1x2.ShapeCasts S1x2
  broadcasts_S1x2_S2000x2 : S1x2.Broadcasts S2000x2
  scatter_S100000_S1600000x1_S1600000_n_0_0_1_wf : ScatterDims.WF S100000 S1600000x1 S1600000 [] [0] [0] 1
  dot_S2000x128_S128x128_S2000x128_1_0_0_1_n_n_wf : DotDims.WF S2000x128 S128x128 S2000x128 [1] [0] [0] [1] [] []
  gather_S100000x128_S1600000x1_S1600000x128_1_0_n_n_0_1_1128_wf : GatherDims.WF S100000x128 S1600000x1 S1600000x128 [1] [0] [] [0] [] 1 ![1, 128]
  scatter_S100000x128_S1600000x1_S1600000x128_1_0_0_1_wf : ScatterDims.WF S100000x128 S1600000x1 S1600000x128 [1] [0] [0] 1
  dot_S2000x128_S128x2_S2000x2_1_0_0_1_n_n_wf : DotDims.WF S2000x128 S128x2 S2000x2 [1] [0] [0] [1] [] []
  gather_S100000x2_S1600000x1_S1600000x2_1_0_n_n_0_1_12_wf : GatherDims.WF S100000x2 S1600000x1 S1600000x2 [1] [0] [] [0] [] 1 ![1, 2]
  scatter_S100000x2_S1600000x1_S1600000x2_1_0_0_1_wf : ScatterDims.WF S100000x2 S1600000x1 S1600000x2 [1] [0] [0] 1
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S2000x128.size a ≤ S100000x128.size a
  hwx0_0 : ∀ i : grid0.Coords, EltTy.bits .f32 = 32 ∨ (Rect.block (s := S100000x128) S2000x128.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S2000x2.size a ≤ S100000x2.size a
  hwx0_1 : ∀ i : grid0.Coords, EltTy.bits .f32 = 32 ∨ (Rect.block (s := S100000x2) S2000x2.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S128x128.size a ≤ S128x128.size a
  hwx0_2 : ∀ i : grid0.Coords, EltTy.bits .f32 = 32 ∨ (Rect.block (s := S128x128) S128x128.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S2000x128.size a ≤ S100000x128.size a
  hwx0_3 : ∀ i : grid0.Coords, EltTy.bits .f32 = 32 ∨ (Rect.block (s := S100000x128) S2000x128.size (cc0_transform_3 i) (hinb0_3 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S2000x128.size a ≤ S100000x128.size a
  hwx1_0 : ∀ i : grid1.Coords, EltTy.bits .f32 = 32 ∨ (Rect.block (s := S100000x128) S2000x128.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S2000x2.size a ≤ S100000x2.size a
  hwx1_1 : ∀ i : grid1.Coords, EltTy.bits .f32 = 32 ∨ (Rect.block (s := S100000x2) S2000x2.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S1x128.size a ≤ S1x128.size a
  hwx1_2 : ∀ i : grid1.Coords, EltTy.bits .f32 = 32 ∨ (Rect.block (s := S1x128) S1x128.size (cc1_transform_2 i) (hinb1_2 i)).WholeWords (EltTy.packing .f32)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S128x2.size a ≤ S128x2.size a
  hwx1_3 : ∀ i : grid1.Coords, EltTy.bits .f32 = 32 ∨ (Rect.block (s := S128x2) S128x2.size (cc1_transform_3 i) (hinb1_3 i)).WholeWords (EltTy.packing .f32)
  hstage1_4 : ∀ j, (stage1_4 j).IsWhole
  nbuf1_4 : grid1.bufCount reads1_4 false = 2
  hreads1_4 : ∀ i i' : grid1.Coords, (∀ a, reads1_4 a = true → i a = i' a) → cc1_transform_4 i = cc1_transform_4 i'
  hinb1_4 : ∀ (i : grid1.Coords) a, (cc1_transform_4 i a + 1) * S2000x2.size a ≤ S100000x2.size a
  hwx1_4 : ∀ i : grid1.Coords, EltTy.bits .f32 = 32 ∨ (Rect.block (s := S100000x2) S2000x2.size (cc1_transform_4 i) (hinb1_4 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S2000x2.size a ≤ S100000x2.size a
  hwx2_0 : ∀ i : grid2.Coords, EltTy.bits .f32 = 32 ∨ (Rect.block (s := S100000x2) S2000x2.size (cc2_transform_0 i) (hinb2_0 i)).WholeWords (EltTy.packing .f32)
  hstage2_1 : ∀ j, (stage2_1 j).IsWhole
  nbuf2_1 : grid2.bufCount reads2_1 false = 2
  hreads2_1 : ∀ i i' : grid2.Coords, (∀ a, reads2_1 a = true → i a = i' a) → cc2_transform_1 i = cc2_transform_1 i'
  hinb2_1 : ∀ (i : grid2.Coords) a, (cc2_transform_1 i a + 1) * S2000x2.size a ≤ S100000x2.size a
  hwx2_1 : ∀ i : grid2.Coords, EltTy.bits .f32 = 32 ∨ (Rect.block (s := S100000x2) S2000x2.size (cc2_transform_1 i) (hinb2_1 i)).WholeWords (EltTy.packing .f32)
  hstage2_2 : ∀ j, (stage2_2 j).IsWhole
  nbuf2_2 : grid2.bufCount reads2_2 true = 1
  hreads2_2 : ∀ i i' : grid2.Coords, (∀ a, reads2_2 a = true → i a = i' a) → cc2_transform_2 i = cc2_transform_2 i'
  hinb2_2 : ∀ (i : grid2.Coords) a, (cc2_transform_2 i a + 1) * S1x2.size a ≤ S1x2.size a
  hwx2_2 : ∀ i : grid2.Coords, EltTy.bits .f32 = 32 ∨ (Rect.block (s := S1x2) S1x2.size (cc2_transform_2 i) (hinb2_2 i)).WholeWords (EltTy.packing .f32)
  hstage2_3 : ∀ j, (stage2_3 j).IsWhole
  nbuf2_3 : grid2.bufCount reads2_3 false = 2
  hreads2_3 : ∀ i i' : grid2.Coords, (∀ a, reads2_3 a = true → i a = i' a) → cc2_transform_3 i = cc2_transform_3 i'
  hinb2_3 : ∀ (i : grid2.Coords) a, (cc2_transform_3 i a + 1) * S2000x2.size a ≤ S100000x2.size a
  hwx2_3 : ∀ i : grid2.Coords, EltTy.bits .f32 = 32 ∨ (Rect.block (s := S100000x2) S2000x2.size (cc2_transform_3 i) (hinb2_3 i)).WholeWords (EltTy.packing .f32)

variable [Facts₀]

def scatter_S100000_S1600000x1_S1600000_n_0_0_1 : ScatterDims S100000 S1600000x1 S1600000 where
  updateWindowDims := []
  insertedWindowDims := [0]
  scatterDimsToOperandDims := [0]
  indexVectorDim := 1
  wf := scatter_S100000_S1600000x1_S1600000_n_0_0_1_wf
def dot_S2000x128_S128x128_S2000x128_1_0_0_1_n_n : DotDims S2000x128 S128x128 S2000x128 where
  lhsContracting := [1]
  rhsContracting := [0]
  lhsNonContracting := [0]
  rhsNonContracting := [1]
  lhsBatch := []
  rhsBatch := []
  wf := dot_S2000x128_S128x128_S2000x128_1_0_0_1_n_n_wf
def gather_S100000x128_S1600000x1_S1600000x128_1_0_n_n_0_1_1128 : GatherDims S100000x128 S1600000x1 S1600000x128 where
  offsetDims := [1]
  collapsedSliceDims := [0]
  operandBatchingDims := []
  startIndicesBatchingDims := []
  startIndexMap := [0]
  indexVectorDim := 1
  sliceSizes := ![1, 128]
  wf := gather_S100000x128_S1600000x1_S1600000x128_1_0_n_n_0_1_1128_wf
def scatter_S100000x128_S1600000x1_S1600000x128_1_0_0_1 : ScatterDims S100000x128 S1600000x1 S1600000x128 where
  updateWindowDims := [1]
  insertedWindowDims := [0]
  scatterDimsToOperandDims := [0]
  indexVectorDim := 1
  wf := scatter_S100000x128_S1600000x1_S1600000x128_1_0_0_1_wf
def dot_S2000x128_S128x2_S2000x2_1_0_0_1_n_n : DotDims S2000x128 S128x2 S2000x2 where
  lhsContracting := [1]
  rhsContracting := [0]
  lhsNonContracting := [0]
  rhsNonContracting := [1]
  lhsBatch := []
  rhsBatch := []
  wf := dot_S2000x128_S128x2_S2000x2_1_0_0_1_n_n_wf
def gather_S100000x2_S1600000x1_S1600000x2_1_0_n_n_0_1_12 : GatherDims S100000x2 S1600000x1 S1600000x2 where
  offsetDims := [1]
  collapsedSliceDims := [0]
  operandBatchingDims := []
  startIndicesBatchingDims := []
  startIndexMap := [0]
  indexVectorDim := 1
  sliceSizes := ![1, 2]
  wf := gather_S100000x2_S1600000x1_S1600000x2_1_0_n_n_0_1_12_wf
def scatter_S100000x2_S1600000x1_S1600000x2_1_0_0_1 : ScatterDims S100000x2 S1600000x1 S1600000x2 where
  updateWindowDims := [1]
  insertedWindowDims := [0]
  scatterDimsToOperandDims := [0]
  indexVectorDim := 1
  wf := scatter_S100000x2_S1600000x1_S1600000x2_1_0_0_1_wf

abbrev win0_0 : Pipeline.Window sig grid0 :=
  Pipeline.Window.ofSpec (Memref.whole main_arg0) S2000x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v19) S2000x2.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_arg1) S128x128.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v20) S2000x128.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

abbrev win1_0 : Pipeline.Window sig grid1 :=
  Pipeline.Window.ofSpec (Memref.whole main_v30) S2000x128.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v19) S2000x2.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v31) S1x128.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_arg3) S128x2.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_v32) S2000x2.size cc1_transform_4 reads1_4 true false 2 stage1_4 sem1_4
    hrank1 hreads1_4 hinb1_4 nbuf1_4 (Memref.isWhole_whole _) hwx1_4 hstage1_4

abbrev win1 : Fin 5 → Pipeline.Window sig grid1 := fun | 0 => win1_0 | 1 => win1_1 | 2 => win1_2 | 3 => win1_3 | 4 => win1_4 | ⟨_ + 5, h⟩ => absurd h (Nat.not_lt.2 (Nat.le_add_left _ _))
abbrev spec1 : Fin 5 → Pipeline.WinSpec sig grid1.rank := fun w => (win1 w).toWinSpec

abbrev win2_0 : Pipeline.Window sig grid2 :=
  Pipeline.Window.ofSpec (Memref.whole main_v42) S2000x2.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_v19) S2000x2.size cc2_transform_1 reads2_1 false false 2 stage2_1 sem2_1
    hrank2 hreads2_1 hinb2_1 nbuf2_1 (Memref.isWhole_whole _) hwx2_1 hstage2_1

abbrev win2_2 : Pipeline.Window sig grid2 :=
  Pipeline.Window.ofSpec (Memref.whole main_v43) S1x2.size cc2_transform_2 reads2_2 false true 1 stage2_2 sem2_2
    hrank2 hreads2_2 hinb2_2 nbuf2_2 (Memref.isWhole_whole _) hwx2_2 hstage2_2

abbrev win2_3 : Pipeline.Window sig grid2 :=
  Pipeline.Window.ofSpec (Memref.whole main_v44) S2000x2.size cc2_transform_3 reads2_3 true false 2 stage2_3 sem2_3
    hrank2 hreads2_3 hinb2_3 nbuf2_3 (Memref.isWhole_whole _) hwx2_3 hstage2_3

abbrev win2 : Fin 4 → Pipeline.Window sig grid2 := fun | 0 => win2_0 | 1 => win2_1 | 2 => win2_2 | 3 => win2_3 | ⟨_ + 4, h⟩ => absurd h (Nat.not_lt.2 (Nat.le_add_left _ _))
abbrev spec2 : Fin 4 → Pipeline.WinSpec sig grid2.rank := fun w => (win2 w).toWinSpec

class Facts : Prop extends Facts₀ where

variable [Facts]
-- ==== ReferenceIdeal.lean ====
abbrev S100000x128 : Shape := ⟨2, ![100000, 128]⟩
abbrev S128x128 : Shape := ⟨2, ![128, 128]⟩
abbrev S128 : Shape := ⟨1, ![128]⟩
abbrev S128x2 : Shape := ⟨2, ![128, 2]⟩
abbrev S2 : Shape := ⟨1, ![2]⟩
abbrev S1600000 : Shape := ⟨1, ![1600000]⟩
abbrev S_ : Shape := ⟨0, ![]⟩
abbrev S100000 : Shape := ⟨1, ![100000]⟩
abbrev S1600000x1 : Shape := ⟨2, ![1600000, 1]⟩
abbrev S100000x1 : Shape := ⟨2, ![100000, 1]⟩
abbrev S1600000x128 : Shape := ⟨2, ![1600000, 128]⟩
abbrev S1x128 : Shape := ⟨2, ![1, 128]⟩
abbrev S100000x2 : Shape := ⟨2, ![100000, 2]⟩
abbrev S1600000x2 : Shape := ⟨2, ![1600000, 2]⟩
abbrev S1x2 : Shape := ⟨2, ![1, 2]⟩

abbrev nBuf : Space → Nat
  | .hbm => 84
  | .vmem => 0
  | .smem => 0
  | _ => 0

abbrev bufTy : (tb : Table) → Fin (tcTables nBuf tb) → BufTy
  | .hbm, ⟨0, _⟩ => ⟨S100000x128, .f32⟩
  | .hbm, ⟨1, _⟩ => ⟨S128x128, .f32⟩
  | .hbm, ⟨2, _⟩ => ⟨S128, .f32⟩
  | .hbm, ⟨3, _⟩ => ⟨S128x2, .f32⟩
  | .hbm, ⟨4, _⟩ => ⟨S2, .f32⟩
  | .hbm, ⟨5, _⟩ => ⟨S1600000, .i32⟩
  | .hbm, ⟨6, _⟩ => ⟨S1600000, .i32⟩
  | .hbm, ⟨7, _⟩ => ⟨S_, .f32⟩
  | .hbm, ⟨8, _⟩ => ⟨S1600000, .f32⟩
  | .hbm, ⟨9, _⟩ => ⟨S_, .f32⟩
  | .hbm, ⟨10, _⟩ => ⟨S100000, .f32⟩
  | .hbm, ⟨11, _⟩ => ⟨S1600000x1, .i32⟩
  | .hbm, ⟨12, _⟩ => ⟨S100000, .f32⟩
  | .hbm, ⟨13, _⟩ => ⟨S_, .f32⟩
  | .hbm, ⟨14, _⟩ => ⟨S100000, .f32⟩
  | .hbm, ⟨15, _⟩ => ⟨S1600000x1, .i32⟩
  | .hbm, ⟨16, _⟩ => ⟨S100000, .f32⟩
  | .hbm, ⟨17, _⟩ => ⟨S_, .f32⟩
  | .hbm, ⟨18, _⟩ => ⟨S100000, .f32⟩
  | .hbm, ⟨19, _⟩ => ⟨S100000, .i1⟩
  | .hbm, ⟨20, _⟩ => ⟨S_, .f32⟩
  | .hbm, ⟨21, _⟩ => ⟨S100000, .f32⟩
  | .hbm, ⟨22, _⟩ => ⟨S100000, .f32⟩
  | .hbm, ⟨23, _⟩ => ⟨S_, .f32⟩
  | .hbm, ⟨24, _⟩ => ⟨S_, .f32⟩
  | .hbm, ⟨25, _⟩ => ⟨S100000, .f32⟩
  | .hbm, ⟨26, _⟩ => ⟨S100000, .f32⟩
  | .hbm, ⟨27, _⟩ => ⟨S100000x1, .f32⟩
  | .hbm, ⟨28, _⟩ => ⟨S_, .f32⟩
  | .hbm, ⟨29, _⟩ => ⟨S100000, .f32⟩
  | .hbm, ⟨30, _⟩ => ⟨S100000, .i1⟩
  | .hbm, ⟨31, _⟩ => ⟨S_, .f32⟩
  | .hbm, ⟨32, _⟩ => ⟨S100000, .f32⟩
  | .hbm, ⟨33, _⟩ => ⟨S100000, .f32⟩
  | .hbm, ⟨34, _⟩ => ⟨S_, .f32⟩
  | .hbm, ⟨35, _⟩ => ⟨S_, .f32⟩
  | .hbm, ⟨36, _⟩ => ⟨S100000, .f32⟩
  | .hbm, ⟨37, _⟩ => ⟨S100000, .f32⟩
  | .hbm, ⟨38, _⟩ => ⟨S100000x1, .f32⟩
  | .hbm, ⟨39, _⟩ => ⟨S100000x128, .f32⟩
  | .hbm, ⟨40, _⟩ => ⟨S100000x128, .f32⟩
  | .hbm, ⟨41, _⟩ => ⟨S_, .i32⟩
  | .hbm, ⟨42, _⟩ => ⟨S1600000, .i32⟩
  | .hbm, ⟨43, _⟩ => ⟨S1600000, .i1⟩
  | .hbm, ⟨44, _⟩ => ⟨S_, .i32⟩
  | .hbm, ⟨45, _⟩ => ⟨S1600000, .i32⟩
  | .hbm, ⟨46, _⟩ => ⟨S1600000, .i32⟩
  | .hbm, ⟨47, _⟩ => ⟨S1600000, .i32⟩
  | .hbm, ⟨48, _⟩ => ⟨S1600000x1, .i32⟩
  | .hbm, ⟨49, _⟩ => ⟨S1600000x128, .f32⟩
  | .hbm, ⟨50, _⟩ => ⟨S_, .f32⟩
  | .hbm, ⟨51, _⟩ => ⟨S100000x128, .f32⟩
  | .hbm, ⟨52, _⟩ => ⟨S1600000x1, .i32⟩
  | .hbm, ⟨53, _⟩ => ⟨S100000x128, .f32⟩
  | .hbm, ⟨54, _⟩ => ⟨S100000x128, .f32⟩
  | .hbm, ⟨55, _⟩ => ⟨S100000x128, .f32⟩
  | .hbm, ⟨56, _⟩ => ⟨S100000x128, .f32⟩
  | .hbm, ⟨57, _⟩ => ⟨S1x128, .f32⟩
  | .hbm, ⟨58, _⟩ => ⟨S100000x128, .f32⟩
  | .hbm, ⟨59, _⟩ => ⟨S100000x128, .f32⟩
  | .hbm, ⟨60, _⟩ => ⟨S_, .f32⟩
  | .hbm, ⟨61, _⟩ => ⟨S100000x128, .f32⟩
  | .hbm, ⟨62, _⟩ => ⟨S100000x128, .f32⟩
  | .hbm, ⟨63, _⟩ => ⟨S100000x128, .f32⟩
  | .hbm, ⟨64, _⟩ => ⟨S100000x128, .f32⟩
  | .hbm, ⟨65, _⟩ => ⟨S100000x2, .f32⟩
  | .hbm, ⟨66, _⟩ => ⟨S_, .i32⟩
  | .hbm, ⟨67, _⟩ => ⟨S1600000, .i32⟩
  | .hbm, ⟨68, _⟩ => ⟨S1600000, .i1⟩
  | .hbm, ⟨69, _⟩ => ⟨S_, .i32⟩
  | .hbm, ⟨70, _⟩ => ⟨S1600000, .i32⟩
  | .hbm, ⟨71, _⟩ => ⟨S1600000, .i32⟩
  | .hbm, ⟨72, _⟩ => ⟨S1600000, .i32⟩
  | .hbm, ⟨73, _⟩ => ⟨S1600000x1, .i32⟩
  | .hbm, ⟨74, _⟩ => ⟨S1600000x2, .f32⟩
  | .hbm, ⟨75, _⟩ => ⟨S_, .f32⟩
  | .hbm, ⟨76, _⟩ => ⟨S100000x2, .f32⟩
  | .hbm, ⟨77, _⟩ => ⟨S1600000x1, .i32⟩
  | .hbm, ⟨78, _⟩ => ⟨S100000x2, .f32⟩
  | .hbm, ⟨79, _⟩ => ⟨S100000x2, .f32⟩
  | .hbm, ⟨80, _⟩ => ⟨S100000x2, .f32⟩
  | .hbm, ⟨81, _⟩ => ⟨S1x2, .f32⟩
  | .hbm, ⟨82, _⟩ => ⟨S100000x2, .f32⟩
  | .hbm, ⟨83, _⟩ => ⟨S100000x2, .f32⟩
  | _, _ => ⟨S100000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_cst : Ref sig .tc := ⟨.hbm, 7, rfl⟩
abbrev main_v0 : Ref sig .tc := ⟨.hbm, 8, rfl⟩
abbrev main_cst_0 : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_cst_1 : Ref sig .tc := ⟨.hbm, 13, rfl⟩
abbrev main_v4 : Ref sig .tc := ⟨.hbm, 14, rfl⟩
abbrev main_v5 : Ref sig .tc := ⟨.hbm, 15, rfl⟩
abbrev main_v6 : Ref sig .tc := ⟨.hbm, 16, rfl⟩
abbrev main_cst_2 : Ref sig .tc := ⟨.hbm, 17, rfl⟩
abbrev main_v7 : Ref sig .tc := ⟨.hbm, 18, rfl⟩
abbrev main_v8 : Ref sig .tc := ⟨.hbm, 19, rfl⟩
abbrev main_cst_3 : Ref sig .tc := ⟨.hbm, 20, rfl⟩
abbrev main_v9 : Ref sig .tc := ⟨.hbm, 21, rfl⟩
abbrev main_v10 : Ref sig .tc := ⟨.hbm, 22, rfl⟩
abbrev main_cst_4 : Ref sig .tc := ⟨.hbm, 23, rfl⟩
abbrev main_call0_v0 : Ref sig .tc := ⟨.hbm, 24, rfl⟩
abbrev main_call0_v1 : Ref sig .tc := ⟨.hbm, 25, rfl⟩
abbrev main_v11 : Ref sig .tc := ⟨.hbm, 26, rfl⟩
abbrev main_v12 : Ref sig .tc := ⟨.hbm, 27, rfl⟩
abbrev main_cst_5 : Ref sig .tc := ⟨.hbm, 28, rfl⟩
abbrev main_v13 : Ref sig .tc := ⟨.hbm, 29, rfl⟩
abbrev main_v14 : Ref sig .tc := ⟨.hbm, 30, rfl⟩
abbrev main_cst_6 : Ref sig .tc := ⟨.hbm, 31, rfl⟩
abbrev main_v15 : Ref sig .tc := ⟨.hbm, 32, rfl⟩
abbrev main_v16 : Ref sig .tc := ⟨.hbm, 33, rfl⟩
abbrev main_cst_7 : Ref sig .tc := ⟨.hbm, 34, rfl⟩
abbrev main_call1_v0 : Ref sig .tc := ⟨.hbm, 35, rfl⟩
abbrev main_call1_v1 : Ref sig .tc := ⟨.hbm, 36, rfl⟩
abbrev main_v17 : Ref sig .tc := ⟨.hbm, 37, rfl⟩
abbrev main_v18 : Ref sig .tc := ⟨.hbm, 38, rfl⟩
abbrev main_v19 : Ref sig .tc := ⟨.hbm, 39, rfl⟩
abbrev main_v20 : Ref sig .tc := ⟨.hbm, 40, rfl⟩
abbrev main_c : Ref sig .tc := ⟨.hbm, 41, rfl⟩
abbrev main_v21 : Ref sig .tc := ⟨.hbm, 42, rfl⟩
abbrev main_v22 : Ref sig .tc := ⟨.hbm, 43, rfl⟩
abbrev main_c_8 : Ref sig .tc := ⟨.hbm, 44, rfl⟩
abbrev main_v23 : Ref sig .tc := ⟨.hbm, 45, rfl⟩
abbrev main_v24 : Ref sig .tc := ⟨.hbm, 46, rfl⟩
abbrev main_v25 : Ref sig .tc := ⟨.hbm, 47, rfl⟩
abbrev main_v26 : Ref sig .tc := ⟨.hbm, 48, rfl⟩
abbrev main_v27 : Ref sig .tc := ⟨.hbm, 49, rfl⟩
abbrev main_cst_9 : Ref sig .tc := ⟨.hbm, 50, rfl⟩
abbrev main_v28 : Ref sig .tc := ⟨.hbm, 51, rfl⟩
abbrev main_v29 : Ref sig .tc := ⟨.hbm, 52, rfl⟩
abbrev main_v30 : Ref sig .tc := ⟨.hbm, 53, rfl⟩
abbrev main_v31 : Ref sig .tc := ⟨.hbm, 54, rfl⟩
abbrev main_v32 : Ref sig .tc := ⟨.hbm, 55, rfl⟩
abbrev main_v33 : Ref sig .tc := ⟨.hbm, 56, rfl⟩
abbrev main_v34 : Ref sig .tc := ⟨.hbm, 57, rfl⟩
abbrev main_v35 : Ref sig .tc := ⟨.hbm, 58, rfl⟩
abbrev main_v36 : Ref sig .tc := ⟨.hbm, 59, rfl⟩
abbrev main_call2_cst : Ref sig .tc := ⟨.hbm, 60, rfl⟩
abbrev main_call2_v0 : Ref sig .tc := ⟨.hbm, 61, rfl⟩
abbrev main_v37 : Ref sig .tc := ⟨.hbm, 62, rfl⟩
abbrev main_v38 : Ref sig .tc := ⟨.hbm, 63, rfl⟩
abbrev main_v39 : Ref sig .tc := ⟨.hbm, 64, rfl⟩
abbrev main_v40 : Ref sig .tc := ⟨.hbm, 65, rfl⟩
abbrev main_c_10 : Ref sig .tc := ⟨.hbm, 66, rfl⟩
abbrev main_v41 : Ref sig .tc := ⟨.hbm, 67, rfl⟩
abbrev main_v42 : Ref sig .tc := ⟨.hbm, 68, rfl⟩
abbrev main_c_11 : Ref sig .tc := ⟨.hbm, 69, rfl⟩
abbrev main_v43 : Ref sig .tc := ⟨.hbm, 70, rfl⟩
abbrev main_v44 : Ref sig .tc := ⟨.hbm, 71, rfl⟩
abbrev main_v45 : Ref sig .tc := ⟨.hbm, 72, rfl⟩
abbrev main_v46 : Ref sig .tc := ⟨.hbm, 73, rfl⟩
abbrev main_v47 : Ref sig .tc := ⟨.hbm, 74, rfl⟩
abbrev main_cst_12 : Ref sig .tc := ⟨.hbm, 75, rfl⟩
abbrev main_v48 : Ref sig .tc := ⟨.hbm, 76, rfl⟩
abbrev main_v49 : Ref sig .tc := ⟨.hbm, 77, rfl⟩
abbrev main_v50 : Ref sig .tc := ⟨.hbm, 78, rfl⟩
abbrev main_v51 : Ref sig .tc := ⟨.hbm, 79, rfl⟩
abbrev main_v52 : Ref sig .tc := ⟨.hbm, 80, rfl⟩
abbrev main_v53 : Ref sig .tc := ⟨.hbm, 81, rfl⟩
abbrev main_v54 : Ref sig .tc := ⟨.hbm, 82, rfl⟩
abbrev main_v55 : Ref sig .tc := ⟨.hbm, 83, rfl⟩

abbrev nD : Nat := 1
abbrev τ : Topo := Topo.v7x

variable {F : FTy → Type} [FloatOps F]

class Facts₀ : Prop where
  bcast_S_S1600000 : S_.BroadcastsInDim S1600000 (![] : Fin 0 → Fin S1600000.rank)
  bcast_S_S100000 : S_.BroadcastsInDim S100000 (![] : Fin 0 → Fin S100000.rank)
  bcast_S1600000_S1600000x1_0 : S1600000.BroadcastsInDim S1600000x1 (![0] : Fin 1 → Fin S1600000x1.rank)
  bcast_S100000_S100000x1_0 : S100000.BroadcastsInDim S100000x1 (![0] : Fin 1 → Fin S100000x1.rank)
  bcast_S100000x1_S100000x128_0_1 : S100000x1.BroadcastsInDim S100000x128 (![0, 1] : Fin 2 → Fin S100000x128.rank)
  bcast_S_S100000x128 : S_.BroadcastsInDim S100000x128 (![] : Fin 0 → Fin S100000x128.rank)
  bcast_S128_S1x128_1 : S128.BroadcastsInDim S1x128 (![1] : Fin 1 → Fin S1x128.rank)
  bcast_S1x128_S100000x128_0_1 : S1x128.BroadcastsInDim S100000x128 (![0, 1] : Fin 2 → Fin S100000x128.rank)
  bcast_S_S100000x2 : S_.BroadcastsInDim S100000x2 (![] : Fin 0 → Fin S100000x2.rank)
  bcast_S100000x1_S100000x2_0_1 : S100000x1.BroadcastsInDim S100000x2 (![0, 1] : Fin 2 → Fin S100000x2.rank)
  bcast_S2_S1x2_1 : S2.BroadcastsInDim S1x2 (![1] : Fin 1 → Fin S1x2.rank)
  bcast_S1x2_S100000x2_0_1 : S1x2.BroadcastsInDim S100000x2 (![0, 1] : Fin 2 → Fin S100000x2.rank)
  scatter_S100000_S1600000x1_S1600000_n_0_0_1_wf : ScatterDims.WF S100000 S1600000x1 S1600000 [] [0] [0] 1
  gather_S100000x128_S1600000x1_S1600000x128_1_0_n_n_0_1_1128_wf : GatherDims.WF S100000x128 S1600000x1 S1600000x128 [1] [0] [] [0] [] 1 ![1, 128]
  scatter_S100000x128_S1600000x1_S1600000x128_1_0_0_1_wf : ScatterDims.WF S100000x128 S1600000x1 S1600000x128 [1] [0] [0] 1
  dot_S100000x128_S128x128_S100000x128_1_0_0_1_n_n_wf : DotDims.WF S100000x128 S128x128 S100000x128 [1] [0] [0] [1] [] []
  dot_S100000x128_S128x2_S100000x2_1_0_0_1_n_n_wf : DotDims.WF S100000x128 S128x2 S100000x2 [1] [0] [0] [1] [] []
  gather_S100000x2_S1600000x1_S1600000x2_1_0_n_n_0_1_12_wf : GatherDims.WF S100000x2 S1600000x1 S1600000x2 [1] [0] [] [0] [] 1 ![1, 2]
  scatter_S100000x2_S1600000x1_S1600000x2_1_0_0_1_wf : ScatterDims.WF S100000x2 S1600000x1 S1600000x2 [1] [0] [0] 1

variable [Facts₀]

def scatter_S100000_S1600000x1_S1600000_n_0_0_1 : ScatterDims S100000 S1600000x1 S1600000 where
  updateWindowDims := []
  insertedWindowDims := [0]
  scatterDimsToOperandDims := [0]
  indexVectorDim := 1
  wf := scatter_S100000_S1600000x1_S1600000_n_0_0_1_wf
def gather_S100000x128_S1600000x1_S1600000x128_1_0_n_n_0_1_1128 : GatherDims S100000x128 S1600000x1 S1600000x128 where
  offsetDims := [1]
  collapsedSliceDims := [0]
  operandBatchingDims := []
  startIndicesBatchingDims := []
  startIndexMap := [0]
  indexVectorDim := 1
  sliceSizes := ![1, 128]
  wf := gather_S100000x128_S1600000x1_S1600000x128_1_0_n_n_0_1_1128_wf
def scatter_S100000x128_S1600000x1_S1600000x128_1_0_0_1 : ScatterDims S100000x128 S1600000x1 S1600000x128 where
  updateWindowDims := [1]
  insertedWindowDims := [0]
  scatterDimsToOperandDims := [0]
  indexVectorDim := 1
  wf := scatter_S100000x128_S1600000x1_S1600000x128_1_0_0_1_wf
def dot_S100000x128_S128x128_S100000x128_1_0_0_1_n_n : DotDims S100000x128 S128x128 S100000x128 where
  lhsContracting := [1]
  rhsContracting := [0]
  lhsNonContracting := [0]
  rhsNonContracting := [1]
  lhsBatch := []
  rhsBatch := []
  wf := dot_S100000x128_S128x128_S100000x128_1_0_0_1_n_n_wf
def dot_S100000x128_S128x2_S100000x2_1_0_0_1_n_n : DotDims S100000x128 S128x2 S100000x2 where
  lhsContracting := [1]
  rhsContracting := [0]
  lhsNonContracting := [0]
  rhsNonContracting := [1]
  lhsBatch := []
  rhsBatch := []
  wf := dot_S100000x128_S128x2_S100000x2_1_0_0_1_n_n_wf
def gather_S100000x2_S1600000x1_S1600000x2_1_0_n_n_0_1_12 : GatherDims S100000x2 S1600000x1 S1600000x2 where
  offsetDims := [1]
  collapsedSliceDims := [0]
  operandBatchingDims := []
  startIndicesBatchingDims := []
  startIndexMap := [0]
  indexVectorDim := 1
  sliceSizes := ![1, 2]
  wf := gather_S100000x2_S1600000x1_S1600000x2_1_0_n_n_0_1_12_wf
def scatter_S100000x2_S1600000x1_S1600000x2_1_0_0_1 : ScatterDims S100000x2 S1600000x1 S1600000x2 where
  updateWindowDims := [1]
  insertedWindowDims := [0]
  scatterDimsToOperandDims := [0]
  indexVectorDim := 1
  wf := scatter_S100000x2_S1600000x1_S1600000x2_1_0_0_1_wf

class Facts : Prop extends Facts₀ where

variable [Facts]
-- ==== Proof.KernelRun.lean ====
/-
  The idealized kernel run to its end with its result array named.

  The program is three pipelined regions among stretches of host operations. The contents of every buffer at each
  segment boundary are a fold from the launch memory: a host stretch rewrites the buffers its operations write, and a
  region leaves each of its arrays at what its write-backs leave and every other buffer as it found it. Every weakly fair
  execution terminates, nothing faulting, in a state whose unscoped buffers hold the last boundary's contents; read at
  the result array and at the seven argument arrays this is `run_main`: the result holds the last boundary's contents
  of its buffer, and the arguments are as launched.
-/
import proofs.«127194_j20126216749771_2_alg».proof.Proof.Gen.KernelIdeal.Frame

set_option maxRecDepth 16384

noncomputable section

namespace Cert.KernelIdeal.RunValue

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
/-- Every weakly fair execution of the program terminates, nothing faulting, with the result array at the last
    boundary's contents of its buffer and the argument arrays as launched. -/
theorem run_main : θ_run defs (onTc (τ := τ) (main (F := F))) ⟨m, fun _ => 0, ρ⟩ (fun r => ∀ c : Dev nD,
      r.2.mem ((c.tc : Thread nD τ).loc main_v44) = W10 m ρ c (Proc.devRef .tc main_v44)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W10 m ρ c b)
    (hfin := fun c s' => by
      iintro ⟨⟨Hh, -⟩, HSI⟩
      unfold StableHlo.held
      imodintro
      iapply (pointsTo_read_all (Pipeline.ucRefs τ sig) (fun b => (((c : Thread nD τ)).1, b)) (W10 m ρ c) s')
      isplitl [Hh] <;> iassumption)
    (hQ := fun s h c =>
      ⟨h c _ (mem_uc main_v44 (by decide)),
       (h c _ (mem_uc main_arg0 (by decide))).trans (W10_main_arg0 m ρ c),
       (h c _ (mem_uc main_arg1 (by decide))).trans (W10_main_arg1 m ρ c),
       (h c _ (mem_uc main_arg2 (by decide))).trans (W10_main_arg2 m ρ c),
       (h c _ (mem_uc main_arg3 (by decide))).trans (W10_main_arg3 m ρ c),
       (h c _ (mem_uc main_arg4 (by decide))).trans (W10_main_arg4 m ρ c),
       (h c _ (mem_uc main_arg5 (by decide))).trans (W10_main_arg5 m ρ c),
       (h c _ (mem_uc main_arg6 (by decide))).trans (W10_main_arg6 m ρ c)⟩)

end Cert.KernelIdeal.RunValue

end
-- ==== Proof.LibFinite.lean ====
/-
  Real-valued entries of extended-real arrays.

  The ideal reading of a float program computes on the extended reals, where algebraic laws
  such as a * (b - c) = a * b - a * c fail at the infinities. This file states when an
  extended real is a real number (IsReal), a real number that is not negative (IsNonneg) or
  a positive real number (IsPos), shows that these are kept by the arithmetic of the ideal
  instance, and lifts them to arrays: every elementwise, layout, gather, scatter-add,
  reduce-add, dot-product, quotient and reciprocal-square-root operation of the host maps
  arrays of real numbers to arrays of real numbers, under the side conditions stated.
-/
import Idealize.ShloMosaic.PureOps.Ideal.Laws
import Idealize.ShloMosaic.Lib.IdealHost

namespace Cert.LibFinite

open Idealize.ShloMosaic
open scoped BigOperators

/-! ## Scalars -/

/-- An extended real that is a real number: neither infinity. -/
def IsReal (x : EReal) : Prop := ∃ r : ℝ, x = (r : EReal)

/-- An extended real that is a real number and not negative. -/
def IsNonneg (x : EReal) : Prop := ∃ r : ℝ, 0 ≤ r ∧ x = (r : EReal)

/-- An extended real that is a positive real number. -/
def IsPos (x : EReal) : Prop := ∃ r : ℝ, 0 < r ∧ x = (r : EReal)

/-- A real number, read as an extended real, is a real number. -/
theorem isReal_coe (r : ℝ) : IsReal (r : EReal) := ⟨r, rfl⟩

/-- Zero is a real number. -/
theorem isReal_zero : IsReal 0 := ⟨0, rfl⟩

/-- One is a real number. -/
theorem isReal_one : IsReal 1 := ⟨1, rfl⟩

/-- A real number is not the upper infinity. -/
theorem IsReal.ne_top {x : EReal} (h : IsReal x) : x ≠ ⊤ := by
  obtain ⟨r, rfl⟩ := h; exact EReal.coe_ne_top r

/-- A real number is not the lower infinity. -/
theorem IsReal.ne_bot {x : EReal} (h : IsReal x) : x ≠ ⊥ := by
  obtain ⟨r, rfl⟩ := h; exact EReal.coe_ne_bot r

/-- An extended real that is neither infinity is a real number. -/
theorem isReal_of_ne {x : EReal} (hb : x ≠ ⊥) (ht : x ≠ ⊤) : IsReal x := by
  induction x using EReal.rec with
  | bot => exact absurd rfl hb
  | coe r => exact ⟨r, rfl⟩
  | top => exact absurd rfl ht

/-- Being a real number is being neither infinity. -/
theorem isReal_iff {x : EReal} : IsReal x ↔ x ≠ ⊥ ∧ x ≠ ⊤ :=
  ⟨fun h => ⟨h.ne_bot, h.ne_top⟩, fun h => isReal_of_ne h.1 h.2⟩

/-- A real number that is not negative is a real number. -/
theorem IsNonneg.isReal {x : EReal} (h : IsNonneg x) : IsReal x := by
  obtain ⟨r, _, rfl⟩ := h; exact ⟨r, rfl⟩

/-- A positive real number is not negative. -/
theorem IsPos.isNonneg {x : EReal} (h : IsPos x) : IsNonneg x := by
  obtain ⟨r, hr, rfl⟩ := h; exact ⟨r, hr.le, rfl⟩

/-- A positive real number is a real number. -/
theorem IsPos.isReal {x : EReal} (h : IsPos x) : IsReal x := h.isNonneg.isReal

/-- A real number that is not negative is at least zero in the order of the extended reals. -/
theorem IsNonneg.nonneg {x : EReal} (h : IsNonneg x) : 0 ≤ x := by
  obtain ⟨r, hr, rfl⟩ := h; exact EReal.coe_nonneg.2 hr

/-- A positive real number is above zero in the order of the extended reals. -/
theorem IsPos.pos {x : EReal} (h : IsPos x) : 0 < x := by
  obtain ⟨r, hr, rfl⟩ := h; exact EReal.coe_pos.2 hr

/-- A positive real number is not zero. -/
theorem IsPos.ne_zero {x : EReal} (h : IsPos x) : x ≠ 0 := h.pos.ne'

/-- A real number above zero in the order of the extended reals is a positive real number. -/
theorem IsReal.isPos {x : EReal} (h : IsReal x) (hx : 0 < x) : IsPos x := by
  obtain ⟨r, rfl⟩ := h; exact ⟨r, EReal.coe_pos.1 hx, rfl⟩

/-- A real number at least zero in the order of the extended reals is a real number that is not negative. -/
theorem IsReal.isNonneg {x : EReal} (h : IsReal x) (hx : 0 ≤ x) : IsNonneg x := by
  obtain ⟨r, rfl⟩ := h; exact ⟨r, EReal.coe_nonneg.1 hx, rfl⟩

/-- Zero is a real number that is not negative. -/
theorem isNonneg_zero : IsNonneg 0 := ⟨0, le_rfl, rfl⟩

/-- One is a positive real number. -/
theorem isPos_one : IsPos 1 := ⟨1, one_pos, rfl⟩

/-- The sum of two real numbers is a real number. -/
theorem IsReal.add {x y : EReal} (hx : IsReal x) (hy : IsReal y) : IsReal (x + y) := by
  obtain ⟨a, rfl⟩ := hx; obtain ⟨b, rfl⟩ := hy; exact ⟨a + b, (EReal.coe_add a b).symm⟩

/-- The negative of a real number is a real number. -/
theorem IsReal.neg {x : EReal} (hx : IsReal x) : IsReal (-x) := by
  obtain ⟨a, rfl⟩ := hx; exact ⟨-a, (EReal.coe_neg a).symm⟩

/-- The difference of two real numbers is a real number. -/
theorem IsReal.sub {x y : EReal} (hx : IsReal x) (hy : IsReal y) : IsReal (x - y) := by
  obtain ⟨a, rfl⟩ := hx; obtain ⟨b, rfl⟩ := hy; exact ⟨a - b, (EReal.coe_sub a b).symm⟩

/-- The product of two real numbers is a real number. -/
theorem IsReal.mul {x y : EReal} (hx : IsReal x) (hy : IsReal y) : IsReal (x * y) := by
  obtain ⟨a, rfl⟩ := hx; obtain ⟨b, rfl⟩ := hy; exact ⟨a * b, (EReal.coe_mul a b).symm⟩

/-- The greater of two real numbers is a real number. -/
theorem IsReal.max {x y : EReal} (hx : IsReal x) (hy : IsReal y) : IsReal (Max.max x y) := by
  rcases max_choice x y with h | h <;> rw [h] <;> assumption

/-- The lesser of two real numbers is a real number. -/
theorem IsReal.min {x y : EReal} (hx : IsReal x) (hy : IsReal y) : IsReal (Min.min x y) := by
  rcases min_choice x y with h | h <;> rw [h] <;> assumption

/-- The greater of a real number and a real number that is not negative is not negative. -/
theorem IsReal.max_nonneg {x y : EReal} (hx : IsReal x) (hy : IsNonneg y) : IsNonneg (Max.max x y) :=
  (IsReal.max hx hy.isReal).isNonneg (le_trans hy.nonneg (le_max_right x y))

/-- A finite sum of real numbers is a real number. -/
theorem isReal_sum {ι : Type} (s : Finset ι) (f : ι → EReal) (h : ∀ i ∈ s, IsReal (f i)) :
    IsReal (∑ i ∈ s, f i) := by
  classical
  induction s using Finset.induction_on with
  | empty => rw [Finset.sum_empty]; exact isReal_zero
  | insert a s ha ih =>
    rw [Finset.sum_insert ha]
    exact (h a (Finset.mem_insert_self a s)).add (ih fun i hi => h i (Finset.mem_insert_of_mem hi))

/-- The sum of two real numbers that are not negative is not negative. -/
theorem IsNonneg.add {x y : EReal} (hx : IsNonneg x) (hy : IsNonneg y) : IsNonneg (x + y) :=
  (hx.isReal.add hy.isReal).isNonneg (add_nonneg hx.nonneg hy.nonneg)

/-- A real number that is not negative plus a positive real number is a positive real number. -/
theorem IsNonneg.add_pos {x y : EReal} (hx : IsNonneg x) (hy : IsPos y) : IsPos (x + y) := by
  obtain ⟨a, ha, rfl⟩ := hx; obtain ⟨b, hb, rfl⟩ := hy
  exact ⟨a + b, by linarith, (EReal.coe_add a b).symm⟩

/-- The product of two real numbers that are not negative is not negative. -/
theorem IsNonneg.mul {x y : EReal} (hx : IsNonneg x) (hy : IsNonneg y) : IsNonneg (x * y) := by
  obtain ⟨a, ha, rfl⟩ := hx; obtain ⟨b, hb, rfl⟩ := hy
  exact ⟨a * b, mul_nonneg ha hb, (EReal.coe_mul a b).symm⟩

/-- The product of two positive real numbers is a positive real number. -/
theorem IsPos.mul {x y : EReal} (hx : IsPos x) (hy : IsPos y) : IsPos (x * y) := by
  obtain ⟨a, ha, rfl⟩ := hx; obtain ⟨b, hb, rfl⟩ := hy
  exact ⟨a * b, mul_pos ha hb, (EReal.coe_mul a b).symm⟩

/-- The square of a real number is a real number that is not negative. -/
theorem IsReal.mul_self {x : EReal} (hx : IsReal x) : IsNonneg (x * x) := by
  obtain ⟨a, rfl⟩ := hx; exact ⟨a * a, mul_self_nonneg a, (EReal.coe_mul a a).symm⟩

/-- A finite sum of real numbers that are not negative is a real number that is not negative. -/
theorem isNonneg_sum {ι : Type} (s : Finset ι) (f : ι → EReal) (h : ∀ i ∈ s, IsNonneg (f i)) :
    IsNonneg (∑ i ∈ s, f i) :=
  (isReal_sum s f fun i hi => (h i hi).isReal).isNonneg (Finset.sum_nonneg fun i hi => (h i hi).nonneg)

/-- The ideal quotient of a real number by a real number that is not zero is a real number. -/
theorem IsReal.div {x y : EReal} (hx : IsReal x) (hy : IsReal y) (h0 : y ≠ 0) : IsReal (Ideal.div x y) := by
  obtain ⟨a, rfl⟩ := hx; obtain ⟨b, rfl⟩ := hy
  have hb : b ≠ 0 := fun e => h0 (by rw [e]; rfl)
  rw [Ideal.div_coe hb]; exact (isReal_coe a).mul (isReal_coe _)

/-- The ideal quotient of a real number that is not negative by a positive real number is not negative. -/
theorem IsNonneg.div {x y : EReal} (hx : IsNonneg x) (hy : IsPos y) : IsNonneg (Ideal.div x y) := by
  obtain ⟨a, ha, rfl⟩ := hx; obtain ⟨b, hb, rfl⟩ := hy
  rw [Ideal.div_coe hb.ne']
  exact IsNonneg.mul ⟨a, ha, rfl⟩ ⟨1 / b, by positivity, rfl⟩

/-- The ideal quotient of two positive real numbers is a positive real number. -/
theorem IsPos.div {x y : EReal} (hx : IsPos x) (hy : IsPos y) : IsPos (Ideal.div x y) := by
  obtain ⟨a, ha, rfl⟩ := hx; obtain ⟨b, hb, rfl⟩ := hy
  rw [Ideal.div_coe hb.ne']
  exact IsPos.mul ⟨a, ha, rfl⟩ ⟨1 / b, by positivity, rfl⟩

/-- The ideal reciprocal square root of a positive real number is a positive real number. -/
theorem IsPos.rsqrt {x : EReal} (hx : IsPos x) : IsPos (Ideal.rsqrt x) := by
  obtain ⟨a, ha, rfl⟩ := hx
  rw [Ideal.rsqrt_coe, if_neg (not_lt.2 ha.le), if_neg ha.ne']
  exact ⟨(Real.sqrt a)⁻¹, inv_pos.2 (Real.sqrt_pos.2 ha), rfl⟩

/-- The affine form of a normalisation: over the real numbers, scaling the centred value and shifting is
    one multiplication and one addition. It fails at the infinities, hence the hypotheses. -/
theorem scale_shift_eq {g h m s b : EReal} (hg : IsReal g) (hh : IsReal h) (hm : IsReal m) (hs : IsReal s)
    (hb : IsReal b) : g * (h - m) * s + b = h * (g * s) + (b - (g * m) * s) := by
  obtain ⟨g, rfl⟩ := hg; obtain ⟨h, rfl⟩ := hh; obtain ⟨m, rfl⟩ := hm; obtain ⟨s, rfl⟩ := hs
  obtain ⟨b, rfl⟩ := hb
  simp only [← EReal.coe_sub, ← EReal.coe_mul, ← EReal.coe_add]
  exact congrArg _ (by ring)

/-! ## Arrays -/

/-- Every entry of a family of extended reals has the property P. -/
def All {ι : Type} (P : EReal → Prop) (f : ι → EReal) : Prop := ∀ i, P (f i)

/-- Every entry of the family is a real number. -/
abbrev AllReal {ι : Type} (f : ι → EReal) : Prop := All IsReal f

/-- Every entry of the family is a real number that is not negative. -/
abbrev AllNonneg {ι : Type} (f : ι → EReal) : Prop := All IsNonneg f

/-- Every entry of the family is a positive real number. -/
abbrev AllPos {ι : Type} (f : ι → EReal) : Prop := All IsPos f

/-- A property that implies another, entry by entry. -/
theorem All.mono {ι : Type} {P Q : EReal → Prop} (h : ∀ x, P x → Q x) {f : ι → EReal} (hf : All P f) : All Q f :=
  fun i => h _ (hf i)

/-- Positive real entries are real entries. -/
theorem allReal_of_allPos {ι : Type} {f : ι → EReal} (hf : AllPos f) : AllReal f := hf.mono fun _ => IsPos.isReal

/-- Real entries that are not negative are real entries. -/
theorem allReal_of_allNonneg {ι : Type} {f : ι → EReal} (hf : AllNonneg f) : AllReal f :=
  hf.mono fun _ => IsNonneg.isReal

/-- Positive real entries are not negative. -/
theorem allNonneg_of_allPos {ι : Type} {f : ι → EReal} (hf : AllPos f) : AllNonneg f :=
  hf.mono fun _ => IsPos.isNonneg

/-- Reading a family through any map of indices keeps a property of all its entries. -/
theorem All.comp {ι κ : Type} {P : EReal → Prop} {f : ι → EReal} (hf : All P f) (g : κ → ι) :
    All P (fun j => f (g j)) := fun j => hf (g j)

section Arrays
variable {s t : Shape} {φ : FTy} {P : EReal → Prop}

/-! ### Constants and layout operations: every entry of the result is an entry of the operand -/

/-- A splat constant has the property of the value its bit pattern denotes. -/
theorem all_constant {b : BitVec φ.bits} (hb : P (Ideal.ofBits φ b)) : All P (constant (F := Ideal) s φ b) :=
  fun _ => hb

/-- A broadcast reads entries of its operand. -/
theorem all_broadcastInDim {dims : Fin s.rank → Fin t.rank} {h : s.BroadcastsInDim t dims} {x : s.Idx → EReal}
    (hx : All P x) : All P (broadcastInDim t dims h x) := fun _ => hx _

/-- A reshape reads entries of its operand. -/
theorem all_shapeCast {h : s.ShapeCasts t} {x : s.Idx → EReal} (hx : All P x) : All P (shapeCast t x h) :=
  fun _ => hx _

/-- A slice reads entries of its operand. -/
theorem all_extractStridedSlice {off : Fin s.rank → Nat} {h : s.Slices off t} {x : s.Idx → EReal} (hx : All P x) :
    All P (extractStridedSlice t off x h) := fun _ => hx _

/-- A gather reads entries of its operand, whatever the indices are. -/
theorem all_gather {si : Shape} {w : Nat} {d : GatherDims s si t} {x : s.Idx → EReal} {idx : IVec si w}
    (hx : All P x) : All P (Host.gather d x idx) := fun _ => hx _

/-- A select whose two branches have the property where they are chosen has it everywhere. -/
theorem all_select_of {c : IVec s 1} {a b : s.Idx → EReal} (ha : ∀ i, c i = 1#1 → P (a i))
    (hb : ∀ i, c i ≠ 1#1 → P (b i)) : All P (select c a b) := by
  intro i
  show P (if c i = 1 then a i else b i)
  split
  · exact ha i ‹_›
  · exact hb i ‹_›

/-- A select between two arrays with the property has it. -/
theorem all_select {c : IVec s 1} {a b : s.Idx → EReal} (ha : All P a) (hb : All P b) : All P (select c a b) :=
  all_select_of (fun i _ => ha i) (fun i _ => hb i)

/-! ### Comparisons read back -/

/-- The ordered comparison greater-than answers 1 exactly when the order says so. -/
theorem cmpf_ogt_eq_one_iff {x y : Ideal φ} : FloatOps.cmpf (F := Ideal) .ogt x y = 1#1 ↔ y < x := by
  rw [Ideal.cmpf_def]; unfold Ideal.cmp
  by_cases h : y < x <;> simp [h]

/-- The ordered comparison less-than answers 1 exactly when the order says so. -/
theorem cmpf_olt_eq_one_iff {x y : Ideal φ} : FloatOps.cmpf (F := Ideal) .olt x y = 1#1 ↔ x < y := by
  rw [Ideal.cmpf_def]; unfold Ideal.cmp
  by_cases h : x < y <;> simp [h]

/-- An extended real whose absolute value is below the upper infinity is a real number. -/
theorem isReal_of_abs_lt_top {x : EReal} (h : Max.max x (-x) < ⊤) : IsReal x := by
  refine isReal_of_ne ?_ ?_
  · rintro rfl; simp at h
  · rintro rfl; simp at h

/-- The finiteness test abs x < inf, answered 1 at every index, says every entry is a real number. -/
theorem allReal_of_abs_lt {x inf : FVec Ideal s φ} (hinf : ∀ i, inf i = ⊤)
    (h : ∀ i, cmpf .olt (Host.absf x) inf i = 1#1) : AllReal x := by
  intro i
  have hi : FloatOps.cmpf (F := Ideal) .olt (FloatOps.hostAbsf (x i)) (inf i) = 1#1 := h i
  rw [cmpf_olt_eq_one_iff, hinf i] at hi
  exact isReal_of_abs_lt_top hi

/-! ### Elementwise arithmetic -/

/-- The elementwise sum of arrays of real numbers is an array of real numbers. -/
theorem allReal_addf {x y : FVec Ideal s φ} (hx : AllReal x) (hy : AllReal y) : AllReal (addf (F := Ideal) x y) :=
  fun i => (hx i).add (hy i)

/-- The elementwise difference of arrays of real numbers is an array of real numbers. -/
theorem allReal_subf {x y : FVec Ideal s φ} (hx : AllReal x) (hy : AllReal y) : AllReal (subf (F := Ideal) x y) :=
  fun i => (hx i).sub (hy i)

/-- The elementwise product of arrays of real numbers is an array of real numbers. -/
theorem allReal_mulf {x y : FVec Ideal s φ} (hx : AllReal x) (hy : AllReal y) : AllReal (mulf (F := Ideal) x y) :=
  fun i => (hx i).mul (hy i)

/-- The elementwise maximum of arrays of real numbers is an array of real numbers. -/
theorem allReal_maximumf {x y : FVec Ideal s φ} (hx : AllReal x) (hy : AllReal y) :
    AllReal (maximumf (F := Ideal) x y) := fun i => IsReal.max (hx i) (hy i)

/-- The elementwise minimum of arrays of real numbers is an array of real numbers. -/
theorem allReal_minimumf {x y : FVec Ideal s φ} (hx : AllReal x) (hy : AllReal y) :
    AllReal (minimumf (F := Ideal) x y) := fun i => IsReal.min (hx i) (hy i)

/-- The elementwise maximum of a real array with one that is not negative is not negative: a rectifier's output. -/
theorem allNonneg_maximumf {x y : FVec Ideal s φ} (hx : AllReal x) (hy : AllNonneg y) :
    AllNonneg (maximumf (F := Ideal) x y) := fun i => IsReal.max_nonneg (hx i) (hy i)

/-- The elementwise square of an array of real numbers is an array of real numbers that are not negative. -/
theorem allNonneg_mulf_self {x : FVec Ideal s φ} (hx : AllReal x) : AllNonneg (mulf (F := Ideal) x x) :=
  fun i => (hx i).mul_self

/-- The elementwise sum of arrays of real numbers that are not negative is one. -/
theorem allNonneg_addf {x y : FVec Ideal s φ} (hx : AllNonneg x) (hy : AllNonneg y) :
    AllNonneg (addf (F := Ideal) x y) := fun i => (hx i).add (hy i)

/-- An array of real numbers that are not negative plus an array of positive real numbers is positive:
    a variance plus its stabilising constant. -/
theorem allPos_addf {x y : FVec Ideal s φ} (hx : AllNonneg x) (hy : AllPos y) : AllPos (addf (F := Ideal) x y) :=
  fun i => (hx i).add_pos (hy i)

/-! ### The host's quotient and reciprocal square root -/

/-- The host's quotient of real numbers by real numbers that are not zero is real. -/
theorem allReal_divf {x y : FVec Ideal s φ} (hx : AllReal x) (hy : AllReal y) (h0 : ∀ i, y i ≠ 0) :
    AllReal (Host.divf x y) := fun i => (hx i).div (hy i) (h0 i)

/-- The host's quotient of real numbers by positive real numbers is real: a mean. -/
theorem allReal_divf_pos {x y : FVec Ideal s φ} (hx : AllReal x) (hy : AllPos y) : AllReal (Host.divf x y) :=
  fun i => (hx i).div (hy i).isReal (hy i).ne_zero

/-- The host's quotient of real numbers that are not negative by positive real numbers is not negative: a variance. -/
theorem allNonneg_divf {x y : FVec Ideal s φ} (hx : AllNonneg x) (hy : AllPos y) : AllNonneg (Host.divf x y) :=
  fun i => (hx i).div (hy i)

/-- The host's reciprocal square root at an index is the ideal instance's of the entry. -/
theorem host_rsqrt_apply (x : FVec Ideal s φ) (i : s.Idx) : Host.rsqrt x i = Ideal.rsqrt (x i) := rfl

/-- The host's reciprocal square root of positive real numbers is positive real numbers. -/
theorem allPos_rsqrt {x : FVec Ideal s φ} (hx : AllPos x) : AllPos (Host.rsqrt x) := fun i => (hx i).rsqrt

/-- The guarded reciprocal square root where(x > z, rsqrt x, b) of a real array x, against a threshold z that is not
    negative and with a real fallback b, is real: the reciprocal square root is taken only where x is positive. -/
theorem allReal_select_gt_rsqrt {x z b : FVec Ideal s φ} (hx : AllReal x) (hz : AllNonneg z) (hb : AllReal b) :
    AllReal (select (cmpf .ogt x z) (Host.rsqrt x) b) :=
  all_select_of
    (fun i hc => ((hx i).isPos (lt_of_le_of_lt (hz i).nonneg (cmpf_ogt_eq_one_iff.1 hc))).rsqrt.isReal)
    (fun i _ => hb i)

/-! ### Sums: scatter-add, reduce-add, dot product -/

/-- The host's scatter-add of real updates into a real operand is real, whatever the indices are: each entry is
    the operand's plus a finite sum of updates. -/
theorem allReal_scatterAdd {si u : Shape} {w : Nat} {d : ScatterDims s si u} {x : FVec Ideal s φ} {idx : IVec si w}
    {upd : FVec Ideal u φ} (hx : AllReal x) (hu : AllReal upd) : AllReal (Host.scatterAdd d x idx upd) := by
  intro i
  show IsReal (Ideal.hostScatterAdd d x idx upd i)
  unfold Ideal.hostScatterAdd
  exact (hx i).add (isReal_sum _ _ fun j _ => hu j)

/-- The host's scatter-add of updates that are not negative into such an operand is not negative. -/
theorem allNonneg_scatterAdd {si u : Shape} {w : Nat} {d : ScatterDims s si u} {x : FVec Ideal s φ} {idx : IVec si w}
    {upd : FVec Ideal u φ} (hx : AllNonneg x) (hu : AllNonneg upd) : AllNonneg (Host.scatterAdd d x idx upd) := by
  intro i
  show IsNonneg (Ideal.hostScatterAdd d x idx upd i)
  unfold Ideal.hostScatterAdd
  exact (hx i).add (isNonneg_sum _ _ fun j _ => hu j)

/-- The host's sum-reduction of a real array from a real initial value is real: each entry is the initial value
    plus a finite sum of entries. -/
theorem allReal_reduceAdd {axes : List (Fin s.rank)} {u : Shape} {x : FVec Ideal s φ} {init : u.Idx → Ideal φ}
    {h : s.ReducesTo axes t} {hu : 0 < u.numel} (hx : AllReal x) (hi : AllReal init) :
    AllReal (Host.reduceAdd x init h hu) := by
  intro j
  show IsReal (Ideal.hostReduceAdd h x (init (Shape.Idx.first hu)) j)
  unfold Ideal.hostReduceAdd
  exact (hi _).add (isReal_sum _ _ fun i _ => hx i)

/-- The host's sum-reduction of an array that is not negative from such an initial value is not negative. -/
theorem allNonneg_reduceAdd {axes : List (Fin s.rank)} {u : Shape} {x : FVec Ideal s φ} {init : u.Idx → Ideal φ}
    {h : s.ReducesTo axes t} {hu : 0 < u.numel} (hx : AllNonneg x) (hi : AllNonneg init) :
    AllNonneg (Host.reduceAdd x init h hu) := by
  intro j
  show IsNonneg (Ideal.hostReduceAdd h x (init (Shape.Idx.first hu)) j)
  unfold Ideal.hostReduceAdd
  exact (hi _).add (isNonneg_sum _ _ fun i _ => hx i)

/-- The host's dot product of real arrays is real, at any dimension numbers: each entry is a finite sum of
    products of entries. -/
theorem allReal_dotGeneral {sl sr so : Shape} {φ₁ φ₂ : FTy} {d : DotDims sl sr so} {prec : Option ContractPrecision}
    {lhs : FVec Ideal sl φ₁} {rhs : FVec Ideal sr φ₂} (hl : AllReal lhs) (hr : AllReal rhs) :
    AllReal (Host.dotGeneral d prec lhs rhs) := by
  intro j
  show IsReal (FloatOps.dotGeneral d prec .single lhs rhs j)
  rw [Ideal.dotGeneral_apply]
  exact isReal_sum _ _ fun k _ => (hl _).mul (hr _)

end Arrays

/-! ## The float literals of a normalisation -/

/-- The f32 pattern 0x46C35000 is the real number 25000. -/
theorem ofBits_f32_25000 : Ideal.ofBits .f32 0x46C35000#32 = ((25000 : ℝ) : EReal) := by
  simp [Ideal.ofBits, Ideal.ieee, -EReal.coe_mul]; norm_num

/-- The f32 pattern 0x47C35000 is the real number 100000. -/
theorem ofBits_f32_100000 : Ideal.ofBits .f32 0x47C35000#32 = ((100000 : ℝ) : EReal) := by
  simp [Ideal.ofBits, Ideal.ieee, -EReal.coe_mul]; norm_num

/-- The f32 pattern 0x3727C5AC, the float nearest to one hundred-thousandth, is the real number 10995116 / 2 ^ 40. -/
theorem ofBits_f32_eps : Ideal.ofBits .f32 0x3727C5AC#32 = ((10995116 * (2 : ℝ) ^ (-40 : ℤ) : ℝ) : EReal) := by
  simp [Ideal.ofBits, Ideal.ieee, -EReal.coe_mul]

/-- The f32 pattern of zero denotes a real number that is not negative. -/
theorem isNonneg_ofBits_f32_zero : IsNonneg (Ideal.ofBits .f32 0x00000000#32) := by
  rw [Ideal.ofBits_zero_f32]; exact isNonneg_zero

/-- The f32 pattern of zero denotes a real number. -/
theorem isReal_ofBits_f32_zero : IsReal (Ideal.ofBits .f32 0x00000000#32) := isNonneg_ofBits_f32_zero.isReal

/-- The f32 pattern of one denotes a positive real number. -/
theorem isPos_ofBits_f32_one : IsPos (Ideal.ofBits .f32 0x3F800000#32) := by
  rw [Ideal.ofBits_one_f32]; exact isPos_one

/-- The f32 pattern of 25000 denotes a positive real number. -/
theorem isPos_ofBits_f32_25000 : IsPos (Ideal.ofBits .f32 0x46C35000#32) :=
  ⟨25000, by norm_num, ofBits_f32_25000⟩

/-- The f32 pattern of 100000 denotes a positive real number. -/
theorem isPos_ofBits_f32_100000 : IsPos (Ideal.ofBits .f32 0x47C35000#32) :=
  ⟨100000, by norm_num, ofBits_f32_100000⟩

/-- The f32 pattern 0x3727C5AC (one hundred-thousandth, rounded) denotes a positive real number. -/
theorem isPos_ofBits_f32_eps : IsPos (Ideal.ofBits .f32 0x3727C5AC#32) :=
  ⟨10995116 * (2 : ℝ) ^ (-40 : ℤ), by positivity, ofBits_f32_eps⟩

/-! ## A closing tactic for operator trees -/

section More
variable {s : Shape} {φ : FTy} {P : EReal → Prop}

/-- A copy has the property of its operand. -/
theorem all_id {x : s.Idx → EReal} (hx : All P x) : All P (id x) := hx

/-- The host's reciprocal square root of positive real numbers is real. -/
theorem allReal_rsqrt {x : FVec Ideal s φ} (hx : AllPos x) : AllReal (Host.rsqrt x) :=
  allReal_of_allPos (allPos_rsqrt hx)

/-- The elementwise product of arrays of real numbers that are not negative is one. -/
theorem allNonneg_mulf {x y : FVec Ideal s φ} (hx : AllNonneg x) (hy : AllNonneg y) :
    AllNonneg (mulf (F := Ideal) x y) := fun i => (hx i).mul (hy i)

/-- The elementwise product of arrays of positive real numbers is one. -/
theorem allPos_mulf {x y : FVec Ideal s φ} (hx : AllPos x) (hy : AllPos y) : AllPos (mulf (F := Ideal) x y) :=
  fun i => (hx i).mul (hy i)

/-- The host's quotient of arrays of positive real numbers is one. -/
theorem allPos_divf {x y : FVec Ideal s φ} (hx : AllPos x) (hy : AllPos y) : AllPos (Host.divf x y) :=
  fun i => (hx i).div (hy i)

end More

/-- Closes a goal AllReal t, AllNonneg t or AllPos t, where t is a tree of the host's operations (elementwise
    arithmetic, rectifier, layout operations, gather, scatter-add, sum-reduction, dot product, quotient by one of
    the positive literals, reciprocal square root of a variance plus its positive constant) over arrays whose
    property is a hypothesis in the context. The rules are chosen by the property asked and the head operation:
    a quotient asks its divisor to be positive, a reciprocal square root asks its operand to be positive, a sum
    is positive when its left term is not negative and its right term is positive, a square is not negative.
    Integer index arrays are arbitrary. -/
macro "all_real" : tactic => `(tactic| with_reducible
  repeat' (first
    | assumption
    | exact isNonneg_ofBits_f32_zero | exact isReal_ofBits_f32_zero
    | exact isPos_ofBits_f32_one | exact isPos_ofBits_f32_one.isNonneg | exact isPos_ofBits_f32_one.isReal
    | exact isPos_ofBits_f32_eps | exact isPos_ofBits_f32_eps.isNonneg | exact isPos_ofBits_f32_eps.isReal
    | exact isPos_ofBits_f32_25000 | exact isPos_ofBits_f32_25000.isNonneg | exact isPos_ofBits_f32_25000.isReal
    | exact isPos_ofBits_f32_100000 | exact isPos_ofBits_f32_100000.isNonneg | exact isPos_ofBits_f32_100000.isReal
    | apply allPos_rsqrt | apply allPos_addf | apply allPos_mulf | apply allPos_divf
    | apply allNonneg_mulf_self | apply allNonneg_mulf | apply allNonneg_addf | apply allNonneg_maximumf
    | apply allNonneg_divf | apply allNonneg_scatterAdd | apply allNonneg_reduceAdd
    | apply allReal_addf | apply allReal_subf | apply allReal_mulf | apply allReal_maximumf | apply allReal_minimumf
    | apply allReal_divf_pos | apply allReal_rsqrt | apply allReal_scatterAdd | apply allReal_reduceAdd
    | apply allReal_dotGeneral | apply allReal_select_gt_rsqrt
    | apply all_constant | apply all_broadcastInDim | apply all_shapeCast | apply all_extractStridedSlice
    | apply all_gather | apply all_id | apply all_select
    | (apply allReal_of_allNonneg; assumption) | (apply allReal_of_allPos; assumption)
    | (apply allNonneg_of_allPos; assumption)))

end Cert.LibFinite
-- ==== Proof.GcnSpec.lean ====
/-
  A two-layer graph convolution with symmetric degree scaling, on the extended reals, index by index.

  There are 100000 nodes and 1600000 edges. Edge `e` carries the row `rowOf srcG e` of a node array (its source word,
  read signed and clamped into the rows) to the node its destination word names: `aggr X n q` is zero plus the sum of
  `X (rowOf srcG e) q` over the edges `e` whose destination word reads `n` (an edge whose word names no node is dropped).
  With `no` and `ni` the per-node scales, layer one is `relu ((A (x * no) W1) * ni + b1)` and layer two is
  `(A ((h * no) W2)) * ni + b2`, where `A` aggregates over edges. The first layer is written in two arrangements:
  product first and aggregation after (`layer1K`), or aggregation first and product after (`layer1R`). They agree when
  the features, the scale and the weights are real numbers, because a finite sum of reals times a real distributes
  (`layer1_eq`); on the extended reals this would fail at the infinities.
-/
import Idealize.ShloMosaic.PureOps.Ideal
import Idealize.ShloMosaic.Lib.ValueIdx
import proofs.«127194_j20126216749771_2_alg».proof.Proof.LibFinite

noncomputable section

open scoped BigOperators

namespace Cert.Gcn

open Idealize.ShloMosaic Idealize.ShloMosaic.ValueIdx Cert.LibFinite

/-- The shape of an edge-index column: one 32-bit word per edge. -/
abbrev EdgeIdx : Shape := ⟨2, ![1600000, 1]⟩

/-- The edges whose destination word reads `n` (signed). -/
def inEdges (dstB : IVec EdgeIdx 32) (n : Fin 100000) : Finset (Fin 1600000) :=
  Finset.univ.filter fun e : Fin 1600000 => (dstB (ix2 e (0 : Fin 1))).toInt = (n.val : Int)

/-- The row edge `e` reads: its source word read signed and clamped into the rows `0 … 99999`. -/
def rowOf (srcG : IVec EdgeIdx 32) (e : Fin 1600000) : Fin 100000 :=
  ⟨min (srcG (ix2 e (0 : Fin 1))).toInt.toNat (100000 - 1), by omega⟩

/-- Aggregation over edges: zero plus the sum over the edges into `n` of the source row's entry in column `q`. -/
def aggr {C : Nat} (srcG dstB : IVec EdgeIdx 32) (X : Fin 100000 → Fin C → EReal) (n : Fin 100000) (q : Fin C) : EReal :=
  0 + ∑ e ∈ inEdges dstB n, X (rowOf srcG e) q

/-- The scaled features times the first weight matrix, row by row. -/
def h0mm (x : Fin 100000 → Fin 128 → EReal) (no : Fin 100000 → EReal) (w1 : Fin 128 → Fin 128 → EReal)
    (r : Fin 100000) (q : Fin 128) : EReal :=
  ∑ k : Fin 128, (x r k * no r) * w1 k q

/-- Layer one before its scale, bias and relu, the product taken first and the edges summed after. -/
def layer1K (x : Fin 100000 → Fin 128 → EReal) (no : Fin 100000 → EReal) (w1 : Fin 128 → Fin 128 → EReal)
    (srcG dstB : IVec EdgeIdx 32) : Fin 100000 → Fin 128 → EReal :=
  aggr srcG dstB (h0mm x no w1)

/-- The same, the edges summed first and the product taken after. -/
def layer1R (x : Fin 100000 → Fin 128 → EReal) (no : Fin 100000 → EReal) (w1 : Fin 128 → Fin 128 → EReal)
    (srcG dstB : IVec EdgeIdx 32) (n : Fin 100000) (q : Fin 128) : EReal :=
  ∑ k : Fin 128, aggr srcG dstB (fun r k => x r k * no r) n k * w1 k q

/-- The hidden activations, scaled for the second layer: `relu (a1 * ni + b1) * no`. -/
def hidden (a1 : Fin 100000 → Fin 128 → EReal) (no ni : Fin 100000 → EReal) (b1 : Fin 128 → EReal)
    (r : Fin 100000) (k : Fin 128) : EReal :=
  max (a1 r k * ni r + b1 k) 0 * no r

/-- The scaled hidden activations times the second weight matrix. -/
def h2mm (a1 : Fin 100000 → Fin 128 → EReal) (no ni : Fin 100000 → EReal) (b1 : Fin 128 → EReal)
    (w2 : Fin 128 → Fin 2 → EReal) (r : Fin 100000) (c : Fin 2) : EReal :=
  ∑ k : Fin 128, hidden a1 no ni b1 r k * w2 k c

/-- The network's output from the first layer's aggregate `a1`. -/
def out (a1 : Fin 100000 → Fin 128 → EReal) (no ni : Fin 100000 → EReal) (b1 : Fin 128 → EReal)
    (w2 : Fin 128 → Fin 2 → EReal) (b2 : Fin 2 → EReal) (srcG dstB : IVec EdgeIdx 32) (n : Fin 100000) (c : Fin 2) : EReal :=
  aggr srcG dstB (h2mm a1 no ni b1 w2) n c * ni n + b2 c

/-! ## The three dense passes as whole arrays

Each dense pass of the network as ONE function of whole arrays, index by index: the node arrays have 100000 rows, the
packed scale array `NV` has the outgoing scale in column 0 and the incoming scale in column 1, and a bias enters as a
one-row array. -/

/-- The scaled features times the first weight matrix. -/
def arr0 (X : (⟨2, ![100000, 128]⟩ : Shape).Idx → EReal) (NV : (⟨2, ![100000, 2]⟩ : Shape).Idx → EReal)
    (W : (⟨2, ![128, 128]⟩ : Shape).Idx → EReal) : (⟨2, ![100000, 128]⟩ : Shape).Idx → EReal :=
  fun i => h0mm (fun r k => X (ix2 r k)) (fun r => NV (ix2 r (0 : Fin 2))) (fun k q => W (ix2 k q)) (i 0) (i 1)

/-- From the first aggregate `A`: scale, bias, relu, scale, times the second weight matrix. -/
def arr1 (A : (⟨2, ![100000, 128]⟩ : Shape).Idx → EReal) (NV : (⟨2, ![100000, 2]⟩ : Shape).Idx → EReal)
    (B1 : (⟨2, ![1, 128]⟩ : Shape).Idx → EReal) (W : (⟨2, ![128, 2]⟩ : Shape).Idx → EReal) :
    (⟨2, ![100000, 2]⟩ : Shape).Idx → EReal :=
  fun i => h2mm (fun r k => A (ix2 r k)) (fun r => NV (ix2 r (0 : Fin 2))) (fun r => NV (ix2 r (1 : Fin 2)))
    (fun k => B1 (ix2 (0 : Fin 1) k)) (fun k c => W (ix2 k c)) (i 0) (i 1)

/-- From the second aggregate `A`: scale and bias. -/
def arr2 (A : (⟨2, ![100000, 2]⟩ : Shape).Idx → EReal) (NV : (⟨2, ![100000, 2]⟩ : Shape).Idx → EReal)
    (B2 : (⟨2, ![1, 2]⟩ : Shape).Idx → EReal) : (⟨2, ![100000, 2]⟩ : Shape).Idx → EReal :=
  fun i => A (ix2 (i 0) (i 1)) * NV (ix2 (i 0) (1 : Fin 2)) + B2 (ix2 (0 : Fin 1) (i 1))

theorem arr0_apply (X : (⟨2, ![100000, 128]⟩ : Shape).Idx → EReal) (NV : (⟨2, ![100000, 2]⟩ : Shape).Idx → EReal)
    (W : (⟨2, ![128, 128]⟩ : Shape).Idx → EReal) (r : Fin 100000) (q : Fin 128) :
    arr0 X NV W (ix2 r q)
      = h0mm (fun r k => X (ix2 r k)) (fun r => NV (ix2 r (0 : Fin 2))) (fun k q => W (ix2 k q)) r q := rfl

theorem arr1_apply (A : (⟨2, ![100000, 128]⟩ : Shape).Idx → EReal) (NV : (⟨2, ![100000, 2]⟩ : Shape).Idx → EReal)
    (B1 : (⟨2, ![1, 128]⟩ : Shape).Idx → EReal) (W : (⟨2, ![128, 2]⟩ : Shape).Idx → EReal) (r : Fin 100000) (c : Fin 2) :
    arr1 A NV B1 W (ix2 r c)
      = h2mm (fun r k => A (ix2 r k)) (fun r => NV (ix2 r (0 : Fin 2))) (fun r => NV (ix2 r (1 : Fin 2)))
          (fun k => B1 (ix2 (0 : Fin 1) k)) (fun k c => W (ix2 k c)) r c := rfl

theorem arr2_apply (A : (⟨2, ![100000, 2]⟩ : Shape).Idx → EReal) (NV : (⟨2, ![100000, 2]⟩ : Shape).Idx → EReal)
    (B2 : (⟨2, ![1, 2]⟩ : Shape).Idx → EReal) (n : Fin 100000) (c : Fin 2) :
    arr2 A NV B2 (ix2 n c) = A (ix2 n c) * NV (ix2 n (1 : Fin 2)) + B2 (ix2 (0 : Fin 1) c) := rfl

/-- A finite sum of real numbers, read in the extended reals, is the sum of the readings. -/
theorem coe_sum {ι : Type} (s : Finset ι) (f : ι → ℝ) : ((∑ i ∈ s, f i : ℝ) : EReal) = ∑ i ∈ s, (f i : EReal) := by
  classical
  induction s using Finset.induction_on with
  | empty => simp
  | insert a s ha ih => rw [Finset.sum_insert ha, Finset.sum_insert ha, EReal.coe_add, ih]

/-- The two arrangements of layer one agree on real data: `Σ_e Σ_k (x·no)[g e, k]·w[k, q] = Σ_k (Σ_e (x·no)[g e, k])·w[k, q]`,
    by exchanging the two finite sums and distributing the real factor `w[k, q]` over the inner one. -/
theorem layer1_eq (x : Fin 100000 → Fin 128 → EReal) (no : Fin 100000 → EReal) (w1 : Fin 128 → Fin 128 → EReal)
    (srcG dstB : IVec EdgeIdx 32)
    (hx : ∀ r k, IsReal (x r k)) (hno : ∀ r, IsReal (no r)) (hw : ∀ k q, IsReal (w1 k q)) :
    layer1K x no w1 srcG dstB = layer1R x no w1 srcG dstB := by
  choose xr hxr using hx
  choose nr hnr using hno
  choose wr hwr using hw
  funext n q
  unfold layer1K layer1R aggr h0mm
  simp only [hxr, hnr, hwr, ← EReal.coe_mul, ← coe_sum, zero_add]
  refine congrArg _ ?_
  rw [Finset.sum_comm]
  refine Finset.sum_congr rfl fun k _ => ?_
  rw [Finset.sum_mul]

end Cert.Gcn

end
-- ==== Proof.LibScatterSet.lean ====
/-
  A `stablehlo.scatter` read at ONE index of its result.

  The scatter is a left fold over the update indices, in row-major order: update index `j` lands at the operand index
  `start j + window j` (coordinate by coordinate), when that is inside the operand, and replaces the element there by the
  body applied to it and the update's element. So at a fixed operand index `i`:
    * if NO update index lands at `i`, the result holds the operand's element (whatever the body);
    * if the body returns the update (`.at[…].set`) and every update index landing at `i` carries one and the same
      value `c` — in particular when exactly one lands there —, the result holds `c`.
  `resultIdx?_eq_some_iff` says when update index `j` lands at `i`: on every axis, `i`'s coordinate is the window's start
  plus `j`'s window coordinate (the "inside the operand" test is then automatic, `i` being an index of the operand).
  `start_eq_zero`: when the scatter indices are all zero words (`x.at[0, :, :, 0, 0]`), every window starts at 0.
-/
import Idealize.ShloMosaic.PureOps.ShapeOps

namespace Idealize.ShloMosaic.ScatterRead

open Idealize.ShloMosaic

/-! ## A left fold of "overwrite one point" steps, read at a point -/

section Fold
variable {α ι κ : Type}

/-- A fold whose steps leave the point `i` alone (none of the listed steps targets it) keeps the start value there. -/
theorem foldl_apply_of_forall_ne (F : (κ → α) → ι → (κ → α)) (g : ι → Option κ) (i : κ)
    (hne : ∀ r n, g n ≠ some i → F r n i = r i) :
    ∀ (l : List ι) (x : κ → α), (∀ n ∈ l, g n ≠ some i) → l.foldl F x i = x i
  | [], _, _ => rfl
  | a :: l, x, h => by
    rw [List.foldl_cons, foldl_apply_of_forall_ne F g i hne l (F x a) (fun n hn => h n (List.mem_cons_of_mem _ hn))]
    exact hne x a (h a List.mem_cons_self)

/-- A fold of overwriting steps, at a point `i` that some listed step targets, all such steps carrying the value `c`:
    the last of them wrote `c` and no later step touches `i`. -/
theorem foldl_apply_of_hits (F : (κ → α) → ι → (κ → α)) (g : ι → Option κ) (v : ι → α) (i : κ) (c : α)
    (hne : ∀ r n, g n ≠ some i → F r n i = r i) (heq : ∀ r n, g n = some i → F r n i = v n) :
    ∀ (l : List ι) (x : κ → α), (∀ n ∈ l, g n = some i → v n = c) → (∃ n ∈ l, g n = some i) → l.foldl F x i = c
  | [], _, _, hex => by obtain ⟨n, hn, _⟩ := hex; cases hn
  | a :: l, x, hall, hex => by
    rw [List.foldl_cons]
    by_cases h : ∃ n ∈ l, g n = some i
    · exact foldl_apply_of_hits F g v i c hne heq l (F x a) (fun n hn => hall n (List.mem_cons_of_mem _ hn)) h
    · have h' : ∀ n ∈ l, g n ≠ some i := fun n hn e => h ⟨n, hn, e⟩
      rw [foldl_apply_of_forall_ne F g i hne l (F x a) h']
      obtain ⟨n, hn, hg⟩ := hex
      rcases List.mem_cons.1 hn with rfl | hn'
      · rw [heq x n hg]; exact hall n List.mem_cons_self hg
      · exact absurd hg (h' n hn')

end Fold

/-! ## Where an update index lands -/

section Scatter
variable {α : Type} {s si u : Shape} {w : Nat}

/-- Update index `j` lands at the operand index `i` exactly when, on every axis, `i`'s coordinate is the window's start
    plus `j`'s window coordinate. -/
theorem resultIdx?_eq_some_iff (d : ScatterDims s si u) (j : u.Idx) (idx : IVec si w) (i : s.Idx) :
    d.resultIdx? j idx = some i ↔ ∀ a, ((i a).val : Int) = d.start j idx a + d.window j a := by
  unfold ScatterDims.resultIdx?
  split
  · rename_i h
    constructor
    · intro e a
      have e' := Option.some.inj e
      rw [← e']
      exact Int.toNat_of_nonneg (h a).1
    · intro e
      refine congrArg some (funext fun a => Fin.ext ?_)
      show (d.start j idx a + d.window j a).toNat = (i a).val
      rw [← e a]; exact Int.toNat_natCast _
  · rename_i h
    constructor
    · intro e; cases e
    · intro e
      exact absurd (fun a => ⟨by rw [← e a]; exact Int.natCast_nonneg _,
        by rw [← e a]; exact Int.ofNat_lt.2 (i a).isLt⟩) h

/-- With every component of every start index the zero word, every window starts at 0 on every axis. -/
theorem start_eq_zero (d : ScatterDims s si u) (j : u.Idx) (idx : IVec si w) (hidx : ∀ k, idx k = 0#w) (a : Fin s.rank) :
    d.start j idx a = 0 := by
  unfold ScatterDims.start
  split
  · rw [hidx]; exact BitVec.toInt_zero
  · rfl

/-! ## The scatter at an index -/

/-- No update index lands at `i`: the scatter's result holds the operand's element there, whatever the body. -/
theorem scatter_apply_of_forall_ne (d : ScatterDims s si u) (f : α → α → α) (x : s.Idx → α) (idx : IVec si w)
    (upd : u.Idx → α) (i : s.Idx) (h : ∀ j : u.Idx, d.resultIdx? j idx ≠ some i) :
    Host.scatter d f x idx upd i = x i := by
  unfold Host.scatter
  refine foldl_apply_of_forall_ne _ (fun n => d.resultIdx? (u.rowMajor.symm n) idx) i ?_ _ x (fun n _ => h _)
  intro r n hn
  generalize d.resultIdx? (u.rowMajor.symm n) idx = o at hn ⊢
  cases o with
  | none => rfl
  | some i₀ =>
    show (if i = i₀ then _ else r i) = r i
    rw [if_neg]
    intro e
    exact hn (by rw [e])

/-- A scatter whose body returns the update (`.at[…].set`), at an index `i` where update index `j₀` lands, every update
    index landing there carrying the same value as `j₀` (so, in particular, when only `j₀` lands there): the result
    holds `j₀`'s update. -/
theorem scatter_set_apply (d : ScatterDims s si u) (x : s.Idx → α) (idx : IVec si w) (upd : u.Idx → α) (i : s.Idx)
    (j₀ : u.Idx) (h₀ : d.resultIdx? j₀ idx = some i) (hsame : ∀ j : u.Idx, d.resultIdx? j idx = some i → upd j = upd j₀) :
    Host.scatter d (fun _ b => b) x idx upd i = upd j₀ := by
  unfold Host.scatter
  refine foldl_apply_of_hits _ (fun n => d.resultIdx? (u.rowMajor.symm n) idx) (fun n => upd (u.rowMajor.symm n)) i
    (upd j₀) ?_ ?_ _ x (fun n _ hn => hsame _ hn)
    ⟨u.rowMajor j₀, List.mem_finRange _, by rw [Equiv.symm_apply_apply]; exact h₀⟩
  · intro r n hn
    generalize d.resultIdx? (u.rowMajor.symm n) idx = o at hn ⊢
    cases o with
    | none => rfl
    | some i₀ =>
      show (if i = i₀ then _ else r i) = r i
      rw [if_neg]
      intro e
      exact hn (by rw [e])
  · intro r n hn
    generalize hv : upd (u.rowMajor.symm n) = v
    generalize d.resultIdx? (u.rowMajor.symm n) idx = o at hn ⊢
    cases o with
    | none => cases hn
    | some i₀ =>
      show (if i = i₀ then v else r i) = v
      rw [if_pos (Option.some.inj hn).symm]

end Scatter

end Idealize.ShloMosaic.ScatterRead
-- ==== Proof.LibScatterRows.lean ====
/-
  A `stablehlo.scatter` with an ADD body whose scatter indices are ONE COLUMN of row numbers, read at one index of its
  result, at the ideal instance (extended reals).

  The operand has `N` rows (and, in the rank-2 case, `C` columns); there are `E` updates, update `e` being a whole row of
  `C` elements (rank 2) or a single element (rank 1); the scatter indices have shape `[E, 1]`: one index word per update,
  the number of the operand row the update is added to. The dimension numbers say exactly this: the one component of a
  start index goes to operand axis 0, which is an inserted window axis (the window has extent 1 there), and, in the rank-2
  case, the update's axis 1 is the window axis, going to operand axis 1.

  The result index of update index `j` is, coordinate by coordinate, the window's start plus `j`'s window coordinate:
    * on axis 0 the start is the index word of update row `j 0`, read SIGNED and not clamped, and the window coordinate
      is 0;
    * on axis 1 (rank 2) the start is 0 and the window coordinate is `j 1`.
  So update row `e` lands on operand row `n` exactly when the signed reading of its index word is `n`, and it keeps its
  column; a row whose index word reads outside `0 … N-1` lands nowhere and is dropped. Hence the element of the result
  at row `n` (column `q`) is the operand's element there plus the sum, over the update rows `e` whose index word reads
  `n`, of the update's element in row `e` (column `q`). The two theorems, `hostScatterAdd_rows2` (rank 2) and
  `hostScatterAdd_rows1` (rank 1), filter the rows `e : Fin E` by the SAME predicate, so a column of a rank-2 scatter is
  a rank-1 scatter with the same indices. The sizes `N`, `C`, `E` and the index width `w` are arbitrary.
-/
import Idealize.ShloMosaic.PureOps.Ideal
import Idealize.ShloMosaic.PureOps.Contract
import Idealize.ShloMosaic.Lib.ValueIdx
import proofs.«127194_j20126216749771_2_alg».proof.Proof.LibScatterSet

open scoped BigOperators

namespace Idealize.ShloMosaic.ScatterRows

open Idealize.ShloMosaic Idealize.ShloMosaic.ValueIdx Idealize.ShloMosaic.ScatterRead

/-! ## Rank 2: rows of `C` elements -/

section Rank2
variable {N C E w : Nat}
  (wf : ScatterDims.WF ⟨2, ![N, C]⟩ ⟨2, ![E, 1]⟩ ⟨2, ![E, C]⟩ [1] [0] [0] 1)

/-- The rank-2 dimension numbers: update axis 1 is the window axis, operand axis 0 is inserted, the one start-index
    component goes to operand axis 0, and the index vector is the scatter indices' axis 1. -/
abbrev d2 : ScatterDims ⟨2, ![N, C]⟩ ⟨2, ![E, 1]⟩ ⟨2, ![E, C]⟩ := ⟨[1], [0], [0], 1, wf⟩

/-- Rank 2: operand axis 0 is an inserted window axis, so the window coordinate there is 0. -/
theorem window2_0 (j : (⟨2, ![E, C]⟩ : Shape).Idx) : (d2 wf).window j 0 = 0 := by
  unfold ScatterDims.window
  rw [dif_neg (by show (0 : Fin 2) ∉ ([1] : List (Fin 2)); decide)]

/-- Rank 2: operand axis 1 is the one kept axis, and the update's window axis 1 goes to it: the window coordinate there
    is the update index's column. -/
theorem window2_1 (j : (⟨2, ![E, C]⟩ : Shape).Idx) : (d2 wf).window j 1 = (j 1).val := by
  unfold ScatterDims.window
  rw [dif_pos (by show (1 : Fin 2) ∈ ([1] : List (Fin 2)); decide)]
  rfl

/-- Rank 2: no start-index component goes to operand axis 1, so the window starts at 0 there. -/
theorem start2_1 (j : (⟨2, ![E, C]⟩ : Shape).Idx) (idx : IVec ⟨2, ![E, 1]⟩ w) : (d2 wf).start j idx 1 = 0 := by
  unfold ScatterDims.start
  rw [dif_neg (by show (1 : Fin 2) ∉ ([0] : List (Fin 2)); decide)]

/-- Rank 2: the scatter-indices index an update index reads its start from is its row, at the index vector's only
    position. -/
theorem siIdx2 (j : (⟨2, ![E, C]⟩ : Shape).Idx) (c : Fin (d2 wf).scatterDimsToOperandDims.length) :
    (d2 wf).siIdx j c = ix2 (j 0) (0 : Fin 1) := by
  funext b
  match b with
  | ⟨0, _⟩ => rfl
  | ⟨1, _⟩ =>
    apply Fin.ext
    have h : c.val < 1 := c.isLt
    show c.val = 0
    omega

/-- Rank 2: on operand axis 0 the window starts at the signed reading of the update row's index word. -/
theorem start2_0 (j : (⟨2, ![E, C]⟩ : Shape).Idx) (idx : IVec ⟨2, ![E, 1]⟩ w) :
    (d2 wf).start j idx 0 = (idx (ix2 (j 0) (0 : Fin 1))).toInt := by
  unfold ScatterDims.start
  rw [dif_pos (by show (0 : Fin 2) ∈ ([0] : List (Fin 2)); decide)]
  rw [siIdx2]
  rfl

/-- Rank 2: update index `j` lands at operand row `n`, column `q`, exactly when the index word of its row reads `n`
    (signed) and its column is `q`. -/
theorem lands2_iff (idx : IVec ⟨2, ![E, 1]⟩ w) (j : (⟨2, ![E, C]⟩ : Shape).Idx) (n : Fin N) (q : Fin C) :
    (d2 wf).resultIdx? j idx = some (ix2 n q) ↔
      (idx (ix2 (j 0) (0 : Fin 1))).toInt = (n.val : Int) ∧ j 1 = q := by
  rw [resultIdx?_eq_some_iff]
  constructor
  · intro h
    have h0 := h 0
    have h1 := h 1
    rw [start2_0, window2_0] at h0
    rw [start2_1, window2_1] at h1
    have h0' : (n.val : Int) = (idx (ix2 (j 0) (0 : Fin 1))).toInt + ((0 : Nat) : Int) := h0
    have h1' : (q.val : Int) = 0 + ((j 1).val : Int) := h1
    refine ⟨by omega, Fin.ext ?_⟩
    show (j 1).val = q.val
    omega
  · rintro ⟨h0, h1⟩ a
    match a with
    | ⟨0, _⟩ =>
      show (n.val : Int) = (d2 wf).start j idx 0 + ((d2 wf).window j 0 : Nat)
      rw [start2_0, window2_0, h0]; simp
    | ⟨1, _⟩ =>
      show (q.val : Int) = (d2 wf).start j idx 1 + ((d2 wf).window j 1 : Nat)
      rw [start2_1, window2_1, ← h1]; simp

/-- Rank 2. A scatter-add of `E` update rows of `C` elements into an `N × C` operand, update row `e` going to the operand
    row its index word names: the result at row `n`, column `q`, is the operand's element there plus the sum of the
    updates' elements in column `q` over the rows `e` whose index word reads `n` (signed, not clamped: a row whose word
    reads outside the operand is dropped, which the filter says since `n < N`). -/
theorem hostScatterAdd_rows2 (x : (⟨2, ![N, C]⟩ : Shape).Idx → EReal) (idx : IVec ⟨2, ![E, 1]⟩ w)
    (upd : (⟨2, ![E, C]⟩ : Shape).Idx → EReal) (n : Fin N) (q : Fin C) :
    Ideal.hostScatterAdd (⟨[1], [0], [0], 1, wf⟩ : ScatterDims ⟨2, ![N, C]⟩ ⟨2, ![E, 1]⟩ ⟨2, ![E, C]⟩) x idx upd (ix2 n q)
      = x (ix2 n q) + ∑ e ∈ Finset.univ.filter (fun e : Fin E => (idx (ix2 e (0 : Fin 1))).toInt = (n.val : Int)),
          upd (ix2 e q) := by
  unfold Ideal.hostScatterAdd
  congr 1
  refine Finset.sum_nbij' (fun j => j 0) (fun e => ix2 e q) ?_ ?_ ?_ ?_ ?_
  · intro j hj
    have := (lands2_iff wf idx j n q).1 (Finset.mem_filter.1 hj).2
    exact Finset.mem_filter.2 ⟨Finset.mem_univ _, this.1⟩
  · intro e he
    have := (Finset.mem_filter.1 he).2
    exact Finset.mem_filter.2 ⟨Finset.mem_univ _, (lands2_iff wf idx (ix2 e q) n q).2 ⟨this, rfl⟩⟩
  · intro j hj
    have := (lands2_iff wf idx j n q).1 (Finset.mem_filter.1 hj).2
    show ix2 (j 0) q = j
    rw [← this.2]; exact (eq_ix2 j).symm
  · intro e _; rfl
  · intro j hj
    have := (lands2_iff wf idx j n q).1 (Finset.mem_filter.1 hj).2
    show upd j = upd (ix2 (j 0) q)
    rw [← this.2]
    exact congrArg upd (eq_ix2 j)

/-- The same for the host operation as a program prints it, for any dimension-number record `d` that IS the one above
    (`hd`): the record stays a name at the use site, and its identification with the literal is one `rfl`. -/
theorem scatterAdd_rows2 (d : ScatterDims ⟨2, ![N, C]⟩ ⟨2, ![E, 1]⟩ ⟨2, ![E, C]⟩) (hd : d = ⟨[1], [0], [0], 1, wf⟩) {φ : FTy}
    (x : FVec Ideal ⟨2, ![N, C]⟩ φ) (idx : IVec ⟨2, ![E, 1]⟩ w) (upd : FVec Ideal ⟨2, ![E, C]⟩ φ) (n : Fin N) (q : Fin C) :
    Host.scatterAdd d x idx upd (ix2 n q)
      = x (ix2 n q) + ∑ e ∈ Finset.univ.filter (fun e : Fin E => (idx (ix2 e (0 : Fin 1))).toInt = (n.val : Int)),
          upd (ix2 e q) := by
  subst hd
  exact hostScatterAdd_rows2 wf x idx upd n q

end Rank2

/-! ## Rank 1: single elements -/

section Rank1
variable {N E w : Nat}
  (wf : ScatterDims.WF ⟨1, ![N]⟩ ⟨2, ![E, 1]⟩ ⟨1, ![E]⟩ [] [0] [0] 1)

/-- The rank-1 dimension numbers: the update has no window axis, operand axis 0 is inserted, the one start-index component
    goes to operand axis 0, and the index vector is the scatter indices' axis 1. -/
abbrev d1 : ScatterDims ⟨1, ![N]⟩ ⟨2, ![E, 1]⟩ ⟨1, ![E]⟩ := ⟨[], [0], [0], 1, wf⟩

/-- Rank 1: the operand's only axis is an inserted window axis, so the window coordinate there is 0. -/
theorem window1_0 (j : (⟨1, ![E]⟩ : Shape).Idx) : (d1 wf).window j 0 = 0 := by
  unfold ScatterDims.window
  rw [dif_neg (by show (0 : Fin 1) ∉ ([] : List (Fin 1)); decide)]

/-- Rank 1: the scatter-indices index an update index reads its start from is its one coordinate, at the index vector's
    only position. -/
theorem siIdx1 (j : (⟨1, ![E]⟩ : Shape).Idx) (c : Fin (d1 wf).scatterDimsToOperandDims.length) :
    (d1 wf).siIdx j c = ix2 (j 0) (0 : Fin 1) := by
  funext b
  match b with
  | ⟨0, _⟩ => rfl
  | ⟨1, _⟩ =>
    apply Fin.ext
    have h : c.val < 1 := c.isLt
    show c.val = 0
    omega

/-- Rank 1: the window starts at the signed reading of the update element's index word. -/
theorem start1_0 (j : (⟨1, ![E]⟩ : Shape).Idx) (idx : IVec ⟨2, ![E, 1]⟩ w) :
    (d1 wf).start j idx 0 = (idx (ix2 (j 0) (0 : Fin 1))).toInt := by
  unfold ScatterDims.start
  rw [dif_pos (by show (0 : Fin 1) ∈ ([0] : List (Fin 1)); decide)]
  rw [siIdx1]
  rfl

/-- Rank 1: update index `j` lands at operand element `n` exactly when its index word reads `n` (signed). -/
theorem lands1_iff (idx : IVec ⟨2, ![E, 1]⟩ w) (j : (⟨1, ![E]⟩ : Shape).Idx) (n : Fin N) :
    (d1 wf).resultIdx? j idx = some (ix1 n) ↔ (idx (ix2 (j 0) (0 : Fin 1))).toInt = (n.val : Int) := by
  rw [resultIdx?_eq_some_iff]
  constructor
  · intro h
    have h0 := h 0
    rw [start1_0, window1_0] at h0
    have h0' : (n.val : Int) = (idx (ix2 (j 0) (0 : Fin 1))).toInt + ((0 : Nat) : Int) := h0
    omega
  · intro h0 a
    match a with
    | ⟨0, _⟩ =>
      show (n.val : Int) = (d1 wf).start j idx 0 + ((d1 wf).window j 0 : Nat)
      rw [start1_0, window1_0, h0]; simp

/-- Rank 1. A scatter-add of `E` update elements into an operand of `N` elements, update `e` going to the element its
    index word names: the result at `n` is the operand's element there plus the sum of the updates over the `e` whose
    index word reads `n` (signed, not clamped: an update whose word reads outside the operand is dropped). The filter is
    the one of `hostScatterAdd_rows2`. -/
theorem hostScatterAdd_rows1 (x : (⟨1, ![N]⟩ : Shape).Idx → EReal) (idx : IVec ⟨2, ![E, 1]⟩ w)
    (upd : (⟨1, ![E]⟩ : Shape).Idx → EReal) (n : Fin N) :
    Ideal.hostScatterAdd (⟨[], [0], [0], 1, wf⟩ : ScatterDims ⟨1, ![N]⟩ ⟨2, ![E, 1]⟩ ⟨1, ![E]⟩) x idx upd (ix1 n)
      = x (ix1 n) + ∑ e ∈ Finset.univ.filter (fun e : Fin E => (idx (ix2 e (0 : Fin 1))).toInt = (n.val : Int)),
          upd (ix1 e) := by
  unfold Ideal.hostScatterAdd
  congr 1
  refine Finset.sum_nbij' (fun j => j 0) (fun e => ix1 e) ?_ ?_ ?_ ?_ ?_
  · intro j hj
    exact Finset.mem_filter.2 ⟨Finset.mem_univ _, (lands1_iff wf idx j n).1 (Finset.mem_filter.1 hj).2⟩
  · intro e he
    exact Finset.mem_filter.2 ⟨Finset.mem_univ _, (lands1_iff wf idx (ix1 e) n).2 (Finset.mem_filter.1 he).2⟩
  · intro j _
    exact (eq_ix1 j).symm
  · intro e _; rfl
  · intro j _
    exact congrArg upd (eq_ix1 j)

/-- The same for the host operation as a program prints it, for any dimension-number record `d` that IS the one above. -/
theorem scatterAdd_rows1 (d : ScatterDims ⟨1, ![N]⟩ ⟨2, ![E, 1]⟩ ⟨1, ![E]⟩) (hd : d = ⟨[], [0], [0], 1, wf⟩) {φ : FTy}
    (x : FVec Ideal ⟨1, ![N]⟩ φ) (idx : IVec ⟨2, ![E, 1]⟩ w) (upd : FVec Ideal ⟨1, ![E]⟩ φ) (n : Fin N) :
    Host.scatterAdd d x idx upd (ix1 n)
      = x (ix1 n) + ∑ e ∈ Finset.univ.filter (fun e : Fin E => (idx (ix2 e (0 : Fin 1))).toInt = (n.val : Int)),
          upd (ix1 e) := by
  subst hd
  exact hostScatterAdd_rows1 wf x idx upd n

end Rank1

end Idealize.ShloMosaic.ScatterRows
-- ==== Proof.LibGatherRows.lean ====
/-
  A `stablehlo.gather` of whole rows, read at one index of its result.

  The operand has `N` rows of `C` elements; there are `E` start indices, one index word each (shape `[E, 1]`); the result
  has `E` rows of `C` elements. The dimension numbers say: the one component of a start index goes to operand axis 0, which
  is collapsed (the slice has extent 1 there); the slice takes all of axis 1, and the result's axis 1 is that offset
  axis. So the operand index of result index `(e, q)` is, on axis 0, the index word of row `e` read signed and clamped
  into `0 … N-1` (the start of a slice of extent 1), and, on axis 1, `q`: result row `e` IS the operand's row named by
  index word `e`. What `x[idx]` of a two-dimensional array at a vector of row numbers lowers to.
-/
import Idealize.ShloMosaic.PureOps.ShapeOps
import Idealize.ShloMosaic.Lib.ValueIdx

namespace Idealize.ShloMosaic.GatherRows

open Idealize.ShloMosaic Idealize.ShloMosaic.ValueIdx

variable {α : Type}

/-- The row-gather dimension numbers for an operand `[N, C]`, start indices `[E, 1]` and a result `[E, C]`. -/
abbrev rowDims (N C E : Nat)
    (wf : GatherDims.WF ⟨2, ![N, C]⟩ ⟨2, ![E, 1]⟩ ⟨2, ![E, C]⟩ [1] [0] [] [0] [] 1 ![1, C]) :
    GatherDims ⟨2, ![N, C]⟩ ⟨2, ![E, 1]⟩ ⟨2, ![E, C]⟩ where
  offsetDims := [1]
  collapsedSliceDims := [0]
  operandBatchingDims := []
  startIndicesBatchingDims := []
  startIndexMap := [0]
  indexVectorDim := 1
  sliceSizes := ![1, C]
  wf := wf

/-- THE ROW GATHER READ AT `(e, q)`: the operand at the row the index word of `e` names (signed, clamped into
    `[0, N − 1]`), in column `q`. -/
theorem gather_rows_apply {N C E w : Nat} (hN : 0 < N)
    (wf : GatherDims.WF ⟨2, ![N, C]⟩ ⟨2, ![E, 1]⟩ ⟨2, ![E, C]⟩ [1] [0] [] [0] [] 1 ![1, C])
    (x : (⟨2, ![N, C]⟩ : Shape).Idx → α) (idx : IVec ⟨2, ![E, 1]⟩ w) (e : Fin E) (q : Fin C) :
    Host.gather (rowDims N C E wf) x idx (ix2 e q)
      = x (ix2 (⟨min (idx (ix2 e (0 : Fin 1))).toInt.toNat (N - 1), by omega⟩ : Fin N) q) := by
  unfold Host.gather
  congr 1
  funext a
  refine Fin.ext ?_
  match a with
  | ⟨0, _⟩ =>
    show (rowDims N C E wf).start (ix2 e q) idx 0 + (rowDims N C E wf).batchCoord (ix2 e q) 0
      + (rowDims N C E wf).offCoord (ix2 e q) 0 = _
    rw [GatherDims.batchCoord_eq_zero _ _ _ List.not_mem_nil,
      GatherDims.offCoord_eq_zero _ _ _ (fun h => ((GatherDims.mem_sKept _ _).mp h).1 (List.mem_singleton.mpr rfl))]
    simp only [Nat.add_zero]
    unfold GatherDims.start
    rw [dif_pos (show (0 : Fin 2) ∈ (rowDims N C E wf).startIndexMap from List.mem_singleton.mpr rfl)]
    have hsi : (rowDims N C E wf).siIdx (ix2 e q) ⟨List.idxOf (0 : Fin 2) (rowDims N C E wf).startIndexMap,
        List.idxOf_lt_length_iff.2 (List.mem_singleton.mpr rfl)⟩ = ix2 e (0 : Fin 1) := by
      funext b; refine Fin.ext ?_
      match b with
      | ⟨0, _⟩ => rfl
      | ⟨1, _⟩ => rfl
    rw [hsi]
    rfl
  | ⟨1, _⟩ =>
    show (rowDims N C E wf).start (ix2 e q) idx 1 + (rowDims N C E wf).batchCoord (ix2 e q) 1
      + (rowDims N C E wf).offCoord (ix2 e q) 1 = _
    rw [GatherDims.batchCoord_eq_zero _ _ _ List.not_mem_nil]
    have hs : (rowDims N C E wf).start (ix2 e q) idx 1 = 0 := by
      unfold GatherDims.start
      rw [dif_neg (by show (1 : Fin 2) ∉ ([0] : List (Fin 2)); decide)]
    rw [hs]
    simp only [Nat.zero_add, Nat.add_zero]
    rfl

/-- The same for any dimension-number record `d` that IS the one above (`hd`, one `rfl` at the use site). -/
theorem gather_rows {N C E w : Nat} (hN : 0 < N)
    (wf : GatherDims.WF ⟨2, ![N, C]⟩ ⟨2, ![E, 1]⟩ ⟨2, ![E, C]⟩ [1] [0] [] [0] [] 1 ![1, C])
    (d : GatherDims ⟨2, ![N, C]⟩ ⟨2, ![E, 1]⟩ ⟨2, ![E, C]⟩) (hd : d = rowDims N C E wf)
    (x : (⟨2, ![N, C]⟩ : Shape).Idx → α) (idx : IVec ⟨2, ![E, 1]⟩ w) (e : Fin E) (q : Fin C) :
    Host.gather d x idx (ix2 e q)
      = x (ix2 (⟨min (idx (ix2 e (0 : Fin 1))).toInt.toNat (N - 1), by omega⟩ : Fin N) q) := by
  subst hd
  exact gather_rows_apply hN wf x idx e q

end Idealize.ShloMosaic.GatherRows
-- ==== Proof.LibAggRows.lean ====
/-
  Aggregation over edges, read at one index: a row gather followed by a row scatter-add into a zero array.

  `E` edges carry rows of a node array `X` with `N` rows of `C` elements. Edge `e` reads the row its source word names
  (signed, clamped into the rows) and adds it to the row its destination word names (signed, dropped when it names no
  row). So the aggregate at row `n`, column `q`, is zero plus the sum, over the edges whose destination word reads `n`,
  of `X` at the edge's source row in column `q`. The sizes and the index width are arbitrary.
-/
import proofs.«127194_j20126216749771_2_alg».proof.Proof.LibScatterRows
import proofs.«127194_j20126216749771_2_alg».proof.Proof.LibGatherRows

open scoped BigOperators

namespace Idealize.ShloMosaic.AggRows

open Idealize.ShloMosaic Idealize.ShloMosaic.ValueIdx

/-- A row gather by `srcG` scatter-added by `dstB` into an all-zero operand `z`, at row `n` and column `q`. -/
theorem aggregate_rows {N C E w : Nat} (hN : 0 < N)
    (wfs : ScatterDims.WF ⟨2, ![N, C]⟩ ⟨2, ![E, 1]⟩ ⟨2, ![E, C]⟩ [1] [0] [0] 1)
    (wfg : GatherDims.WF ⟨2, ![N, C]⟩ ⟨2, ![E, 1]⟩ ⟨2, ![E, C]⟩ [1] [0] [] [0] [] 1 ![1, C])
    (ds : ScatterDims ⟨2, ![N, C]⟩ ⟨2, ![E, 1]⟩ ⟨2, ![E, C]⟩) (hds : ds = ⟨[1], [0], [0], 1, wfs⟩)
    (dg : GatherDims ⟨2, ![N, C]⟩ ⟨2, ![E, 1]⟩ ⟨2, ![E, C]⟩) (hdg : dg = GatherRows.rowDims N C E wfg) {φ : FTy}
    (z : FVec Ideal ⟨2, ![N, C]⟩ φ) (hz : ∀ i, z i = 0) (X : FVec Ideal ⟨2, ![N, C]⟩ φ)
    (srcG dstB : IVec ⟨2, ![E, 1]⟩ w) (n : Fin N) (q : Fin C) :
    Host.scatterAdd ds z dstB (Host.gather dg X srcG) (ix2 n q)
      = 0 + ∑ e ∈ Finset.univ.filter (fun e : Fin E => (dstB (ix2 e (0 : Fin 1))).toInt = (n.val : Int)),
          X (ix2 (⟨min (srcG (ix2 e (0 : Fin 1))).toInt.toNat (N - 1), by omega⟩ : Fin N) q) := by
  rw [ScatterRows.scatterAdd_rows2 wfs ds hds, hz]
  refine congrArg _ (Finset.sum_congr rfl fun e _ => ?_)
  exact GatherRows.gather_rows hN wfg dg hdg X srcG e q

end Idealize.ShloMosaic.AggRows
-- ==== Proof.KernelStages.lean ====
/-
  The host stages of the idealized kernel, and its result read at an index.

  Between its dense passes the kernel's program computes on the host: the degree counts (ones scatter-added by the index
  words) and their scales (the count to the power minus one half where it is positive, zero elsewhere), packed side by
  side into one two-column array; and, twice, an aggregation over edges (a row gather by the wrapped source words, then a
  row scatter-add by the destination words into zeros). Read at an index: the packed array's column 0 is the scale by
  the source words and its column 1 the scale by the destination words; an aggregation is the specification's sum over
  the edges into a node; a bias recast as a one-row array is the bias. Composing these with the three dense passes, the
  kernel's result at `(n, c)` is the specification's output over the product-first arrangement of layer one.
-/
import proofs.«127194_j20126216749771_2_alg».proof.Proof.Gen.KernelIdeal
import proofs.«127194_j20126216749771_2_alg».proof.Proof.GcnSpec
import proofs.«127194_j20126216749771_2_alg».proof.Proof.LibAggRows
import Idealize.ShloMosaic.Lib.Pipeline.Value
import Idealize.ShloMosaic.Lib.ValueLayout
import Idealize.ShloMosaic.Lib.ValueIdx

set_option maxRecDepth 16384

noncomputable section

namespace Cert.KernelIdeal.Chain

open Cert.KernelIdeal Cert.KernelIdeal.Gen
open Idealize.ShloMosaic Idealize.ShloMosaic.ValueIdx

variable {F : FTy → Type} [FloatOps F]

/-! ## The host stages -/

/-- An index vector as a one-column array of index words. -/
def col (x : (⟨S1600000, .i32⟩ : BufTy).Contents (Elt F)) : (⟨S1600000x1, .i32⟩ : BufTy).Contents (Elt F) :=
  broadcastInDim S1600000x1 ![0] bcast_S1600000_S1600000x1_0 x

/-- The degree count of every node: ones scatter-added by the index words. -/
def deg (ib : (⟨S1600000x1, .i32⟩ : BufTy).Contents (Elt F)) : (⟨S100000, .f32⟩ : BufTy).Contents (Elt F) :=
  Host.scatterAdd scatter_S100000_S1600000x1_S1600000_n_0_0_1 (broadcastInDim S100000 ![] bcast_S_S100000 (constant S_ .f32 0x00000000#32)) ib (broadcastInDim S1600000 ![] bcast_S_S1600000 (constant S_ .f32 0x3F800000#32))

/-- The degree scale: the count to the power minus one half where the count is positive, zero elsewhere. -/
def scale (ib : (⟨S1600000x1, .i32⟩ : BufTy).Contents (Elt F)) : (⟨S100000, .f32⟩ : BufTy).Contents (Elt F) :=
  select (cmpf (F := F) .ogt (deg ib) (broadcastInDim S100000 ![] bcast_S_S100000 (constant S_ .f32 0x00000000#32))) (Host.powf (deg ib) (broadcastInDim S100000 ![] bcast_S_S100000 (constant S_ .f32 0xBF000000#32))) (broadcastInDim S100000 ![] bcast_S_S100000 (id (constant S_ .f32 0x00000000#32)))

/-- The two degree scales side by side: column 0 by the source words, column 1 by the destination words. -/
def packed (x5 x6 : (⟨S1600000, .i32⟩ : BufTy).Contents (Elt F)) : (⟨S100000x2, .f32⟩ : BufTy).Contents (Elt F) :=
  concatenate S100000x2 1 [⟨S100000x1, broadcastInDim S100000x1 ![0] bcast_S100000_S100000x1_0 (scale (col x5))⟩, ⟨S100000x1, broadcastInDim S100000x1 ![0] bcast_S100000_S100000x1_0 (scale (col x6))⟩] concatenates_S100000x1_S100000x1_S100000x2_d1

/-- The source words with a negative word wrapped around by the number of nodes, as a one-column array. -/
def wrap (x5 : (⟨S1600000, .i32⟩ : BufTy).Contents (Elt F)) : (⟨S1600000x1, .i32⟩ : BufTy).Contents (Elt F) :=
  broadcastInDim S1600000x1 ![0] bcast_S1600000_S1600000x1_0 (select (cmpi .slt x5 (broadcastInDim S1600000 ![] bcast_S_S1600000 (constantI S_ 32 0#32))) (addi x5 (broadcastInDim S1600000 ![] bcast_S_S1600000 (constantI S_ 32 100000#32))) x5)

/-- Aggregation over edges of a 128-column node array: gather the source rows, scatter-add them by destination. -/
def agg128 (x5 x6 : (⟨S1600000, .i32⟩ : BufTy).Contents (Elt F)) (X : (⟨S100000x128, .f32⟩ : BufTy).Contents (Elt F)) :
    (⟨S100000x128, .f32⟩ : BufTy).Contents (Elt F) :=
  Host.scatterAdd scatter_S100000x128_S1600000x1_S1600000x128_1_0_0_1 (broadcastInDim S100000x128 ![] bcast_S_S100000x128 (constant S_ .f32 0x00000000#32)) (col x6) (Host.gather gather_S100000x128_S1600000x1_S1600000x128_1_0_n_n_0_1_1128 X (wrap x5))

/-- Aggregation over edges of a 2-column node array. -/
def agg2 (x5 x6 : (⟨S1600000, .i32⟩ : BufTy).Contents (Elt F)) (X : (⟨S100000x2, .f32⟩ : BufTy).Contents (Elt F)) :
    (⟨S100000x2, .f32⟩ : BufTy).Contents (Elt F) :=
  Host.scatterAdd scatter_S100000x2_S1600000x1_S1600000x2_1_0_0_1 (broadcastInDim S100000x2 ![] bcast_S_S100000x2 (constant S_ .f32 0x00000000#32)) (col x6) (Host.gather gather_S100000x2_S1600000x1_S1600000x2_1_0_n_n_0_1_12 X (wrap x5))

/-! ## The stages read at an index, on the extended reals -/

section AtIndex

variable (x5 x6 : (⟨S1600000, .i32⟩ : BufTy).Contents (Elt Ideal))

/-- A two-piece concatenation along the columns of two one-column arrays, read in column 0: the first piece. -/
theorem concat_col0 (x₁ x₂ : S100000x1.Idx → EReal) (r : Fin 100000) :
    concatenate S100000x2 1 [⟨S100000x1, x₁⟩, ⟨S100000x1, x₂⟩] concatenates_S100000x1_S100000x1_S100000x2_d1 (ix2 r (0 : Fin 2))
      = x₁ (ix2 r (0 : Fin 1)) := by
  have hi : ∀ b : Fin S100000x1.rank, ((ix2 r (0 : Fin 1) : S100000x1.Idx) b).val = ((ix2 r (0 : Fin 2) : S100000x2.Idx) (b.cast rfl)).val := by
    intro b
    match b with
    | ⟨0, _⟩ => rfl
    | ⟨1, _⟩ => rfl
  exact concatenate_pair_apply_left (1 : Fin 2) x₁ x₂ concatenates_S100000x1_S100000x1_S100000x2_d1 (ix2 r (0 : Fin 2)) rfl (ix2 r (0 : Fin 1)) hi

/-- The same read in column 1: the second piece. -/
theorem concat_col1 (x₁ x₂ : S100000x1.Idx → EReal) (r : Fin 100000) :
    concatenate S100000x2 1 [⟨S100000x1, x₁⟩, ⟨S100000x1, x₂⟩] concatenates_S100000x1_S100000x1_S100000x2_d1 (ix2 r (1 : Fin 2))
      = x₂ (ix2 r (0 : Fin 1)) := by
  have hi : ∀ b : Fin S100000x1.rank, b.cast (rfl : S100000x1.rank = S100000x2.rank) ≠ (1 : Fin 2) →
      ((ix2 r (0 : Fin 1) : S100000x1.Idx) b).val = ((ix2 r (1 : Fin 2) : S100000x2.Idx) (b.cast rfl)).val := by
    intro b hb
    match b, hb with
    | ⟨0, _⟩, _ => rfl
    | ⟨1, _⟩, hb => exact absurd rfl hb
  exact concatenate_pair_apply_right (1 : Fin 2) x₁ x₂ concatenates_S100000x1_S100000x1_S100000x2_d1 (ix2 r (1 : Fin 2)) rfl rfl (ix2 r (0 : Fin 1)) hi rfl

/-- Column 0 of the packed scales is the scale by the source words. -/
theorem packed_col0 (r : Fin 100000) :
    packed (F := Ideal) x5 x6 (ix2 r (0 : Fin 2)) = scale (F := Ideal) (col x5) (ix1 r) := by
  unfold packed
  refine (concat_col0 _ _ r).trans ?_
  exact broadcastInDim_apply _ bcast_S100000_S100000x1_0 _ _ (ix1 r) (fun a => by
    match a with
    | ⟨0, _⟩ => rfl)

/-- Column 1 of the packed scales is the scale by the destination words. -/
theorem packed_col1 (r : Fin 100000) :
    packed (F := Ideal) x5 x6 (ix2 r (1 : Fin 2)) = scale (F := Ideal) (col x6) (ix1 r) := by
  unfold packed
  refine (concat_col1 _ _ r).trans ?_
  exact broadcastInDim_apply _ bcast_S100000_S100000x1_0 _ _ (ix1 r) (fun a => by
    match a with
    | ⟨0, _⟩ => rfl)

/-- The aggregation of a 128-column node array is the specification's sum over the edges into a node. -/
theorem agg128_apply (X : (⟨S100000x128, .f32⟩ : BufTy).Contents (Elt Ideal)) (n : Fin 100000) (q : Fin 128) :
    agg128 (F := Ideal) x5 x6 X (ix2 n q) = Cert.Gcn.aggr (wrap (F := Ideal) x5) (col (F := Ideal) x6) (fun r k => X (ix2 r k)) n q := by
  unfold agg128 Cert.Gcn.aggr Cert.Gcn.inEdges Cert.Gcn.rowOf
  exact AggRows.aggregate_rows (by decide) scatter_S100000x128_S1600000x1_S1600000x128_1_0_0_1.wf
    gather_S100000x128_S1600000x1_S1600000x128_1_0_n_n_0_1_1128.wf _ rfl _ rfl _ (fun _ => Ideal.ofBits_zero_f32) X
    (wrap (F := Ideal) x5) (col (F := Ideal) x6) n q

/-- The aggregation of a 2-column node array is the specification's sum over the edges into a node. -/
theorem agg2_apply (X : (⟨S100000x2, .f32⟩ : BufTy).Contents (Elt Ideal)) (n : Fin 100000) (q : Fin 2) :
    agg2 (F := Ideal) x5 x6 X (ix2 n q) = Cert.Gcn.aggr (wrap (F := Ideal) x5) (col (F := Ideal) x6) (fun r k => X (ix2 r k)) n q := by
  unfold agg2 Cert.Gcn.aggr Cert.Gcn.inEdges Cert.Gcn.rowOf
  exact AggRows.aggregate_rows (by decide) scatter_S100000x2_S1600000x1_S1600000x2_1_0_0_1.wf
    gather_S100000x2_S1600000x1_S1600000x2_1_0_n_n_0_1_12.wf _ rfl _ rfl _ (fun _ => Ideal.ofBits_zero_f32) X
    (wrap (F := Ideal) x5) (col (F := Ideal) x6) n q

variable (x0 : (⟨S100000x128, .f32⟩ : BufTy).Contents (Elt Ideal)) (x1 : (⟨S128x128, .f32⟩ : BufTy).Contents (Elt Ideal))
  (x2 : (⟨S128, .f32⟩ : BufTy).Contents (Elt Ideal)) (x3 : (⟨S128x2, .f32⟩ : BufTy).Contents (Elt Ideal))
  (x4 : (⟨S2, .f32⟩ : BufTy).Contents (Elt Ideal))

/-- The kernel's composition: the three dense passes with the two aggregations between them, over the argument arrays. -/
def composed : (⟨S100000x2, .f32⟩ : BufTy).Contents (Elt Ideal) :=
  Cert.Gcn.arr2 (agg2 (F := Ideal) x5 x6 (Cert.Gcn.arr1 (agg128 (F := Ideal) x5 x6 (Cert.Gcn.arr0 x0 (packed (F := Ideal) x5 x6) x1))
      (packed (F := Ideal) x5 x6) (shapeCast S1x128 x2 shapeCasts_S128_S1x128) x3))
    (packed (F := Ideal) x5 x6) (shapeCast S1x2 x4 shapeCasts_S2_S1x2)

/-- THE KERNEL'S RESULT AT AN INDEX: the composition of the three dense passes and the two aggregations is the
    specification's output, layer one taken product first. -/
theorem kernel_apply (n : Fin 100000) (c : Fin 2) :
    composed x5 x6 x0 x1 x2 x3 x4 (ix2 n c)
      = Cert.Gcn.out
          (Cert.Gcn.layer1K (fun r k => x0 (ix2 r k)) (fun r => scale (F := Ideal) (col x5) (ix1 r)) (fun k q => x1 (ix2 k q))
            (wrap (F := Ideal) x5) (col (F := Ideal) x6))
          (fun r => scale (F := Ideal) (col x5) (ix1 r)) (fun r => scale (F := Ideal) (col x6) (ix1 r))
          (fun k => x2 (ix1 k)) (fun k c => x3 (ix2 k c)) (fun c => x4 (ix1 c))
          (wrap (F := Ideal) x5) (col (F := Ideal) x6) n c := by
  have hno : (fun r : Fin 100000 => packed (F := Ideal) x5 x6 (ix2 r (0 : Fin 2))) = fun r => scale (F := Ideal) (col x5) (ix1 r) :=
    funext fun r => packed_col0 x5 x6 r
  have hni : (fun r : Fin 100000 => packed (F := Ideal) x5 x6 (ix2 r (1 : Fin 2))) = fun r => scale (F := Ideal) (col x6) (ix1 r) :=
    funext fun r => packed_col1 x5 x6 r
  have hb1 : (fun k : Fin 128 => shapeCast S1x128 x2 shapeCasts_S128_S1x128 (ix2 (0 : Fin 1) k)) = fun k => x2 (ix1 k) :=
    funext fun k => shapeCast_a_1a_apply x2 shapeCasts_S128_S1x128 0 k
  have h0 : (fun (r : Fin 100000) (k : Fin 128) => Cert.Gcn.arr0 x0 (packed (F := Ideal) x5 x6) x1 (ix2 r k))
      = Cert.Gcn.h0mm (fun r k => x0 (ix2 r k)) (fun r => scale (F := Ideal) (col x5) (ix1 r)) (fun k q => x1 (ix2 k q)) := by
    funext r k
    rw [Cert.Gcn.arr0_apply, hno]
  have h1 : (fun (r : Fin 100000) (k : Fin 128) => agg128 (F := Ideal) x5 x6 (Cert.Gcn.arr0 x0 (packed (F := Ideal) x5 x6) x1) (ix2 r k))
      = Cert.Gcn.layer1K (fun r k => x0 (ix2 r k)) (fun r => scale (F := Ideal) (col x5) (ix1 r)) (fun k q => x1 (ix2 k q))
          (wrap (F := Ideal) x5) (col (F := Ideal) x6) := by
    funext r k
    rw [agg128_apply, h0]
    rfl
  have h2 : (fun (r : Fin 100000) (k : Fin 2) => Cert.Gcn.arr1 (agg128 (F := Ideal) x5 x6 (Cert.Gcn.arr0 x0 (packed (F := Ideal) x5 x6) x1))
        (packed (F := Ideal) x5 x6) (shapeCast S1x128 x2 shapeCasts_S128_S1x128) x3 (ix2 r k))
      = Cert.Gcn.h2mm (Cert.Gcn.layer1K (fun r k => x0 (ix2 r k)) (fun r => scale (F := Ideal) (col x5) (ix1 r)) (fun k q => x1 (ix2 k q))
          (wrap (F := Ideal) x5) (col (F := Ideal) x6))
        (fun r => scale (F := Ideal) (col x5) (ix1 r)) (fun r => scale (F := Ideal) (col x6) (ix1 r))
        (fun k => x2 (ix1 k)) (fun k c => x3 (ix2 k c)) := by
    funext r k
    rw [Cert.Gcn.arr1_apply, h1, hno, hni, hb1]
  unfold composed
  rw [Cert.Gcn.arr2_apply, agg2_apply, h2, packed_col1, shapeCast_a_1a_apply]
  rfl

end AtIndex

end Cert.KernelIdeal.Chain

end
-- ==== Proof.LibDense.lean ====
/-
  A dense product of two matrices on the extended reals, index by index, and the two array operations that compute it.

  For `x : [n0, nk]` and `w : [nk, n1]` the product is `(x · w)[r, q] = Σ_{k < nk} x[r, k] · w[k, q]` (`denseProd`). A
  contraction whose dimension numbers pair axis 1 of the left operand with axis 0 of the right one, with no batch axes, sums
  exactly these terms: its contraction index is one coordinate `k`, its left operand index at output `(r, q)` is `(r, k)`
  and its right one `(k, q)` (`sum_contr`). So on the extended reals the matrix unit's product into a zero accumulator
  (`matmul_zero_eq`) and the host's `dot_general` (`dotGeneral_eq`) are both `denseProd`: no order of summation, no
  rounding of the operands, no accumulator survives at the ideal instance.
-/
import Idealize.ShloMosaic.PureOps.Ideal.Laws
import Idealize.ShloMosaic.Lib.ValueIdx

noncomputable section

open scoped BigOperators

namespace Cert.LibDense

open Idealize.ShloMosaic Idealize.ShloMosaic.ValueIdx

/-- `(x · w)[r, q] = Σ_k x[r, k] · w[k, q]` on the extended reals. -/
def denseProd {n0 nk n1 : Nat} (x : (⟨2, ![n0, nk]⟩ : Shape).Idx → EReal) (w : (⟨2, ![nk, n1]⟩ : Shape).Idx → EReal) :
    (⟨2, ![n0, n1]⟩ : Shape).Idx → EReal :=
  fun i => ∑ k : Fin nk, x (ix2 (i 0) k) * w (ix2 k (i 1))

theorem denseProd_apply {n0 nk n1 : Nat} (x : (⟨2, ![n0, nk]⟩ : Shape).Idx → EReal) (w : (⟨2, ![nk, n1]⟩ : Shape).Idx → EReal)
    (i : (⟨2, ![n0, n1]⟩ : Shape).Idx) : denseProd x w i = ∑ k : Fin nk, x (ix2 (i 0) k) * w (ix2 k (i 1)) := rfl

/-- A row of a product depends on the same row of the left factor only: if row `p` of `xb` is row `r` of `x` and
    column `q` of `wb` is column `q` of `w`, the products agree at `(p, q)` and `(r, q)` — a row block of `x · w` is
    the product of the row block of `x` with `w`. -/
theorem denseProd_row {nb n0 nk n1 : Nat} (xb : (⟨2, ![nb, nk]⟩ : Shape).Idx → EReal) (x : (⟨2, ![n0, nk]⟩ : Shape).Idx → EReal)
    (wb w : (⟨2, ![nk, n1]⟩ : Shape).Idx → EReal) (p : Fin nb) (r : Fin n0) (q : Fin n1)
    (hx : ∀ k : Fin nk, xb (ix2 p k) = x (ix2 r k)) (hw : ∀ k : Fin nk, wb (ix2 k q) = w (ix2 k q)) :
    denseProd xb wb (ix2 p q) = denseProd x w (ix2 r q) :=
  Finset.sum_congr rfl fun k _ => by
    show xb (ix2 p k) * wb (ix2 k q) = x (ix2 r k) * w (ix2 k q)
    rw [hx k, hw k]

section Plain

variable {n0 nk n1 : Nat} (d : DotDims ⟨2, ![n0, nk]⟩ ⟨2, ![nk, n1]⟩ ⟨2, ![n0, n1]⟩)
  (hr : d.contr.rank = 1) (hs : d.contr.size ⟨0, by omega⟩ = nk)
  (hlc : d.lhsContracting = [1]) (hrc : d.rhsContracting = [0])
  (hl0 : ∀ (i : (⟨2, ![n0, n1]⟩ : Shape).Idx) (q : d.contr.Idx), (d.lhsIdx i q 0).val = (i 0).val)
  (hr1 : ∀ (i : (⟨2, ![n0, n1]⟩ : Shape).Idx) (q : d.contr.Idx), (d.rhsIdx i q 1).val = (i 1).val)

include hr hs hlc hrc hl0 hr1

/-- The contraction's sum over its one-coordinate index is the sum over `k < nk` of row entry times column entry. -/
theorem sum_contr (x : (⟨2, ![n0, nk]⟩ : Shape).Idx → EReal) (w : (⟨2, ![nk, n1]⟩ : Shape).Idx → EReal)
    (i : (⟨2, ![n0, n1]⟩ : Shape).Idx) :
    ∑ q : d.contr.Idx, x (d.lhsIdx i q) * w (d.rhsIdx i q) = denseProd x w i := by
  rw [denseProd_apply, ← Equiv.sum_comp (contrEquiv1 d nk hr hs).symm]
  refine Finset.sum_congr rfl fun k _ => ?_
  have hk := contrEquiv1_symm_val d nk hr hs k
  have el : d.lhsIdx i ((contrEquiv1 d nk hr hs).symm k) = ix2 (i 0) k := funext fun a => Fin.ext (by
    match a with
    | ⟨0, _⟩ => exact hl0 _ _
    | ⟨1, _⟩ => exact (d.lhsIdx_val_of_single hlc i _).trans hk)
  have er : d.rhsIdx i ((contrEquiv1 d nk hr hs).symm k) = ix2 k (i 1) := funext fun a => Fin.ext (by
    match a with
    | ⟨0, _⟩ => exact (d.rhsIdx_val_of_single hrc i _).trans hk
    | ⟨1, _⟩ => exact hr1 _ _)
  rw [el, er]
  rfl

/-- The matrix unit's product into the zero accumulator is the dense product, whatever formats the operands were rounded to. -/
theorem matmul_zero_eq {φ₁ φ₂ : FTy} (prec : Option ContractPrecision) (x : FVec Ideal ⟨2, ![n0, nk]⟩ φ₁)
    (w : FVec Ideal ⟨2, ![nk, n1]⟩ φ₂) :
    FloatOps.matmul d prec x w (constant ⟨2, ![n0, n1]⟩ .f32 0x00000000#32) = denseProd x w :=
  funext fun i => (Ideal.matmul_constant_zero_apply d prec x w i).trans (sum_contr d hr hs hlc hrc hl0 hr1 x w i)

/-- The host's `dot_general` is the dense product, whatever its schedule key. -/
theorem dotGeneral_eq {φ₁ φ₂ : FTy} (prec : Option ContractPrecision) (sched : HostSchedule) (x : FVec Ideal ⟨2, ![n0, nk]⟩ φ₁)
    (w : FVec Ideal ⟨2, ![nk, n1]⟩ φ₂) :
    FloatOps.dotGeneral d prec sched x w = denseProd x w :=
  funext fun i => (Ideal.dotGeneral_apply d prec sched x w i).trans (sum_contr d hr hs hlc hrc hl0 hr1 x w i)

end Plain

end Cert.LibDense

end
-- ==== Proof.Region0.lean ====
/-
  The first dense pass of the graph convolution, read as one whole array.

  The pass runs over 50 row blocks of 2000 nodes. At block `t` the body loads rows `2000 t … 2000 t + 1999` of the
  features `x : [100000, 128]` and of the packed scales `[100000, 2]`, and the whole weight matrix `W1 : [128, 128]`;
  it multiplies each feature row by the row's outgoing scale (column 0 of the packed scales), and stores the product of
  that block with `W1` — on the extended reals `Σ_k (x[r, k] · no[r]) · W1[k, q]`, the matrix unit's zero accumulator and
  the roundings of its operands having no effect there. A row of the product depends on the same row of the left factor
  only, so block `t` of the output is rows `2000 t … 2000 t + 1999` of ONE whole-array function (`Cert.Gcn.arr0`); the 50
  blocks cover every row (row `r` is in block `r / 2000`), hence the output array ends holding that function.
-/
import proofs.«127194_j20126216749771_2_alg».proof.Proof.Gen.KernelIdeal.Frame
import proofs.«127194_j20126216749771_2_alg».proof.Proof.GcnSpec
import proofs.«127194_j20126216749771_2_alg».proof.Proof.LibDense
import Idealize.ShloMosaic.Lib.Pipeline.Value
import Idealize.ShloMosaic.Lib.ValueLayout

set_option maxRecDepth 16384

noncomputable section

open scoped BigOperators

namespace Cert.KernelIdeal.Region0

open Cert.KernelIdeal Cert.KernelIdeal.Gen Idealize.ShloMosaic Idealize.ShloMosaic.TcCoe Idealize.SL.Sem Idealize.ShloMosaic.ValueIdx
open Idealize.ShloMosaic.Pipeline (Dat)
/-- A column `[a, 1]` broadcast to `[a, b]` reads, at `(p, c)`, the operand's entry in row `p`. -/
theorem broadcastTo_a1_ab_apply {α : Type} {a b : ℕ} (v : (⟨2, ![a, 1]⟩ : Shape).Idx → α)
    (h : (⟨2, ![a, 1]⟩ : Shape).Broadcasts ⟨2, ![a, b]⟩) (p : Fin a) (c : Fin b) :
    broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

/-- The outgoing scale as the body spreads it over a block: column 0 of the packed scales' block, every column alike. -/
theorem scale_apply (x1 : Vec Ideal S2000x2 .f32) (h1 : S2000x2.ShapeCasts S2000x2) (h2 : S2000x2.Slices ![0, 0] S2000x1)
    (h3 : S2000x1.Broadcasts S2000x128) (p : Fin 2000) (q : Fin 128) :
    broadcastTo S2000x128 (extractStridedSlice S2000x1 ![0, 0] (shapeCast S2000x2 x1 h1) h2) h3 (ix2 p q)
      = x1 (ix2 p (0 : Fin 2)) := by
  rw [shapeCast_self]
  exact (broadcastTo_a1_ab_apply _ h3 p q).trans (slice2_axis1_apply 0 x1 h2 p (0 : Fin 1) (0 : Fin 2) rfl)

/-- The body's stored value at row `p`, column `q` of a block: the block's row `p` of the features, each entry times
    the row's outgoing scale, against column `q` of the weights. -/
theorem pay_apply (x0 : Vec Ideal S2000x128 .f32) (x1 : Vec Ideal S2000x2 .f32) (x2 : Vec Ideal S128x128 .f32)
    (p : Fin 2000) (q : Fin 128) :
    k0_pay1 x0 x1 x2 (ix2 p q) = ∑ k : Fin 128, (x0 (ix2 p k) * x1 (ix2 p (0 : Fin 2))) * x2 (ix2 k q) := by
  unfold k0_pay1
  refine (congrFun (Cert.LibDense.matmul_zero_eq dot_S2000x128_S128x128_S2000x128_1_0_0_1_n_n rfl rfl rfl rfl
    (fun i q => by simp [DotDims.lhsIdx]; rfl) (fun i q => by simp [DotDims.rhsIdx]; rfl) none _ _) (ix2 p q)).trans ?_
  rw [Cert.LibDense.denseProd_apply]
  refine Finset.sum_congr rfl fun k _ => ?_
  show (x0 (ix2 p k) * _) * x2 (ix2 k q) = _
  rw [scale_apply]

/-- The body's stored value at `(p, q)` of a block is the scaled features times the first weights at `(r, q)` when the
    block's row `p` of the features and of the scales is the arrays' row `r` and the weights' block is the weights. -/
theorem pay_eq_arr0 (x0 : Vec Ideal S2000x128 .f32) (x1 : Vec Ideal S2000x2 .f32) (x2 : Vec Ideal S128x128 .f32)
    (X : S100000x128.Idx → EReal) (NV : S100000x2.Idx → EReal) (W : S128x128.Idx → EReal)
    (p : Fin 2000) (q : Fin 128) (r : Fin 100000) (j : S2000x128.Idx) (i : S100000x128.Idx)
    (hj : j = ix2 p q) (hi : i = ix2 r q)
    (h0 : ∀ k : Fin 128, x0 (ix2 p k) = X (ix2 r k))
    (h1 : x1 (ix2 p (0 : Fin 2)) = NV (ix2 r (0 : Fin 2)))
    (h2 : ∀ k : Fin 128, x2 (ix2 k q) = W (ix2 k q)) :
    k0_pay1 x0 x1 x2 j = Cert.Gcn.arr0 X NV W i := by
  subst hj hi
  rw [pay_apply, Cert.Gcn.arr0_apply]
  unfold Cert.Gcn.h0mm
  exact Finset.sum_congr rfl fun k _ => by rw [h0 k, h1, h2 k]

variable (V : (c : Dev nD) → (b : Ref sig .tc) → Buf (Elt Ideal) ((c : Thread nD τ).loc b))

theorem hz : (![0, 0] : Fin 2 → Nat) = fun _ => 0 := funext fun a => by fin_cases a <;> rfl

/-- The printed index maps, decided over the grid: the row-block windows sit at block `(t, 0)`, the weights at `(0, 0)`. -/
theorem idx_facts : ∀ t : Fin cfg0.N, win0_0.index t (0 : Fin 2) = t.val ∧ win0_0.index t (1 : Fin 2) = 0
    ∧ win0_1.index t (0 : Fin 2) = t.val ∧ win0_1.index t (1 : Fin 2) = 0
    ∧ win0_2.index t (0 : Fin 2) = 0 ∧ win0_2.index t (1 : Fin 2) = 0
    ∧ win0_3.index t (0 : Fin 2) = t.val ∧ win0_3.index t (1 : Fin 2) = 0 :=
  (by decide +kernel : ∀ t : Fin grid0.N, _)

/-- The features' block at point `t` is rows `2000 t … 2000 t + 1999` of the features. -/
theorem blk0_apply (c : Dev nD) (t : Fin cfg0.N) (x : S2000x128.Idx) (k : S100000x128.Idx)
    (hk0 : (k 0).val = 2000 * t.val + (x 0).val) (hk1 : (k 1).val = (x 1).val) :
    (iblk0 V c 0 t : Vec Ideal S2000x128 .f32) x = (V c main_arg0 : S100000x128.Idx → EReal) k := by
  obtain ⟨e0, e1, -⟩ := idx_facts t
  unfold iblk0
  rw [View.read_apply]
  show V c main_arg0 _ = V c main_arg0 _
  refine congrArg _ (funext fun a => Fin.ext ?_)
  match a with
  | ⟨0, _⟩ => show win0_0.index t 0 * 2000 + 1 * (x 0).val = (k 0).val; omega
  | ⟨1, _⟩ => show win0_0.index t 1 * 128 + 1 * (x 1).val = (k 1).val; omega

/-- The packed scales' block at point `t` is rows `2000 t … 2000 t + 1999` of the packed scales. -/
theorem blk1_apply (c : Dev nD) (t : Fin cfg0.N) (x : S2000x2.Idx) (k : S100000x2.Idx)
    (hk0 : (k 0).val = 2000 * t.val + (x 0).val) (hk1 : (k 1).val = (x 1).val) :
    (iblk0 V c 1 t : Vec Ideal S2000x2 .f32) x = (V c main_v19 : S100000x2.Idx → EReal) k := by
  obtain ⟨-, -, e0, e1, -⟩ := idx_facts t
  unfold iblk0
  rw [View.read_apply]
  show V c main_v19 _ = V c main_v19 _
  refine congrArg _ (funext fun a => Fin.ext ?_)
  match a with
  | ⟨0, _⟩ => show win0_1.index t 0 * 2000 + 1 * (x 0).val = (k 0).val; omega
  | ⟨1, _⟩ => show win0_1.index t 1 * 2 + 1 * (x 1).val = (k 1).val; omega

/-- The weights' block at every point is the whole weight matrix. -/
theorem blk2_apply (c : Dev nD) (t : Fin cfg0.N) (x : S128x128.Idx) (k : S128x128.Idx)
    (hk0 : (k 0).val = (x 0).val) (hk1 : (k 1).val = (x 1).val) :
    (iblk0 V c 2 t : Vec Ideal S128x128 .f32) x = (V c main_arg1 : S128x128.Idx → EReal) k := by
  obtain ⟨-, -, -, -, e0, e1, -⟩ := idx_facts t
  unfold iblk0
  rw [View.read_apply]
  show V c main_arg1 _ = V c main_arg1 _
  refine congrArg _ (funext fun a => Fin.ext ?_)
  match a with
  | ⟨0, _⟩ => show win0_2.index t 0 * 128 + 1 * (x 0).val = (k 0).val; omega
  | ⟨1, _⟩ => show win0_2.index t 1 * 128 + 1 * (x 1).val = (k 1).val; omega

/-- What point `t` writes back is block `t` of the scaled features times the first weights, as whole arrays. -/
theorem flushed_eq (c : Dev nD) (t : Fin cfg0.N) :
    (dat0 V c).flushed 3 t = ((cfg0.win 3).blk t).view.read (Elt Ideal)
      (Cert.Gcn.arr0 (V c main_arg0) (V c main_v19) (V c main_arg1)) := by
  show (cfg0.win 3).cut (grid0.coords t) ((dat0 V c).after 3 t) = _
  rw [after0_3]
  unfold out0_3
  rw [View.canon_unit_zero hz]
  simp only [View.ld_unit_zero (S := S2000x128) hz, View.ld_unit_zero (S := S2000x2) hz, View.ld_unit_zero (S := S128x128) hz]
  obtain ⟨-, -, -, -, -, -, e6, e7⟩ := idx_facts t
  funext j
  show k0_pay1 (iblk0 V c 0 t) (iblk0 V c 1 t) (iblk0 V c 2 t) j
    = Cert.Gcn.arr0 (V c main_arg0) (V c main_v19) (V c main_arg1) (((cfg0.win 3).blk t).view.emb j)
  have hr : ((((cfg0.win 3).blk t).view.emb j) 0).val = 2000 * t.val + (j 0).val := by
    show win0_3.index t 0 * 2000 + 1 * (j 0).val = _; omega
  have hc : ((((cfg0.win 3).blk t).view.emb j) 1).val = (j 1).val := by
    show win0_3.index t 1 * 128 + 1 * (j 1).val = _; omega
  refine pay_eq_arr0 (iblk0 V c 0 t) (iblk0 V c 1 t) (iblk0 V c 2 t) (V c main_arg0) (V c main_v19) (V c main_arg1)
    (j 0) (j 1) ((((cfg0.win 3).blk t).view.emb j) 0) j (((cfg0.win 3).blk t).view.emb j) (eq_ix2 j) ?_
    (fun k => ?_) ?_ (fun k => ?_)
  · funext a; apply Fin.ext
    match a with
    | ⟨0, _⟩ => rfl
    | ⟨1, _⟩ => exact hc
  · exact blk0_apply V c t _ _ hr rfl
  · exact blk1_apply V c t _ _ hr rfl
  · exact blk2_apply V c t _ _ rfl rfl

/-- An index of the output array is in point `t`'s block iff each coordinate is in the block's range on its axis. -/
theorem mem_blk (t : Fin cfg0.N) (i : S100000x128.Idx) :
    i ∈ ((cfg0.win 3).blk t).view.set ↔ ∀ a : Fin 2, win0_3.index t a * S2000x128.size a ≤ (i a).val
      ∧ (i a).val < win0_3.index t a * S2000x128.size a + S2000x128.size a := by
  show i ∈ ((View.whole main_v20).slice (win0_3.rect t)).set ↔ _
  rw [View.set_slice_whole, Rect.mem_set_unit]
  exact Iff.rfl

/-- Every index of the output array is in some point's block: row `r` is in the block of point `r / 2000`. -/
theorem cover (i : S100000x128.Idx) :
    ∃ t : Fin cfg0.N, (cfg0.win 3).flush t = true ∧ i ∈ ((cfg0.win 3).blk t).view.set := by
  have hi0 : (i 0).val < 100000 := (i 0).isLt
  have hi1 : (i 1).val < 128 := (i 1).isLt
  obtain ⟨t, ht⟩ : ∃ t : Fin cfg0.N, t.val = (i 0).val / 2000 :=
    ⟨⟨(i 0).val / 2000, (show (i 0).val / 2000 < grid0.N by rw [N_0]; omega)⟩, rfl⟩
  obtain ⟨-, -, -, -, -, -, e6, e7⟩ := idx_facts t
  refine ⟨t, flush0_3 t, ?_⟩
  rw [mem_blk]
  intro a
  match a with
  | ⟨0, _⟩ =>
    show win0_3.index t (0 : Fin 2) * 2000 ≤ (i 0).val ∧ (i 0).val < win0_3.index t (0 : Fin 2) * 2000 + 2000
    omega
  | ⟨1, _⟩ =>
    show win0_3.index t (1 : Fin 2) * 128 ≤ (i 1).val ∧ (i 1).val < win0_3.index t (1 : Fin 2) * 128 + 128
    omega

/-- The output array after the region: the scaled features times the first weight matrix, as whole arrays. -/
theorem final0 (c : Dev nD) :
    (dat0 (F := Ideal) V c).arrAt 3 cfg0.N = Cert.Gcn.arr0 (V c main_arg0) (V c main_v19) (V c main_arg1) :=
  (dat0 V c).arrAt_eq_of_cover 3 (Cert.Gcn.arr0 (V c main_arg0) (V c main_v19) (V c main_arg1))
    (fun t _ => flushed_eq V c t) cover

end Cert.KernelIdeal.Region0

end
-- ==== Proof.Region1.lean ====
/-
  The second dense pass of the graph convolution, read as one whole array.

  The region runs over 50 blocks of 2000 rows. At block `t` its body loads rows `2000 t … 2000 t + 1999` of the first
  aggregate `A` and of the packed scales `NV` (column 0 the outgoing scale, column 1 the incoming one), the whole bias row
  `b1` and the whole weight matrix `W2`, and stores, for those rows, `(max (A · NV[:, 1] + b1) 0 · NV[:, 0]) · W2`: on the
  extended reals the matrix unit's product into a zero accumulator is the plain sum `Σ_k` over the 128 hidden features, and
  rounding the factors to a shorter format changes nothing. Row `r` of that product depends on row `r` of `A` and of `NV`
  only, so block `t` of the stored result is block `t` of ONE function of the whole arrays, `Cert.Gcn.arr1`; the 50 blocks
  cover all 100000 rows (row `r` lies in block `r / 2000`), so the output array ends as that function (`final1`).
-/
import proofs.«127194_j20126216749771_2_alg».proof.Proof.Gen.KernelIdeal.Frame
import proofs.«127194_j20126216749771_2_alg».proof.Proof.GcnSpec
import proofs.«127194_j20126216749771_2_alg».proof.Proof.LibDense
import Idealize.ShloMosaic.Lib.Pipeline.Value
import Idealize.ShloMosaic.Lib.ValueLayout

set_option maxRecDepth 16384

noncomputable section

open scoped BigOperators

namespace Cert.KernelIdeal.Region1

open Cert.KernelIdeal Cert.KernelIdeal.Gen Idealize.ShloMosaic Idealize.ShloMosaic.TcCoe Idealize.SL.Sem Idealize.ShloMosaic.ValueIdx
open Idealize.ShloMosaic.Pipeline (Dat)

/-- A `[a, 1]` column broadcast to `[a, b]` reads, at `(p, c)`, the operand's row `p`. -/
theorem broadcastTo_a1_ab_apply {α : Type} {a b : ℕ} (v : (⟨2, ![a, 1]⟩ : Shape).Idx → α)
    (h : (⟨2, ![a, 1]⟩ : Shape).Broadcasts ⟨2, ![a, b]⟩) (p : Fin a) (c : Fin b) :
    broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

/-- Column `e` of a two-column block, cut out and spread over 128 lanes, reads the block's entry `(p, e)` in every lane. -/
theorem col1_apply (x1 : Vec Ideal S2000x2 .f32) (p : Fin 2000) (k : Fin 128) :
    broadcastTo S2000x128 (extractStridedSlice S2000x1 ![0, 1] (shapeCast S2000x2 x1 shapeCasts_S2000x2_S2000x2) slices_S2000x2_o0_1_S2000x1)
        broadcasts_S2000x1_S2000x128 (ix2 p k) = x1 (ix2 p (1 : Fin 2)) := by
  rw [shapeCast_self]
  exact (broadcastTo_a1_ab_apply _ _ p k).trans (slice2_axis1_apply 1 x1 _ p (0 : Fin 1) (1 : Fin 2) rfl)

theorem col0_apply (x1 : Vec Ideal S2000x2 .f32) (p : Fin 2000) (k : Fin 128) :
    broadcastTo S2000x128 (extractStridedSlice S2000x1 ![0, 0] (shapeCast S2000x2 x1 shapeCasts_S2000x2_S2000x2) slices_S2000x2_o0_0_S2000x1)
        broadcasts_S2000x1_S2000x128 (ix2 p k) = x1 (ix2 p (0 : Fin 2)) := by
  rw [shapeCast_self]
  exact (broadcastTo_a1_ab_apply _ _ p k).trans (slice2_axis1_apply 0 x1 _ p (0 : Fin 1) (0 : Fin 2) rfl)

/-- The one-row bias spread over the 2000 rows reads its entry `k` in every row. -/
theorem bias_apply (x2 : Vec Ideal S1x128 .f32) (p : Fin 2000) (k : Fin 128) :
    broadcastTo S2000x128 (shapeCast S1x128 x2 shapeCasts_S1x128_S1x128) broadcasts_S1x128_S2000x128 (ix2 p k) = x2 (ix2 (0 : Fin 1) k) := by
  rw [shapeCast_self]
  exact broadcastTo_1b_ab_apply x2 _ p k

theorem dot_hl0 : ∀ (i : (⟨2, ![2000, 2]⟩ : Shape).Idx) (q : dot_S2000x128_S128x2_S2000x2_1_0_0_1_n_n.contr.Idx),
    (dot_S2000x128_S128x2_S2000x2_1_0_0_1_n_n.lhsIdx i q 0).val = (i 0).val := by
  intro i q
  simp [DotDims.lhsIdx, dot_S2000x128_S128x2_S2000x2_1_0_0_1_n_n]
  rfl

theorem dot_hr1 : ∀ (i : (⟨2, ![2000, 2]⟩ : Shape).Idx) (q : dot_S2000x128_S128x2_S2000x2_1_0_0_1_n_n.contr.Idx),
    (dot_S2000x128_S128x2_S2000x2_1_0_0_1_n_n.rhsIdx i q 1).val = (i 1).val := by
  intro i q
  simp [DotDims.rhsIdx, dot_S2000x128_S128x2_S2000x2_1_0_0_1_n_n]
  rfl

/-- The block's payload at `(p, q)`: the scaled, biased, rectified and rescaled row `p` of the aggregate against
    column `q` of the weights, `Σ_k (max (x0[p,k] · x1[p,1] + x2[0,k]) 0 · x1[p,0]) · x3[k,q]`. -/
theorem pay_apply (x0 : Vec Ideal S2000x128 .f32) (x1 : Vec Ideal S2000x2 .f32) (x2 : Vec Ideal S1x128 .f32) (x3 : Vec Ideal S128x2 .f32)
    (p : Fin 2000) (q : Fin 2) :
    k1_pay1 (F := Ideal) x0 x1 x1 x2 x3 (ix2 p q)
      = ∑ k : Fin 128, (max (x0 (ix2 p k) * x1 (ix2 p (1 : Fin 2)) + x2 (ix2 (0 : Fin 1) k)) 0 * x1 (ix2 p (0 : Fin 2))) * x3 (ix2 k q) := by
  unfold k1_pay1
  refine (congrFun (Cert.LibDense.matmul_zero_eq dot_S2000x128_S128x2_S2000x2_1_0_0_1_n_n rfl rfl rfl rfl dot_hl0 dot_hr1 none _ _) (ix2 p q)).trans ?_
  refine (Cert.LibDense.denseProd_apply _ _ _).trans ?_
  refine Finset.sum_congr rfl fun k _ => ?_
  show max (shapeCast S2000x128 x0 shapeCasts_S2000x128_S2000x128 (ix2 p k)
          * broadcastTo S2000x128 (extractStridedSlice S2000x1 ![0, 1] (shapeCast S2000x2 x1 shapeCasts_S2000x2_S2000x2) slices_S2000x2_o0_1_S2000x1)
              broadcasts_S2000x1_S2000x128 (ix2 p k)
          + broadcastTo S2000x128 (shapeCast S1x128 x2 shapeCasts_S1x128_S1x128) broadcasts_S1x128_S2000x128 (ix2 p k))
        (Ideal.ofBits .f32 0x00000000#32)
      * broadcastTo S2000x128 (extractStridedSlice S2000x1 ![0, 0] (shapeCast S2000x2 x1 shapeCasts_S2000x2_S2000x2) slices_S2000x2_o0_0_S2000x1)
          broadcasts_S2000x1_S2000x128 (ix2 p k)
      * x3 (ix2 k q) = _
  rw [col1_apply, col0_apply, bias_apply, shapeCast_self, Ideal.ofBits_zero_f32]

variable (V : (c : Dev nD) → (b : Ref sig .tc) → Buf (Elt Ideal) ((c : Thread nD τ).loc b))

theorem hz : (![0, 0] : Fin 2 → Nat) = fun _ => 0 := funext fun a => by fin_cases a <;> rfl

/-- The printed index maps over the grid: the aggregate's, the scales' and the output's block move down the rows
    with the point, the bias row and the weights stay at block (0, 0). -/
theorem idx_facts : ∀ t : Fin cfg1.N,
    win1_0.index t (0 : Fin 2) = t.val ∧ win1_0.index t (1 : Fin 2) = 0
    ∧ win1_1.index t (0 : Fin 2) = t.val ∧ win1_1.index t (1 : Fin 2) = 0
    ∧ win1_2.index t (0 : Fin 2) = 0 ∧ win1_2.index t (1 : Fin 2) = 0
    ∧ win1_3.index t (0 : Fin 2) = 0 ∧ win1_3.index t (1 : Fin 2) = 0
    ∧ win1_4.index t (0 : Fin 2) = t.val ∧ win1_4.index t (1 : Fin 2) = 0 :=
  (by decide +kernel : ∀ t : Fin grid1.N, _)

/-- Block `t` of the aggregate is its rows `2000 t … 2000 t + 1999`. -/
theorem blk0_apply (c : Dev nD) (t : Fin cfg1.N) (p : Fin 2000) (k : Fin 128) (r : Fin 100000) (hr : r.val = 2000 * t.val + p.val) :
    (iblk1 V c 0 t : Vec Ideal S2000x128 .f32) (ix2 p k) = (V c main_v30 : S100000x128.Idx → EReal) (ix2 r k) := by
  obtain ⟨e0, e1, -⟩ := idx_facts t
  show V c main_v30 (((cfg1.win 0).blk t).view.emb (ix2 p k)) = V c main_v30 (ix2 r k)
  refine congrArg _ (funext fun a => Fin.ext ?_)
  match a with
  | ⟨0, _⟩ => show win1_0.index t (0 : Fin 2) * 2000 + 1 * p.val = r.val; omega
  | ⟨1, _⟩ => show win1_0.index t (1 : Fin 2) * 128 + 1 * k.val = k.val; omega

/-- Block `t` of the packed scales is its rows `2000 t … 2000 t + 1999`. -/
theorem blk1_apply (c : Dev nD) (t : Fin cfg1.N) (p : Fin 2000) (e : Fin 2) (r : Fin 100000) (hr : r.val = 2000 * t.val + p.val) :
    (iblk1 V c 1 t : Vec Ideal S2000x2 .f32) (ix2 p e) = (V c main_v19 : S100000x2.Idx → EReal) (ix2 r e) := by
  obtain ⟨-, -, e0, e1, -⟩ := idx_facts t
  show V c main_v19 (((cfg1.win 1).blk t).view.emb (ix2 p e)) = V c main_v19 (ix2 r e)
  refine congrArg _ (funext fun a => Fin.ext ?_)
  match a with
  | ⟨0, _⟩ => show win1_1.index t (0 : Fin 2) * 2000 + 1 * p.val = r.val; omega
  | ⟨1, _⟩ => show win1_1.index t (1 : Fin 2) * 2 + 1 * e.val = e.val; omega

/-- The bias window's one block is the whole bias row. -/
theorem blk2_apply (c : Dev nD) (t : Fin cfg1.N) (k : Fin 128) :
    (iblk1 V c 2 t : Vec Ideal S1x128 .f32) (ix2 (0 : Fin 1) k) = (V c main_v31 : S1x128.Idx → EReal) (ix2 (0 : Fin 1) k) := by
  obtain ⟨-, -, -, -, e0, e1, -⟩ := idx_facts t
  show V c main_v31 (((cfg1.win 2).blk t).view.emb (ix2 (0 : Fin 1) k)) = V c main_v31 (ix2 (0 : Fin 1) k)
  refine congrArg _ (funext fun a => Fin.ext ?_)
  match a with
  | ⟨0, _⟩ => show win1_2.index t (0 : Fin 2) * 1 + 1 * (0 : Fin 1).val = (0 : Fin 1).val; omega
  | ⟨1, _⟩ => show win1_2.index t (1 : Fin 2) * 128 + 1 * k.val = k.val; omega

/-- The weight window's one block is the whole weight matrix. -/
theorem blk3_apply (c : Dev nD) (t : Fin cfg1.N) (k : Fin 128) (q : Fin 2) :
    (iblk1 V c 3 t : Vec Ideal S128x2 .f32) (ix2 k q) = (V c main_arg3 : S128x2.Idx → EReal) (ix2 k q) := by
  obtain ⟨-, -, -, -, -, -, e0, e1, -⟩ := idx_facts t
  show V c main_arg3 (((cfg1.win 3).blk t).view.emb (ix2 k q)) = V c main_arg3 (ix2 k q)
  refine congrArg _ (funext fun a => Fin.ext ?_)
  match a with
  | ⟨0, _⟩ => show win1_3.index t (0 : Fin 2) * 128 + 1 * k.val = k.val; omega
  | ⟨1, _⟩ => show win1_3.index t (1 : Fin 2) * 2 + 1 * q.val = q.val; omega

/-- Entry `(p, q)` of the output's block `t` is entry `(2000 t + p, q)` of the output array. -/
theorem emb4 (t : Fin cfg1.N) (p : Fin 2000) (q : Fin 2) (r : Fin 100000) (hr : r.val = 2000 * t.val + p.val) :
    ((cfg1.win 4).blk t).view.emb (ix2 p q) = (ix2 r q : S100000x2.Idx) := by
  obtain ⟨-, -, -, -, -, -, -, -, e0, e1⟩ := idx_facts t
  funext a; apply Fin.ext
  match a with
  | ⟨0, _⟩ => show win1_4.index t (0 : Fin 2) * 2000 + 1 * p.val = r.val; omega
  | ⟨1, _⟩ => show win1_4.index t (1 : Fin 2) * 2 + 1 * q.val = q.val; omega

/-- What point `t` writes back is block `t` of the dense pass `arr1` of the arrays as the region finds them. -/
theorem flushed_eq (c : Dev nD) (t : Fin cfg1.N) :
    (dat1 (F := Ideal) V c).flushed 4 t = ((cfg1.win 4).blk t).view.read (Elt Ideal)
      (Cert.Gcn.arr1 (V c main_v30) (V c main_v19) (V c main_v31) (V c main_arg3)) := by
  show (cfg1.win 4).cut (grid1.coords t) ((dat1 V c).after 4 t) = _
  rw [after1_4]
  unfold out1_4
  rw [View.canon_unit_zero hz]
  simp only [View.ld_unit_zero (S := S2000x128) hz, View.ld_unit_zero (S := S2000x2) hz, View.ld_unit_zero (S := S1x128) hz,
    View.ld_unit_zero (S := S128x2) hz]
  funext j
  obtain ⟨p, q, rfl⟩ : ∃ (p : Fin 2000) (q : Fin 2), j = ix2 p q := ⟨j 0, j 1, eq_ix2 j⟩
  have hN : cfg1.N = 50 := N_1
  have ht : t.val < cfg1.N := t.isLt
  have hr : 2000 * t.val + p.val < 100000 := by omega
  show k1_pay1 (F := Ideal) (iblk1 V c 0 t) (iblk1 V c 1 t) (iblk1 V c 1 t) (iblk1 V c 2 t) (iblk1 V c 3 t) (ix2 p q)
      = Cert.Gcn.arr1 (V c main_v30) (V c main_v19) (V c main_v31) (V c main_arg3) (((cfg1.win 4).blk t).view.emb (ix2 p q))
  rw [emb4 t p q ⟨_, hr⟩ rfl]
  refine (pay_apply (iblk1 V c 0 t) (iblk1 V c 1 t) (iblk1 V c 2 t) (iblk1 V c 3 t) p q).trans ?_
  rw [Cert.Gcn.arr1_apply]
  unfold Cert.Gcn.h2mm Cert.Gcn.hidden
  refine Finset.sum_congr rfl fun k _ => ?_
  rw [blk0_apply V c t p k ⟨_, hr⟩ rfl, blk1_apply V c t p 1 ⟨_, hr⟩ rfl, blk1_apply V c t p 0 ⟨_, hr⟩ rfl, blk2_apply V c t k,
    blk3_apply V c t k q]

/-- An index of the output array is in point `t`'s block iff each coordinate is in the block's range on its axis. -/
theorem mem_blk (t : Fin cfg1.N) (i : S100000x2.Idx) :
    i ∈ ((cfg1.win 4).blk t).view.set ↔ ∀ a : Fin 2, win1_4.index t a * S2000x2.size a ≤ (i a).val ∧ (i a).val < win1_4.index t a * S2000x2.size a + S2000x2.size a := by
  show i ∈ ((View.whole main_v32).slice (win1_4.rect t)).set ↔ _
  rw [View.set_slice_whole, Rect.mem_set_unit]
  exact Iff.rfl

/-- Every row `r` of the output lies in the block of point `r / 2000`. -/
theorem cover (i : S100000x2.Idx) : ∃ t : Fin cfg1.N, (cfg1.win 4).flush t = true ∧ i ∈ ((cfg1.win 4).blk t).view.set := by
  have hN : cfg1.N = 50 := N_1
  have hi0 : (i 0).val < 100000 := (i 0).isLt
  have hi1 : (i 1).val < 2 := (i 1).isLt
  have hlt : (i 0).val / 2000 < cfg1.N := by omega
  refine ⟨⟨(i 0).val / 2000, hlt⟩, flush1_4 _, ?_⟩
  rw [mem_blk]
  obtain ⟨-, -, -, -, -, -, -, -, e0, e1⟩ := idx_facts ⟨(i 0).val / 2000, hlt⟩
  have e0' : win1_4.index ⟨(i 0).val / 2000, hlt⟩ (0 : Fin 2) = (i 0).val / 2000 := e0
  intro a
  match a with
  | ⟨0, _⟩ =>
    show win1_4.index ⟨(i 0).val / 2000, hlt⟩ (0 : Fin 2) * 2000 ≤ (i 0).val ∧ (i 0).val < win1_4.index ⟨(i 0).val / 2000, hlt⟩ (0 : Fin 2) * 2000 + 2000
    omega
  | ⟨1, _⟩ =>
    show win1_4.index ⟨(i 0).val / 2000, hlt⟩ (1 : Fin 2) * 2 ≤ (i 1).val ∧ (i 1).val < win1_4.index ⟨(i 0).val / 2000, hlt⟩ (1 : Fin 2) * 2 + 2
    omega

/-- The output array after the region is the dense pass `arr1` of the arrays the region found. -/
theorem final1 (c : Dev nD) :
    (dat1 (F := Ideal) V c).arrAt 4 cfg1.N = Cert.Gcn.arr1 (V c main_v30) (V c main_v19) (V c main_v31) (V c main_arg3) :=
  (dat1 (F := Ideal) V c).arrAt_eq_of_cover 4 (Cert.Gcn.arr1 (V c main_v30) (V c main_v19) (V c main_v31) (V c main_arg3))
    (fun t _ => flushed_eq V c t) cover

end Cert.KernelIdeal.Region1

end
-- ==== Proof.Region2.lean ====
/-
  The last dense pass of the graph convolution, read as one whole array.

  The pass runs over 50 row blocks of 2000 nodes. At block `t` the body loads rows `2000 t … 2000 t + 1999` of the
  second aggregate `[100000, 2]` and of the packed scales `[100000, 2]`, and the one-row bias `[1, 2]`; it stores, entry
  by entry, the aggregate times the row's incoming scale (column 1 of the packed scales) plus the bias's entry in that
  column. Each stored entry depends on the same row of the inputs only, so block `t` of the output is rows
  `2000 t … 2000 t + 1999` of ONE whole-array function (`Cert.Gcn.arr2`); the 50 blocks cover every row (row `r` is in
  block `r / 2000`), hence the output array ends holding that function.
-/
import proofs.«127194_j20126216749771_2_alg».proof.Proof.Gen.KernelIdeal.Frame
import proofs.«127194_j20126216749771_2_alg».proof.Proof.GcnSpec
import proofs.«127194_j20126216749771_2_alg».proof.Proof.LibDense
import Idealize.ShloMosaic.Lib.Pipeline.Value
import Idealize.ShloMosaic.Lib.ValueLayout

set_option maxRecDepth 16384

noncomputable section

open scoped BigOperators

namespace Cert.KernelIdeal.Region2

open Cert.KernelIdeal Cert.KernelIdeal.Gen Idealize.ShloMosaic Idealize.ShloMosaic.TcCoe Idealize.SL.Sem Idealize.ShloMosaic.ValueIdx
open Idealize.ShloMosaic.Pipeline (Dat)

/-- A column `[a, 1]` broadcast to `[a, b]` reads, at `(p, c)`, the operand's entry in row `p`. -/
theorem broadcastTo_a1_ab_apply {α : Type} {a b : ℕ} (v : (⟨2, ![a, 1]⟩ : Shape).Idx → α)
    (h : (⟨2, ![a, 1]⟩ : Shape).Broadcasts ⟨2, ![a, b]⟩) (p : Fin a) (c : Fin b) :
    broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

/-- The body's stored value at row `p`, column `c` of a block: the aggregate's entry times the row's incoming scale
    (column 1 of the packed scales' block), plus the bias's entry in column `c`. -/
theorem pay_apply (x0 : Vec Ideal S2000x2 .f32) (x1 : Vec Ideal S2000x2 .f32) (x2 : Vec Ideal S1x2 .f32)
    (p : Fin 2000) (q : Fin 2) :
    k2_pay1 x0 x1 x2 (ix2 p q) = x0 (ix2 p q) * x1 (ix2 p (1 : Fin 2)) + x2 (ix2 (0 : Fin 1) q) := by
  unfold k2_pay1
  simp only [shapeCast_self]
  show x0 (ix2 p q) * broadcastTo S2000x2 (extractStridedSlice S2000x1 ![0, 1] x1 _) _ (ix2 p q)
    + broadcastTo S2000x2 x2 _ (ix2 p q) = _
  rw [broadcastTo_a1_ab_apply, broadcastTo_1b_ab_apply, slice2_axis1_apply 1 x1 _ p (0 : Fin 1) (1 : Fin 2) rfl]

/-- The body's stored value at `(p, q)` of a block is the second layer's scale and bias at `(r, q)` when the block's
    row `p` of the aggregate and of the scales is the arrays' row `r` and the bias's block is the bias. -/
theorem pay_eq_arr2 (x0 : Vec Ideal S2000x2 .f32) (x1 : Vec Ideal S2000x2 .f32) (x2 : Vec Ideal S1x2 .f32)
    (A : S100000x2.Idx → EReal) (NV : S100000x2.Idx → EReal) (B : S1x2.Idx → EReal)
    (p : Fin 2000) (q : Fin 2) (r : Fin 100000) (j : S2000x2.Idx) (i : S100000x2.Idx)
    (hj : j = ix2 p q) (hi : i = ix2 r q)
    (h0 : x0 (ix2 p q) = A (ix2 r q))
    (h1 : x1 (ix2 p (1 : Fin 2)) = NV (ix2 r (1 : Fin 2)))
    (h2 : x2 (ix2 (0 : Fin 1) q) = B (ix2 (0 : Fin 1) q)) :
    k2_pay1 x0 x1 x2 j = Cert.Gcn.arr2 A NV B i := by
  subst hj hi
  rw [pay_apply, Cert.Gcn.arr2_apply, h0, h1, h2]

variable (V : (c : Dev nD) → (b : Ref sig .tc) → Buf (Elt Ideal) ((c : Thread nD τ).loc b))

theorem hz : (![0, 0] : Fin 2 → Nat) = fun _ => 0 := funext fun a => by fin_cases a <;> rfl

/-- The printed index maps, decided over the grid: the row-block windows sit at block `(t, 0)`, the bias at `(0, 0)`. -/
theorem idx_facts : ∀ t : Fin cfg2.N, win2_0.index t (0 : Fin 2) = t.val ∧ win2_0.index t (1 : Fin 2) = 0
    ∧ win2_1.index t (0 : Fin 2) = t.val ∧ win2_1.index t (1 : Fin 2) = 0
    ∧ win2_2.index t (0 : Fin 2) = 0 ∧ win2_2.index t (1 : Fin 2) = 0
    ∧ win2_3.index t (0 : Fin 2) = t.val ∧ win2_3.index t (1 : Fin 2) = 0 :=
  (by decide +kernel : ∀ t : Fin grid2.N, _)

/-- The aggregate's block at point `t` is rows `2000 t … 2000 t + 1999` of the aggregate. -/
theorem blk0_apply (c : Dev nD) (t : Fin cfg2.N) (x : S2000x2.Idx) (k : S100000x2.Idx)
    (hk0 : (k 0).val = 2000 * t.val + (x 0).val) (hk1 : (k 1).val = (x 1).val) :
    (iblk2 V c 0 t : Vec Ideal S2000x2 .f32) x = (V c main_v42 : S100000x2.Idx → EReal) k := by
  obtain ⟨e0, e1, -⟩ := idx_facts t
  unfold iblk2
  rw [View.read_apply]
  show V c main_v42 _ = V c main_v42 _
  refine congrArg _ (funext fun a => Fin.ext ?_)
  match a with
  | ⟨0, _⟩ => show win2_0.index t 0 * 2000 + 1 * (x 0).val = (k 0).val; omega
  | ⟨1, _⟩ => show win2_0.index t 1 * 2 + 1 * (x 1).val = (k 1).val; omega

/-- The packed scales' block at point `t` is rows `2000 t … 2000 t + 1999` of the packed scales. -/
theorem blk1_apply (c : Dev nD) (t : Fin cfg2.N) (x : S2000x2.Idx) (k : S100000x2.Idx)
    (hk0 : (k 0).val = 2000 * t.val + (x 0).val) (hk1 : (k 1).val = (x 1).val) :
    (iblk2 V c 1 t : Vec Ideal S2000x2 .f32) x = (V c main_v19 : S100000x2.Idx → EReal) k := by
  obtain ⟨-, -, e0, e1, -⟩ := idx_facts t
  unfold iblk2
  rw [View.read_apply]
  show V c main_v19 _ = V c main_v19 _
  refine congrArg _ (funext fun a => Fin.ext ?_)
  match a with
  | ⟨0, _⟩ => show win2_1.index t 0 * 2000 + 1 * (x 0).val = (k 0).val; omega
  | ⟨1, _⟩ => show win2_1.index t 1 * 2 + 1 * (x 1).val = (k 1).val; omega

/-- The bias's block at every point is the whole one-row bias. -/
theorem blk2_apply (c : Dev nD) (t : Fin cfg2.N) (x : S1x2.Idx) (k : S1x2.Idx)
    (hk0 : (k 0).val = (x 0).val) (hk1 : (k 1).val = (x 1).val) :
    (iblk2 V c 2 t : Vec Ideal S1x2 .f32) x = (V c main_v43 : S1x2.Idx → EReal) k := by
  obtain ⟨-, -, -, -, e0, e1, -⟩ := idx_facts t
  unfold iblk2
  rw [View.read_apply]
  show V c main_v43 _ = V c main_v43 _
  refine congrArg _ (funext fun a => Fin.ext ?_)
  match a with
  | ⟨0, _⟩ => show win2_2.index t 0 * 1 + 1 * (x 0).val = (k 0).val; omega
  | ⟨1, _⟩ => show win2_2.index t 1 * 2 + 1 * (x 1).val = (k 1).val; omega

/-- What point `t` writes back is block `t` of the second layer's scale and bias, as whole arrays. -/
theorem flushed_eq (c : Dev nD) (t : Fin cfg2.N) :
    (dat2 V c).flushed 3 t = ((cfg2.win 3).blk t).view.read (Elt Ideal)
      (Cert.Gcn.arr2 (V c main_v42) (V c main_v19) (V c main_v43)) := by
  show (cfg2.win 3).cut (grid2.coords t) ((dat2 V c).after 3 t) = _
  rw [after2_3]
  unfold out2_3
  rw [View.canon_unit_zero hz]
  simp only [View.ld_unit_zero (S := S2000x2) hz, View.ld_unit_zero (S := S1x2) hz]
  obtain ⟨-, -, -, -, -, -, e6, e7⟩ := idx_facts t
  funext j
  show k2_pay1 (iblk2 V c 0 t) (iblk2 V c 1 t) (iblk2 V c 2 t) j
    = Cert.Gcn.arr2 (V c main_v42) (V c main_v19) (V c main_v43) (((cfg2.win 3).blk t).view.emb j)
  have hr : ((((cfg2.win 3).blk t).view.emb j) 0).val = 2000 * t.val + (j 0).val := by
    show win2_3.index t 0 * 2000 + 1 * (j 0).val = _; omega
  have hc : ((((cfg2.win 3).blk t).view.emb j) 1).val = (j 1).val := by
    show win2_3.index t 1 * 2 + 1 * (j 1).val = _; omega
  refine pay_eq_arr2 (iblk2 V c 0 t) (iblk2 V c 1 t) (iblk2 V c 2 t) (V c main_v42) (V c main_v19) (V c main_v43)
    (j 0) (j 1) ((((cfg2.win 3).blk t).view.emb j) 0) j (((cfg2.win 3).blk t).view.emb j) (eq_ix2 j) ?_ ?_ ?_ ?_
  · funext a; apply Fin.ext
    match a with
    | ⟨0, _⟩ => rfl
    | ⟨1, _⟩ => exact hc
  · exact blk0_apply V c t _ _ hr rfl
  · exact blk1_apply V c t _ _ hr rfl
  · exact blk2_apply V c t _ _ rfl rfl

/-- An index of the output array is in point `t`'s block iff each coordinate is in the block's range on its axis. -/
theorem mem_blk (t : Fin cfg2.N) (i : S100000x2.Idx) :
    i ∈ ((cfg2.win 3).blk t).view.set ↔ ∀ a : Fin 2, win2_3.index t a * S2000x2.size a ≤ (i a).val
      ∧ (i a).val < win2_3.index t a * S2000x2.size a + S2000x2.size a := by
  show i ∈ ((View.whole main_v44).slice (win2_3.rect t)).set ↔ _
  rw [View.set_slice_whole, Rect.mem_set_unit]
  exact Iff.rfl

/-- Every index of the output array is in some point's block: row `r` is in the block of point `r / 2000`. -/
theorem cover (i : S100000x2.Idx) :
    ∃ t : Fin cfg2.N, (cfg2.win 3).flush t = true ∧ i ∈ ((cfg2.win 3).blk t).view.set := by
  have hi0 : (i 0).val < 100000 := (i 0).isLt
  have hi1 : (i 1).val < 2 := (i 1).isLt
  obtain ⟨t, ht⟩ : ∃ t : Fin cfg2.N, t.val = (i 0).val / 2000 :=
    ⟨⟨(i 0).val / 2000, (show (i 0).val / 2000 < grid2.N by rw [N_2]; omega)⟩, rfl⟩
  obtain ⟨-, -, -, -, -, -, e6, e7⟩ := idx_facts t
  refine ⟨t, flush2_3 t, ?_⟩
  rw [mem_blk]
  intro a
  match a with
  | ⟨0, _⟩ =>
    show win2_3.index t (0 : Fin 2) * 2000 ≤ (i 0).val ∧ (i 0).val < win2_3.index t (0 : Fin 2) * 2000 + 2000
    omega
  | ⟨1, _⟩ =>
    show win2_3.index t (1 : Fin 2) * 2 ≤ (i 1).val ∧ (i 1).val < win2_3.index t (1 : Fin 2) * 2 + 2
    omega

/-- The output array after the region: the second aggregate times the incoming scale plus the bias, as whole arrays. -/
theorem final2 (c : Dev nD) :
    (dat2 (F := Ideal) V c).arrAt 3 cfg2.N = Cert.Gcn.arr2 (V c main_v42) (V c main_v19) (V c main_v43) :=
  (dat2 V c).arrAt_eq_of_cover 3 (Cert.Gcn.arr2 (V c main_v42) (V c main_v19) (V c main_v43))
    (fun t _ => flushed_eq V c t) cover

end Cert.KernelIdeal.Region2

end
-- ==== Proof.KernelChain.lean ====
/-
  The idealized kernel's result as ONE term of its argument arrays.

  Between its three pipelined regions the program runs host operations: before the first, the two degree counts and their
  scales, packed side by side into one two-column array; between the regions, a row gather by the wrapped source words
  followed by a row scatter-add by the destination words, and a bias vector recast as a one-row array. A host stretch
  rewrites the buffers its operations write and leaves the rest; a region leaves its output array at the dense pass of
  its input arrays (the three whole-array functions of the specification) and every other buffer as it found it. Walking
  the boundaries from the last one back to the launch memory gives the result array as the composition
  `arr2 (agg2 (arr1 (agg128 (arr0 x NV W1)) NV b1 W2)) NV b2` over the argument arrays, `NV` the packed scales.
-/
import proofs.«127194_j20126216749771_2_alg».proof.Proof.Gen.KernelIdeal.Frame
import proofs.«127194_j20126216749771_2_alg».proof.Proof.GcnSpec
import proofs.«127194_j20126216749771_2_alg».proof.Proof.KernelStages
import proofs.«127194_j20126216749771_2_alg».proof.Proof.Region0
import proofs.«127194_j20126216749771_2_alg».proof.Proof.Region1
import proofs.«127194_j20126216749771_2_alg».proof.Proof.Region2
import Idealize.ShloMosaic.Lib.StableHlo.Run

set_option maxRecDepth 16384

noncomputable section

namespace Cert.KernelIdeal.Chain

open Cert.KernelIdeal Cert.KernelIdeal.Gen
open Idealize.ShloMosaic Idealize.ShloMosaic.TcCoe Idealize.SL.Sem Idealize.ShloMosaic.StableHlo

variable {F : FTy → Type} [FloatOps F]

/-! ## Each host stretch read at the buffers the next segments use, from any contents `V` -/

theorem s0_v8 (V : Valuation τ sig (Elt F)) :
    StableHlo.after hostOps0 V (Proc.devRef .tc main_v8) = cmpf (F := F) .ogt (deg (col (V (Proc.devRef .tc main_arg5)))) (broadcastInDim S100000 ![] bcast_S_S100000 (constant S_ .f32 0x00000000#32)) := by
  simp only [hostOps0]; after_results <;> rfl

theorem s0_v10 (V : Valuation τ sig (Elt F)) :
    StableHlo.after hostOps0 V (Proc.devRef .tc main_v10) = Host.powf (deg (col (V (Proc.devRef .tc main_arg5)))) (broadcastInDim S100000 ![] bcast_S_S100000 (constant S_ .f32 0xBF000000#32)) := by
  simp only [hostOps0]; after_results <;> rfl

theorem s0_cst4 (V : Valuation τ sig (Elt F)) :
    StableHlo.after hostOps0 V (Proc.devRef .tc main_cst_4) = (constant S_ .f32 0x00000000#32 : (⟨S_, .f32⟩ : BufTy).Contents (Elt F)) := by
  simp only [hostOps0]; after_results <;> rfl

theorem s0_v6 (V : Valuation τ sig (Elt F)) :
    StableHlo.after hostOps0 V (Proc.devRef .tc main_v6) = deg (col (V (Proc.devRef .tc main_arg6))) := by
  simp only [hostOps0]; after_results <;> rfl

theorem s0_pass (V : Valuation τ sig (Elt F)) :
    StableHlo.after hostOps0 V (Proc.devRef .tc main_arg0) = V (Proc.devRef .tc main_arg0)
    ∧ StableHlo.after hostOps0 V (Proc.devRef .tc main_arg1) = V (Proc.devRef .tc main_arg1)
    ∧ StableHlo.after hostOps0 V (Proc.devRef .tc main_arg2) = V (Proc.devRef .tc main_arg2)
    ∧ StableHlo.after hostOps0 V (Proc.devRef .tc main_arg3) = V (Proc.devRef .tc main_arg3)
    ∧ StableHlo.after hostOps0 V (Proc.devRef .tc main_arg4) = V (Proc.devRef .tc main_arg4)
    ∧ StableHlo.after hostOps0 V (Proc.devRef .tc main_arg5) = V (Proc.devRef .tc main_arg5)
    ∧ StableHlo.after hostOps0 V (Proc.devRef .tc main_arg6) = V (Proc.devRef .tc main_arg6) := by
  simp only [hostOps0]
  refine ⟨?_, ?_, ?_, ?_, ?_, ?_, ?_⟩ <;> after_results

theorem s1_v11 (V : Valuation τ sig (Elt F)) :
    StableHlo.after hostOps0_1 V (Proc.devRef .tc main_v11) = select (V (Proc.devRef .tc main_v8)) (V (Proc.devRef .tc main_v10)) (broadcastInDim S100000 ![] bcast_S_S100000 (id (V (Proc.devRef .tc main_cst_4)))) := by
  simp only [hostOps0_1]; after_results <;> rfl

theorem s1_pass (V : Valuation τ sig (Elt F)) :
    StableHlo.after hostOps0_1 V (Proc.devRef .tc main_v6) = V (Proc.devRef .tc main_v6)
    ∧ StableHlo.after hostOps0_1 V (Proc.devRef .tc main_arg0) = V (Proc.devRef .tc main_arg0)
    ∧ StableHlo.after hostOps0_1 V (Proc.devRef .tc main_arg1) = V (Proc.devRef .tc main_arg1)
    ∧ StableHlo.after hostOps0_1 V (Proc.devRef .tc main_arg2) = V (Proc.devRef .tc main_arg2)
    ∧ StableHlo.after hostOps0_1 V (Proc.devRef .tc main_arg3) = V (Proc.devRef .tc main_arg3)
    ∧ StableHlo.after hostOps0_1 V (Proc.devRef .tc main_arg4) = V (Proc.devRef .tc main_arg4)
    ∧ StableHlo.after hostOps0_1 V (Proc.devRef .tc main_arg5) = V (Proc.devRef .tc main_arg5)
    ∧ StableHlo.after hostOps0_1 V (Proc.devRef .tc main_arg6) = V (Proc.devRef .tc main_arg6) := by
  simp only [hostOps0_1]
  refine ⟨?_, ?_, ?_, ?_, ?_, ?_, ?_, ?_⟩ <;> after_results

theorem s2_v13 (V : Valuation τ sig (Elt F)) :
    StableHlo.after hostOps0_2 V (Proc.devRef .tc main_v13) = cmpf (F := F) .ogt (V (Proc.devRef .tc main_v6)) (broadcastInDim S100000 ![] bcast_S_S100000 (constant S_ .f32 0x00000000#32)) := by
  simp only [hostOps0_2]; after_results <;> rfl

theorem s2_v15 (V : Valuation τ sig (Elt F)) :
    StableHlo.after hostOps0_2 V (Proc.devRef .tc main_v15) = Host.powf (V (Proc.devRef .tc main_v6)) (broadcastInDim S100000 ![] bcast_S_S100000 (constant S_ .f32 0xBF000000#32)) := by
  simp only [hostOps0_2]; after_results <;> rfl

theorem s2_cst7 (V : Valuation τ sig (Elt F)) :
    StableHlo.after hostOps0_2 V (Proc.devRef .tc main_cst_7) = (constant S_ .f32 0x00000000#32 : (⟨S_, .f32⟩ : BufTy).Contents (Elt F)) := by
  simp only [hostOps0_2]; after_results <;> rfl

theorem s2_pass (V : Valuation τ sig (Elt F)) :
    StableHlo.after hostOps0_2 V (Proc.devRef .tc main_v11) = V (Proc.devRef .tc main_v11)
    ∧ StableHlo.after hostOps0_2 V (Proc.devRef .tc main_arg0) = V (Proc.devRef .tc main_arg0)
    ∧ StableHlo.after hostOps0_2 V (Proc.devRef .tc main_arg1) = V (Proc.devRef .tc main_arg1)
    ∧ StableHlo.after hostOps0_2 V (Proc.devRef .tc main_arg2) = V (Proc.devRef .tc main_arg2)
    ∧ StableHlo.after hostOps0_2 V (Proc.devRef .tc main_arg3) = V (Proc.devRef .tc main_arg3)
    ∧ StableHlo.after hostOps0_2 V (Proc.devRef .tc main_arg4) = V (Proc.devRef .tc main_arg4)
    ∧ StableHlo.after hostOps0_2 V (Proc.devRef .tc main_arg5) = V (Proc.devRef .tc main_arg5)
    ∧ StableHlo.after hostOps0_2 V (Proc.devRef .tc main_arg6) = V (Proc.devRef .tc main_arg6) := by
  simp only [hostOps0_2]
  refine ⟨?_, ?_, ?_, ?_, ?_, ?_, ?_, ?_⟩ <;> after_results

theorem s3_v16 (V : Valuation τ sig (Elt F)) :
    StableHlo.after hostOps0_3 V (Proc.devRef .tc main_v16) = select (V (Proc.devRef .tc main_v13)) (V (Proc.devRef .tc main_v15)) (broadcastInDim S100000 ![] bcast_S_S100000 (id (V (Proc.devRef .tc main_cst_7)))) := by
  simp only [hostOps0_3]; after_results <;> rfl

theorem s3_pass (V : Valuation τ sig (Elt F)) :
    StableHlo.after hostOps0_3 V (Proc.devRef .tc main_v11) = V (Proc.devRef .tc main_v11)
    ∧ StableHlo.after hostOps0_3 V (Proc.devRef .tc main_arg0) = V (Proc.devRef .tc main_arg0)
    ∧ StableHlo.after hostOps0_3 V (Proc.devRef .tc main_arg1) = V (Proc.devRef .tc main_arg1)
    ∧ StableHlo.after hostOps0_3 V (Proc.devRef .tc main_arg2) = V (Proc.devRef .tc main_arg2)
    ∧ StableHlo.after hostOps0_3 V (Proc.devRef .tc main_arg3) = V (Proc.devRef .tc main_arg3)
    ∧ StableHlo.after hostOps0_3 V (Proc.devRef .tc main_arg4) = V (Proc.devRef .tc main_arg4)
    ∧ StableHlo.after hostOps0_3 V (Proc.devRef .tc main_arg5) = V (Proc.devRef .tc main_arg5)
    ∧ StableHlo.after hostOps0_3 V (Proc.devRef .tc main_arg6) = V (Proc.devRef .tc main_arg6) := by
  simp only [hostOps0_3]
  refine ⟨?_, ?_, ?_, ?_, ?_, ?_, ?_, ?_⟩ <;> after_results

theorem s4_v19 (V : Valuation τ sig (Elt F)) :
    StableHlo.after hostOps0_4 V (Proc.devRef .tc main_v19) = concatenate S100000x2 1 [⟨S100000x1, broadcastInDim S100000x1 ![0] bcast_S100000_S100000x1_0 (V (Proc.devRef .tc main_v11))⟩, ⟨S100000x1, broadcastInDim S100000x1 ![0] bcast_S100000_S100000x1_0 (V (Proc.devRef .tc main_v16))⟩] concatenates_S100000x1_S100000x1_S100000x2_d1 := by
  simp only [hostOps0_4]; after_results <;> rfl

theorem s4_pass (V : Valuation τ sig (Elt F)) :
    StableHlo.after hostOps0_4 V (Proc.devRef .tc main_arg0) = V (Proc.devRef .tc main_arg0)
    ∧ StableHlo.after hostOps0_4 V (Proc.devRef .tc main_arg1) = V (Proc.devRef .tc main_arg1)
    ∧ StableHlo.after hostOps0_4 V (Proc.devRef .tc main_arg2) = V (Proc.devRef .tc main_arg2)
    ∧ StableHlo.after hostOps0_4 V (Proc.devRef .tc main_arg3) = V (Proc.devRef .tc main_arg3)
    ∧ StableHlo.after hostOps0_4 V (Proc.devRef .tc main_arg4) = V (Proc.devRef .tc main_arg4)
    ∧ StableHlo.after hostOps0_4 V (Proc.devRef .tc main_arg5) = V (Proc.devRef .tc main_arg5)
    ∧ StableHlo.after hostOps0_4 V (Proc.devRef .tc main_arg6) = V (Proc.devRef .tc main_arg6) := by
  simp only [hostOps0_4]
  refine ⟨?_, ?_, ?_, ?_, ?_, ?_, ?_⟩ <;> after_results

theorem h1_v30 (V : Valuation τ sig (Elt F)) :
    StableHlo.after hostOps1 V (Proc.devRef .tc main_v30) = agg128 (V (Proc.devRef .tc main_arg5)) (V (Proc.devRef .tc main_arg6)) (V (Proc.devRef .tc main_v20)) := by
  simp only [hostOps1]; after_results <;> rfl

theorem h1_v31 (V : Valuation τ sig (Elt F)) :
    StableHlo.after hostOps1 V (Proc.devRef .tc main_v31) = shapeCast S1x128 (V (Proc.devRef .tc main_arg2)) shapeCasts_S128_S1x128 := by
  simp only [hostOps1]; after_results <;> rfl

theorem h1_pass (V : Valuation τ sig (Elt F)) :
    StableHlo.after hostOps1 V (Proc.devRef .tc main_v19) = V (Proc.devRef .tc main_v19)
    ∧ StableHlo.after hostOps1 V (Proc.devRef .tc main_arg3) = V (Proc.devRef .tc main_arg3)
    ∧ StableHlo.after hostOps1 V (Proc.devRef .tc main_arg4) = V (Proc.devRef .tc main_arg4)
    ∧ StableHlo.after hostOps1 V (Proc.devRef .tc main_arg5) = V (Proc.devRef .tc main_arg5)
    ∧ StableHlo.after hostOps1 V (Proc.devRef .tc main_arg6) = V (Proc.devRef .tc main_arg6) := by
  simp only [hostOps1]
  refine ⟨?_, ?_, ?_, ?_, ?_⟩ <;> after_results

theorem h2_v42 (V : Valuation τ sig (Elt F)) :
    StableHlo.after hostOps2 V (Proc.devRef .tc main_v42) = agg2 (V (Proc.devRef .tc main_arg5)) (V (Proc.devRef .tc main_arg6)) (V (Proc.devRef .tc main_v32)) := by
  simp only [hostOps2]; after_results <;> rfl

theorem h2_v43 (V : Valuation τ sig (Elt F)) :
    StableHlo.after hostOps2 V (Proc.devRef .tc main_v43) = shapeCast S1x2 (V (Proc.devRef .tc main_arg4)) shapeCasts_S2_S1x2 := by
  simp only [hostOps2]; after_results <;> rfl

theorem h2_pass (V : Valuation τ sig (Elt F)) :
    StableHlo.after hostOps2 V (Proc.devRef .tc main_v19) = V (Proc.devRef .tc main_v19) := by
  simp only [hostOps2]; after_results

/-! ## The boundaries walked back to the launch memory -/

section Walk

variable (m : (ℓ : Loc nD τ sig) → Buf (Elt Ideal) ℓ) (ρ : Dev nD → PrngReg) (c : Dev nD)

theorem W5_arg0 : W5 m ρ c (Proc.devRef .tc main_arg0) = (m ((c.tc : Thread nD τ).loc main_arg0)) :=
  ((s4_pass (W4 m ρ c)).1).trans (((s3_pass (W3 m ρ c)).2.1).trans (((s2_pass (W2 m ρ c)).2.1).trans
    (((s1_pass (W1 m ρ c)).2.1).trans ((s0_pass (W0 m ρ c)).1))))
theorem W5_arg1 : W5 m ρ c (Proc.devRef .tc main_arg1) = (m ((c.tc : Thread nD τ).loc main_arg1)) :=
  ((s4_pass (W4 m ρ c)).2.1).trans (((s3_pass (W3 m ρ c)).2.2.1).trans (((s2_pass (W2 m ρ c)).2.2.1).trans
    (((s1_pass (W1 m ρ c)).2.2.1).trans ((s0_pass (W0 m ρ c)).2.1))))
theorem W5_arg2 : W5 m ρ c (Proc.devRef .tc main_arg2) = (m ((c.tc : Thread nD τ).loc main_arg2)) :=
  ((s4_pass (W4 m ρ c)).2.2.1).trans (((s3_pass (W3 m ρ c)).2.2.2.1).trans (((s2_pass (W2 m ρ c)).2.2.2.1).trans
    (((s1_pass (W1 m ρ c)).2.2.2.1).trans ((s0_pass (W0 m ρ c)).2.2.1))))
theorem W5_arg3 : W5 m ρ c (Proc.devRef .tc main_arg3) = (m ((c.tc : Thread nD τ).loc main_arg3)) :=
  ((s4_pass (W4 m ρ c)).2.2.2.1).trans (((s3_pass (W3 m ρ c)).2.2.2.2.1).trans (((s2_pass (W2 m ρ c)).2.2.2.2.1).trans
    (((s1_pass (W1 m ρ c)).2.2.2.2.1).trans ((s0_pass (W0 m ρ c)).2.2.2.1))))
theorem W5_arg4 : W5 m ρ c (Proc.devRef .tc main_arg4) = (m ((c.tc : Thread nD τ).loc main_arg4)) :=
  ((s4_pass (W4 m ρ c)).2.2.2.2.1).trans (((s3_pass (W3 m ρ c)).2.2.2.2.2.1).trans (((s2_pass (W2 m ρ c)).2.2.2.2.2.1).trans
    (((s1_pass (W1 m ρ c)).2.2.2.2.2.1).trans ((s0_pass (W0 m ρ c)).2.2.2.2.1))))
theorem W5_arg5 : W5 m ρ c (Proc.devRef .tc main_arg5) = (m ((c.tc : Thread nD τ).loc main_arg5)) :=
  ((s4_pass (W4 m ρ c)).2.2.2.2.2.1).trans (((s3_pass (W3 m ρ c)).2.2.2.2.2.2.1).trans (((s2_pass (W2 m ρ c)).2.2.2.2.2.2.1).trans
    (((s1_pass (W1 m ρ c)).2.2.2.2.2.2.1).trans ((s0_pass (W0 m ρ c)).2.2.2.2.2.1))))
theorem W5_arg6 : W5 m ρ c (Proc.devRef .tc main_arg6) = (m ((c.tc : Thread nD τ).loc main_arg6)) :=
  ((s4_pass (W4 m ρ c)).2.2.2.2.2.2).trans (((s3_pass (W3 m ρ c)).2.2.2.2.2.2.2).trans (((s2_pass (W2 m ρ c)).2.2.2.2.2.2.2).trans
    (((s1_pass (W1 m ρ c)).2.2.2.2.2.2.2).trans ((s0_pass (W0 m ρ c)).2.2.2.2.2.2))))

/-- At the first region's entry the packed-scale array holds the two degree scales of the launched index vectors. -/
theorem W5_v19 : W5 m ρ c (Proc.devRef .tc main_v19) = (packed (m ((c.tc : Thread nD τ).loc main_arg5)) (m ((c.tc : Thread nD τ).loc main_arg6))) := by
  have e11 : W4 m ρ c (Proc.devRef .tc main_v11) = scale (col (m ((c.tc : Thread nD τ).loc main_arg5))) := by
    refine ((s3_pass (W3 m ρ c)).1).trans (((s2_pass (W2 m ρ c)).1).trans ((s1_v11 (W1 m ρ c)).trans ?_))
    rw [show W1 m ρ c (Proc.devRef .tc main_v8) = _ from s0_v8 (W0 m ρ c), show W1 m ρ c (Proc.devRef .tc main_v10) = _ from s0_v10 (W0 m ρ c),
      show W1 m ρ c (Proc.devRef .tc main_cst_4) = _ from s0_cst4 (W0 m ρ c)]
    rfl
  have e6 : W2 m ρ c (Proc.devRef .tc main_v6) = deg (col (m ((c.tc : Thread nD τ).loc main_arg6))) := ((s1_pass (W1 m ρ c)).1).trans (s0_v6 (W0 m ρ c))
  have e16 : W4 m ρ c (Proc.devRef .tc main_v16) = scale (col (m ((c.tc : Thread nD τ).loc main_arg6))) := by
    refine (s3_v16 (W3 m ρ c)).trans ?_
    rw [show W3 m ρ c (Proc.devRef .tc main_v13) = _ from s2_v13 (W2 m ρ c), show W3 m ρ c (Proc.devRef .tc main_v15) = _ from s2_v15 (W2 m ρ c),
      show W3 m ρ c (Proc.devRef .tc main_cst_7) = _ from s2_cst7 (W2 m ρ c), e6]
    rfl
  refine (s4_v19 (W4 m ρ c)).trans ?_
  rw [e11, e16]
  rfl

/-- The first region leaves its output array at the first dense pass of the launched features, scales and weights. -/
theorem W6_v20 : W6 m ρ c (Proc.devRef .tc main_v20) = (Cert.Gcn.arr0 (m ((c.tc : Thread nD τ).loc main_arg0)) (packed (m ((c.tc : Thread nD τ).loc main_arg5)) (m ((c.tc : Thread nD τ).loc main_arg6))) (m ((c.tc : Thread nD τ).loc main_arg1))) := by
  refine (W6_arr m ρ c 3).trans ((Cert.KernelIdeal.Region0.final0 (V5 m ρ) c).trans ?_)
  show Cert.Gcn.arr0 (W5 m ρ c (Proc.devRef .tc main_arg0)) (W5 m ρ c (Proc.devRef .tc main_v19)) (W5 m ρ c (Proc.devRef .tc main_arg1)) = _
  rw [W5_arg0, W5_v19, W5_arg1]

theorem W6_v19 : W6 m ρ c (Proc.devRef .tc main_v19) = (packed (m ((c.tc : Thread nD τ).loc main_arg5)) (m ((c.tc : Thread nD τ).loc main_arg6))) :=
  ((W6_arr m ρ c 1).trans (((dat0 (V5 m ρ) c).arrAt_in 1 rfl _).trans (A_eq0 (V5 m ρ) c 1))).trans (W5_v19 m ρ c)
theorem W6_arg2 : W6 m ρ c (Proc.devRef .tc main_arg2) = (m ((c.tc : Thread nD τ).loc main_arg2)) :=
  (W6_of_ne m ρ c main_arg2 (by decide)).trans (W5_arg2 m ρ c)
theorem W6_arg3 : W6 m ρ c (Proc.devRef .tc main_arg3) = (m ((c.tc : Thread nD τ).loc main_arg3)) :=
  (W6_of_ne m ρ c main_arg3 (by decide)).trans (W5_arg3 m ρ c)
theorem W6_arg4 : W6 m ρ c (Proc.devRef .tc main_arg4) = (m ((c.tc : Thread nD τ).loc main_arg4)) :=
  (W6_of_ne m ρ c main_arg4 (by decide)).trans (W5_arg4 m ρ c)
theorem W6_arg5 : W6 m ρ c (Proc.devRef .tc main_arg5) = (m ((c.tc : Thread nD τ).loc main_arg5)) :=
  (W6_of_ne m ρ c main_arg5 (by decide)).trans (W5_arg5 m ρ c)
theorem W6_arg6 : W6 m ρ c (Proc.devRef .tc main_arg6) = (m ((c.tc : Thread nD τ).loc main_arg6)) :=
  (W6_of_ne m ρ c main_arg6 (by decide)).trans (W5_arg6 m ρ c)

theorem W7_v30 : W7 m ρ c (Proc.devRef .tc main_v30) = agg128 (m ((c.tc : Thread nD τ).loc main_arg5)) (m ((c.tc : Thread nD τ).loc main_arg6)) (Cert.Gcn.arr0 (m ((c.tc : Thread nD τ).loc main_arg0)) (packed (m ((c.tc : Thread nD τ).loc main_arg5)) (m ((c.tc : Thread nD τ).loc main_arg6))) (m ((c.tc : Thread nD τ).loc main_arg1))) := by
  refine (h1_v30 (W6 m ρ c)).trans ?_
  rw [W6_arg5, W6_arg6, W6_v20]

theorem W7_v31 : W7 m ρ c (Proc.devRef .tc main_v31) = (shapeCast S1x128 (m ((c.tc : Thread nD τ).loc main_arg2)) shapeCasts_S128_S1x128) := by
  refine (h1_v31 (W6 m ρ c)).trans ?_
  rw [W6_arg2]

theorem W7_v19 : W7 m ρ c (Proc.devRef .tc main_v19) = (packed (m ((c.tc : Thread nD τ).loc main_arg5)) (m ((c.tc : Thread nD τ).loc main_arg6))) := ((h1_pass (W6 m ρ c)).1).trans (W6_v19 m ρ c)
theorem W7_arg3 : W7 m ρ c (Proc.devRef .tc main_arg3) = (m ((c.tc : Thread nD τ).loc main_arg3)) := ((h1_pass (W6 m ρ c)).2.1).trans (W6_arg3 m ρ c)
theorem W7_arg4 : W7 m ρ c (Proc.devRef .tc main_arg4) = (m ((c.tc : Thread nD τ).loc main_arg4)) := ((h1_pass (W6 m ρ c)).2.2.1).trans (W6_arg4 m ρ c)
theorem W7_arg5 : W7 m ρ c (Proc.devRef .tc main_arg5) = (m ((c.tc : Thread nD τ).loc main_arg5)) := ((h1_pass (W6 m ρ c)).2.2.2.1).trans (W6_arg5 m ρ c)
theorem W7_arg6 : W7 m ρ c (Proc.devRef .tc main_arg6) = (m ((c.tc : Thread nD τ).loc main_arg6)) := ((h1_pass (W6 m ρ c)).2.2.2.2).trans (W6_arg6 m ρ c)

/-- The second region leaves its output array at the second dense pass of the first aggregate. -/
theorem W8_v32 : W8 m ρ c (Proc.devRef .tc main_v32) = (Cert.Gcn.arr1 (agg128 (m ((c.tc : Thread nD τ).loc main_arg5)) (m ((c.tc : Thread nD τ).loc main_arg6)) (Cert.Gcn.arr0 (m ((c.tc : Thread nD τ).loc main_arg0)) (packed (m ((c.tc : Thread nD τ).loc main_arg5)) (m ((c.tc : Thread nD τ).loc main_arg6))) (m ((c.tc : Thread nD τ).loc main_arg1)))) (packed (m ((c.tc : Thread nD τ).loc main_arg5)) (m ((c.tc : Thread nD τ).loc main_arg6))) (shapeCast S1x128 (m ((c.tc : Thread nD τ).loc main_arg2)) shapeCasts_S128_S1x128) (m ((c.tc : Thread nD τ).loc main_arg3))) := by
  refine (W8_arr m ρ c 4).trans ((Cert.KernelIdeal.Region1.final1 (V7 m ρ) c).trans ?_)
  show Cert.Gcn.arr1 (W7 m ρ c (Proc.devRef .tc main_v30)) (W7 m ρ c (Proc.devRef .tc main_v19)) (W7 m ρ c (Proc.devRef .tc main_v31)) (W7 m ρ c (Proc.devRef .tc main_arg3)) = _
  rw [W7_v30, W7_v19, W7_v31, W7_arg3]

theorem W8_v19 : W8 m ρ c (Proc.devRef .tc main_v19) = (packed (m ((c.tc : Thread nD τ).loc main_arg5)) (m ((c.tc : Thread nD τ).loc main_arg6))) :=
  ((W8_arr m ρ c 1).trans (((dat1 (V7 m ρ) c).arrAt_in 1 rfl _).trans (A_eq1 (V7 m ρ) c 1))).trans (W7_v19 m ρ c)
theorem W8_arg4 : W8 m ρ c (Proc.devRef .tc main_arg4) = (m ((c.tc : Thread nD τ).loc main_arg4)) :=
  (W8_of_ne m ρ c main_arg4 (by decide)).trans (W7_arg4 m ρ c)
theorem W8_arg5 : W8 m ρ c (Proc.devRef .tc main_arg5) = (m ((c.tc : Thread nD τ).loc main_arg5)) :=
  (W8_of_ne m ρ c main_arg5 (by decide)).trans (W7_arg5 m ρ c)
theorem W8_arg6 : W8 m ρ c (Proc.devRef .tc main_arg6) = (m ((c.tc : Thread nD τ).loc main_arg6)) :=
  (W8_of_ne m ρ c main_arg6 (by decide)).trans (W7_arg6 m ρ c)

theorem W9_v42 : W9 m ρ c (Proc.devRef .tc main_v42) = agg2 (m ((c.tc : Thread nD τ).loc main_arg5)) (m ((c.tc : Thread nD τ).loc main_arg6)) (Cert.Gcn.arr1 (agg128 (m ((c.tc : Thread nD τ).loc main_arg5)) (m ((c.tc : Thread nD τ).loc main_arg6)) (Cert.Gcn.arr0 (m ((c.tc : Thread nD τ).loc main_arg0)) (packed (m ((c.tc : Thread nD τ).loc main_arg5)) (m ((c.tc : Thread nD τ).loc main_arg6))) (m ((c.tc : Thread nD τ).loc main_arg1)))) (packed (m ((c.tc : Thread nD τ).loc main_arg5)) (m ((c.tc : Thread nD τ).loc main_arg6))) (shapeCast S1x128 (m ((c.tc : Thread nD τ).loc main_arg2)) shapeCasts_S128_S1x128) (m ((c.tc : Thread nD τ).loc main_arg3))) := by
  refine (h2_v42 (W8 m ρ c)).trans ?_
  rw [W8_arg5, W8_arg6, W8_v32]

theorem W9_v43 : W9 m ρ c (Proc.devRef .tc main_v43) = (shapeCast S1x2 (m ((c.tc : Thread nD τ).loc main_arg4)) shapeCasts_S2_S1x2) := by
  refine (h2_v43 (W8 m ρ c)).trans ?_
  rw [W8_arg4]

theorem W9_v19 : W9 m ρ c (Proc.devRef .tc main_v19) = (packed (m ((c.tc : Thread nD τ).loc main_arg5)) (m ((c.tc : Thread nD τ).loc main_arg6))) := (h2_pass (W8 m ρ c)).trans (W8_v19 m ρ c)

/-- THE KERNEL'S VALUE: after the last region the result array is the third dense pass of the second aggregate, that is,
    the composition of the three dense passes and the two aggregations over the launched argument arrays. -/
theorem kernel_value : W10 m ρ c (Proc.devRef .tc main_v44) = composed (m ((c.tc : Thread nD τ).loc main_arg5)) (m ((c.tc : Thread nD τ).loc main_arg6)) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) := by
  unfold composed
  refine (W10_arr m ρ c 3).trans ((Cert.KernelIdeal.Region2.final2 (V9 m ρ) c).trans ?_)
  show Cert.Gcn.arr2 (W9 m ρ c (Proc.devRef .tc main_v42)) (W9 m ρ c (Proc.devRef .tc main_v19)) (W9 m ρ c (Proc.devRef .tc main_v43)) = _
  rw [W9_v42, W9_v19, W9_v43]

end Walk

end Cert.KernelIdeal.Chain

end
-- ==== Proof.RefRun.lean ====
/-
  The reference program run to its end, and what it leaves in its result.

  The reference is a straight line of host operations: two degree counts (a scatter-add of ones by the source and by the
  destination words), their inverse square roots where the count is positive and zero elsewhere, and two graph
  convolutions, each a row gather by the wrapped source words followed by a row scatter-add by the destination words, with
  a dense product, a scale, a bias and (for the first) a relu around it. `ops` lists the operations in program order;
  `run` says that every weakly fair execution terminates with the result array at the operations' composed term of the
  argument arrays (`res_main_v55`) and the arguments unchanged. `res_eq` then names the stages of that term: the degree
  scale `scale`, the index columns `col` and `wrap`, and the two aggregations `agg128` and `agg2`.
-/
import proofs.«127194_j20126216749771_2_alg».proof.Proof.Gen.ReferenceIdeal
import Idealize.ShloMosaic.Lib.StableHlo.Run

noncomputable section

namespace Cert.Gcn.RefRun

open Cert.ReferenceIdeal Cert.ReferenceIdeal.Gen Idealize.ShloMosaic Idealize.ShloMosaic.TcCoe Idealize.SL.Sem Idealize.ShloMosaic.StableHlo

variable {F : FTy → Type} [FloatOps F]

/-- The program's 77 operations, in order (a called function's operations stand in its call's place). -/
abbrev ops : List (HloOp τ sig (Elt F)) :=
  [ nullary main_cst (constant S_ .f32 0x3F800000#32),
    unary main_cst main_v0 (broadcastInDim S1600000 ![] bcast_S_S1600000 : (⟨S_, .f32⟩ : BufTy).Contents (Elt F) → (⟨S1600000, .f32⟩ : BufTy).Contents (Elt F)),
    nullary main_cst_0 (constant S_ .f32 0x00000000#32),
    unary main_cst_0 main_v1 (broadcastInDim S100000 ![] bcast_S_S100000 : (⟨S_, .f32⟩ : BufTy).Contents (Elt F) → (⟨S100000, .f32⟩ : BufTy).Contents (Elt F)),
    unary main_arg5 main_v2 (broadcastInDim S1600000x1 ![0] bcast_S1600000_S1600000x1_0 : (⟨S1600000, .i32⟩ : BufTy).Contents (Elt F) → (⟨S1600000x1, .i32⟩ : BufTy).Contents (Elt F)),
    ternary main_v1 main_v2 main_v0 main_v3 ((fun x i u => Host.scatterAdd scatter_S100000_S1600000x1_S1600000_n_0_0_1 x i u) : (⟨S100000, .f32⟩ : BufTy).Contents (Elt F) → (⟨S1600000x1, .i32⟩ : BufTy).Contents (Elt F) → (⟨S1600000, .f32⟩ : BufTy).Contents (Elt F) → (⟨S100000, .f32⟩ : BufTy).Contents (Elt F)),
    nullary main_cst_1 (constant S_ .f32 0x00000000#32),
    unary main_cst_1 main_v4 (broadcastInDim S100000 ![] bcast_S_S100000 : (⟨S_, .f32⟩ : BufTy).Contents (Elt F) → (⟨S100000, .f32⟩ : BufTy).Contents (Elt F)),
    unary main_arg6 main_v5 (broadcastInDim S1600000x1 ![0] bcast_S1600000_S1600000x1_0 : (⟨S1600000, .i32⟩ : BufTy).Contents (Elt F) → (⟨S1600000x1, .i32⟩ : BufTy).Contents (Elt F)),
    ternary main_v4 main_v5 main_v0 main_v6 ((fun x i u => Host.scatterAdd scatter_S100000_S1600000x1_S1600000_n_0_0_1 x i u) : (⟨S100000, .f32⟩ : BufTy).Contents (Elt F) → (⟨S1600000x1, .i32⟩ : BufTy).Contents (Elt F) → (⟨S1600000, .f32⟩ : BufTy).Contents (Elt F) → (⟨S100000, .f32⟩ : BufTy).Contents (Elt F)),
    nullary main_cst_2 (constant S_ .f32 0x00000000#32),
    unary main_cst_2 main_v7 (broadcastInDim S100000 ![] bcast_S_S100000 : (⟨S_, .f32⟩ : BufTy).Contents (Elt F) → (⟨S100000, .f32⟩ : BufTy).Contents (Elt F)),
    binary main_v3 main_v7 main_v8 (cmpf .ogt : (⟨S100000, .f32⟩ : BufTy).Contents (Elt F) → (⟨S100000, .f32⟩ : BufTy).Contents (Elt F) → (⟨S100000, .i1⟩ : BufTy).Contents (Elt F)),
    nullary main_cst_3 (constant S_ .f32 0xBF000000#32),
    unary main_cst_3 main_v9 (broadcastInDim S100000 ![] bcast_S_S100000 : (⟨S_, .f32⟩ : BufTy).Contents (Elt F) → (⟨S100000, .f32⟩ : BufTy).Contents (Elt F)),
    binary main_v3 main_v9 main_v10 (Host.powf : (⟨S100000, .f32⟩ : BufTy).Contents (Elt F) → (⟨S100000, .f32⟩ : BufTy).Contents (Elt F) → (⟨S100000, .f32⟩ : BufTy).Contents (Elt F)),
    nullary main_cst_4 (constant S_ .f32 0x00000000#32),
    TRef.unary (TRef.of (T := ⟨S_, .f32⟩) main_cst_4) (TRef.of (T := ⟨S_, .f32⟩) main_call0_v0) id,
    TRef.unary (TRef.of (T := ⟨S_, .f32⟩) main_call0_v0) (TRef.of (T := ⟨S100000, .f32⟩) main_call0_v1) (broadcastInDim S100000 ![] bcast_S_S100000),
    TRef.ternary (TRef.of (T := ⟨S100000, .i1⟩) main_v8) (TRef.of (T := ⟨S100000, .f32⟩) main_v10) (TRef.of (T := ⟨S100000, .f32⟩) main_call0_v1) (TRef.of (T := ⟨S100000, .f32⟩) main_v11) select,
    unary main_v11 main_v12 (broadcastInDim S100000x1 ![0] bcast_S100000_S100000x1_0 : (⟨S100000, .f32⟩ : BufTy).Contents (Elt F) → (⟨S100000x1, .f32⟩ : BufTy).Contents (Elt F)),
    nullary main_cst_5 (constant S_ .f32 0x00000000#32),
    unary main_cst_5 main_v13 (broadcastInDim S100000 ![] bcast_S_S100000 : (⟨S_, .f32⟩ : BufTy).Contents (Elt F) → (⟨S100000, .f32⟩ : BufTy).Contents (Elt F)),
    binary main_v6 main_v13 main_v14 (cmpf .ogt : (⟨S100000, .f32⟩ : BufTy).Contents (Elt F) → (⟨S100000, .f32⟩ : BufTy).Contents (Elt F) → (⟨S100000, .i1⟩ : BufTy).Contents (Elt F)),
    nullary main_cst_6 (constant S_ .f32 0xBF000000#32),
    unary main_cst_6 main_v15 (broadcastInDim S100000 ![] bcast_S_S100000 : (⟨S_, .f32⟩ : BufTy).Contents (Elt F) → (⟨S100000, .f32⟩ : BufTy).Contents (Elt F)),
    binary main_v6 main_v15 main_v16 (Host.powf : (⟨S100000, .f32⟩ : BufTy).Contents (Elt F) → (⟨S100000, .f32⟩ : BufTy).Contents (Elt F) → (⟨S100000, .f32⟩ : BufTy).Contents (Elt F)),
    nullary main_cst_7 (constant S_ .f32 0x00000000#32),
    TRef.unary (TRef.of (T := ⟨S_, .f32⟩) main_cst_7) (TRef.of (T := ⟨S_, .f32⟩) main_call1_v0) id,
    TRef.unary (TRef.of (T := ⟨S_, .f32⟩) main_call1_v0) (TRef.of (T := ⟨S100000, .f32⟩) main_call1_v1) (broadcastInDim S100000 ![] bcast_S_S100000),
    TRef.ternary (TRef.of (T := ⟨S100000, .i1⟩) main_v14) (TRef.of (T := ⟨S100000, .f32⟩) main_v16) (TRef.of (T := ⟨S100000, .f32⟩) main_call1_v1) (TRef.of (T := ⟨S100000, .f32⟩) main_v17) select,
    unary main_v17 main_v18 (broadcastInDim S100000x1 ![0] bcast_S100000_S100000x1_0 : (⟨S100000, .f32⟩ : BufTy).Contents (Elt F) → (⟨S100000x1, .f32⟩ : BufTy).Contents (Elt F)),
    unary main_v12 main_v19 (broadcastInDim S100000x128 ![0, 1] bcast_S100000x1_S100000x128_0_1 : (⟨S100000x1, .f32⟩ : BufTy).Contents (Elt F) → (⟨S100000x128, .f32⟩ : BufTy).Contents (Elt F)),
    binary main_arg0 main_v19 main_v20 (mulf : (⟨S100000x128, .f32⟩ : BufTy).Contents (Elt F) → (⟨S100000x128, .f32⟩ : BufTy).Contents (Elt F) → (⟨S100000x128, .f32⟩ : BufTy).Contents (Elt F)),
    nullary main_c (constantI S_ 32 0#32),
    unary main_c main_v21 (broadcastInDim S1600000 ![] bcast_S_S1600000 : (⟨S_, .i32⟩ : BufTy).Contents (Elt F) → (⟨S1600000, .i32⟩ : BufTy).Contents (Elt F)),
    binary main_arg5 main_v21 main_v22 (cmpi .slt : (⟨S1600000, .i32⟩ : BufTy).Contents (Elt F) → (⟨S1600000, .i32⟩ : BufTy).Contents (Elt F) → (⟨S1600000, .i1⟩ : BufTy).Contents (Elt F)),
    nullary main_c_8 (constantI S_ 32 100000#32),
    unary main_c_8 main_v23 (broadcastInDim S1600000 ![] bcast_S_S1600000 : (⟨S_, .i32⟩ : BufTy).Contents (Elt F) → (⟨S1600000, .i32⟩ : BufTy).Contents (Elt F)),
    binary main_arg5 main_v23 main_v24 (addi : (⟨S1600000, .i32⟩ : BufTy).Contents (Elt F) → (⟨S1600000, .i32⟩ : BufTy).Contents (Elt F) → (⟨S1600000, .i32⟩ : BufTy).Contents (Elt F)),
    ternary main_v22 main_v24 main_arg5 main_v25 (select : (⟨S1600000, .i1⟩ : BufTy).Contents (Elt F) → (⟨S1600000, .i32⟩ : BufTy).Contents (Elt F) → (⟨S1600000, .i32⟩ : BufTy).Contents (Elt F) → (⟨S1600000, .i32⟩ : BufTy).Contents (Elt F)),
    unary main_v25 main_v26 (broadcastInDim S1600000x1 ![0] bcast_S1600000_S1600000x1_0 : (⟨S1600000, .i32⟩ : BufTy).Contents (Elt F) → (⟨S1600000x1, .i32⟩ : BufTy).Contents (Elt F)),
    binary main_v20 main_v26 main_v27 ((fun x i => Host.gather gather_S100000x128_S1600000x1_S1600000x128_1_0_n_n_0_1_1128 x i) : (⟨S100000x128, .f32⟩ : BufTy).Contents (Elt F) → (⟨S1600000x1, .i32⟩ : BufTy).Contents (Elt F) → (⟨S1600000x128, .f32⟩ : BufTy).Contents (Elt F)),
    nullary main_cst_9 (constant S_ .f32 0x00000000#32),
    unary main_cst_9 main_v28 (broadcastInDim S100000x128 ![] bcast_S_S100000x128 : (⟨S_, .f32⟩ : BufTy).Contents (Elt F) → (⟨S100000x128, .f32⟩ : BufTy).Contents (Elt F)),
    unary main_arg6 main_v29 (broadcastInDim S1600000x1 ![0] bcast_S1600000_S1600000x1_0 : (⟨S1600000, .i32⟩ : BufTy).Contents (Elt F) → (⟨S1600000x1, .i32⟩ : BufTy).Contents (Elt F)),
    ternary main_v28 main_v29 main_v27 main_v30 ((fun x i u => Host.scatterAdd scatter_S100000x128_S1600000x1_S1600000x128_1_0_0_1 x i u) : (⟨S100000x128, .f32⟩ : BufTy).Contents (Elt F) → (⟨S1600000x1, .i32⟩ : BufTy).Contents (Elt F) → (⟨S1600000x128, .f32⟩ : BufTy).Contents (Elt F) → (⟨S100000x128, .f32⟩ : BufTy).Contents (Elt F)),
    binary main_v30 main_arg1 main_v31 ((fun l r => Host.dotGeneral dot_S100000x128_S128x128_S100000x128_1_0_0_1_n_n none l r) : (⟨S100000x128, .f32⟩ : BufTy).Contents (Elt F) → (⟨S128x128, .f32⟩ : BufTy).Contents (Elt F) → (⟨S100000x128, .f32⟩ : BufTy).Contents (Elt F)),
    unary main_v18 main_v32 (broadcastInDim S100000x128 ![0, 1] bcast_S100000x1_S100000x128_0_1 : (⟨S100000x1, .f32⟩ : BufTy).Contents (Elt F) → (⟨S100000x128, .f32⟩ : BufTy).Contents (Elt F)),
    binary main_v31 main_v32 main_v33 (mulf : (⟨S100000x128, .f32⟩ : BufTy).Contents (Elt F) → (⟨S100000x128, .f32⟩ : BufTy).Contents (Elt F) → (⟨S100000x128, .f32⟩ : BufTy).Contents (Elt F)),
    unary main_arg2 main_v34 (broadcastInDim S1x128 ![1] bcast_S128_S1x128_1 : (⟨S128, .f32⟩ : BufTy).Contents (Elt F) → (⟨S1x128, .f32⟩ : BufTy).Contents (Elt F)),
    unary main_v34 main_v35 (broadcastInDim S100000x128 ![0, 1] bcast_S1x128_S100000x128_0_1 : (⟨S1x128, .f32⟩ : BufTy).Contents (Elt F) → (⟨S100000x128, .f32⟩ : BufTy).Contents (Elt F)),
    binary main_v33 main_v35 main_v36 (addf : (⟨S100000x128, .f32⟩ : BufTy).Contents (Elt F) → (⟨S100000x128, .f32⟩ : BufTy).Contents (Elt F) → (⟨S100000x128, .f32⟩ : BufTy).Contents (Elt F)),
    TRef.nullary (TRef.of (T := ⟨S_, .f32⟩) main_call2_cst) (constant S_ .f32 0x00000000#32),
    TRef.unary (TRef.of (T := ⟨S_, .f32⟩) main_call2_cst) (TRef.of (T := ⟨S100000x128, .f32⟩) main_call2_v0) (broadcastInDim S100000x128 ![] bcast_S_S100000x128),
    TRef.binary (TRef.of (T := ⟨S100000x128, .f32⟩) main_v36) (TRef.of (T := ⟨S100000x128, .f32⟩) main_call2_v0) (TRef.of (T := ⟨S100000x128, .f32⟩) main_v37) maximumf,
    unary main_v12 main_v38 (broadcastInDim S100000x128 ![0, 1] bcast_S100000x1_S100000x128_0_1 : (⟨S100000x1, .f32⟩ : BufTy).Contents (Elt F) → (⟨S100000x128, .f32⟩ : BufTy).Contents (Elt F)),
    binary main_v37 main_v38 main_v39 (mulf : (⟨S100000x128, .f32⟩ : BufTy).Contents (Elt F) → (⟨S100000x128, .f32⟩ : BufTy).Contents (Elt F) → (⟨S100000x128, .f32⟩ : BufTy).Contents (Elt F)),
    binary main_v39 main_arg3 main_v40 ((fun l r => Host.dotGeneral dot_S100000x128_S128x2_S100000x2_1_0_0_1_n_n none l r) : (⟨S100000x128, .f32⟩ : BufTy).Contents (Elt F) → (⟨S128x2, .f32⟩ : BufTy).Contents (Elt F) → (⟨S100000x2, .f32⟩ : BufTy).Contents (Elt F)),
    nullary main_c_10 (constantI S_ 32 0#32),
    unary main_c_10 main_v41 (broadcastInDim S1600000 ![] bcast_S_S1600000 : (⟨S_, .i32⟩ : BufTy).Contents (Elt F) → (⟨S1600000, .i32⟩ : BufTy).Contents (Elt F)),
    binary main_arg5 main_v41 main_v42 (cmpi .slt : (⟨S1600000, .i32⟩ : BufTy).Contents (Elt F) → (⟨S1600000, .i32⟩ : BufTy).Contents (Elt F) → (⟨S1600000, .i1⟩ : BufTy).Contents (Elt F)),
    nullary main_c_11 (constantI S_ 32 100000#32),
    unary main_c_11 main_v43 (broadcastInDim S1600000 ![] bcast_S_S1600000 : (⟨S_, .i32⟩ : BufTy).Contents (Elt F) → (⟨S1600000, .i32⟩ : BufTy).Contents (Elt F)),
    binary main_arg5 main_v43 main_v44 (addi : (⟨S1600000, .i32⟩ : BufTy).Contents (Elt F) → (⟨S1600000, .i32⟩ : BufTy).Contents (Elt F) → (⟨S1600000, .i32⟩ : BufTy).Contents (Elt F)),
    ternary main_v42 main_v44 main_arg5 main_v45 (select : (⟨S1600000, .i1⟩ : BufTy).Contents (Elt F) → (⟨S1600000, .i32⟩ : BufTy).Contents (Elt F) → (⟨S1600000, .i32⟩ : BufTy).Contents (Elt F) → (⟨S1600000, .i32⟩ : BufTy).Contents (Elt F)),
    unary main_v45 main_v46 (broadcastInDim S1600000x1 ![0] bcast_S1600000_S1600000x1_0 : (⟨S1600000, .i32⟩ : BufTy).Contents (Elt F) → (⟨S1600000x1, .i32⟩ : BufTy).Contents (Elt F)),
    binary main_v40 main_v46 main_v47 ((fun x i => Host.gather gather_S100000x2_S1600000x1_S1600000x2_1_0_n_n_0_1_12 x i) : (⟨S100000x2, .f32⟩ : BufTy).Contents (Elt F) → (⟨S1600000x1, .i32⟩ : BufTy).Contents (Elt F) → (⟨S1600000x2, .f32⟩ : BufTy).Contents (Elt F)),
    nullary main_cst_12 (constant S_ .f32 0x00000000#32),
    unary main_cst_12 main_v48 (broadcastInDim S100000x2 ![] bcast_S_S100000x2 : (⟨S_, .f32⟩ : BufTy).Contents (Elt F) → (⟨S100000x2, .f32⟩ : BufTy).Contents (Elt F)),
    unary main_arg6 main_v49 (broadcastInDim S1600000x1 ![0] bcast_S1600000_S1600000x1_0 : (⟨S1600000, .i32⟩ : BufTy).Contents (Elt F) → (⟨S1600000x1, .i32⟩ : BufTy).Contents (Elt F)),
    ternary main_v48 main_v49 main_v47 main_v50 ((fun x i u => Host.scatterAdd scatter_S100000x2_S1600000x1_S1600000x2_1_0_0_1 x i u) : (⟨S100000x2, .f32⟩ : BufTy).Contents (Elt F) → (⟨S1600000x1, .i32⟩ : BufTy).Contents (Elt F) → (⟨S1600000x2, .f32⟩ : BufTy).Contents (Elt F) → (⟨S100000x2, .f32⟩ : BufTy).Contents (Elt F)),
    unary main_v18 main_v51 (broadcastInDim S100000x2 ![0, 1] bcast_S100000x1_S100000x2_0_1 : (⟨S100000x1, .f32⟩ : BufTy).Contents (Elt F) → (⟨S100000x2, .f32⟩ : BufTy).Contents (Elt F)),
    binary main_v50 main_v51 main_v52 (mulf : (⟨S100000x2, .f32⟩ : BufTy).Contents (Elt F) → (⟨S100000x2, .f32⟩ : BufTy).Contents (Elt F) → (⟨S100000x2, .f32⟩ : BufTy).Contents (Elt F)),
    unary main_arg4 main_v53 (broadcastInDim S1x2 ![1] bcast_S2_S1x2_1 : (⟨S2, .f32⟩ : BufTy).Contents (Elt F) → (⟨S1x2, .f32⟩ : BufTy).Contents (Elt F)),
    unary main_v53 main_v54 (broadcastInDim S100000x2 ![0, 1] bcast_S1x2_S100000x2_0_1 : (⟨S1x2, .f32⟩ : BufTy).Contents (Elt F) → (⟨S100000x2, .f32⟩ : BufTy).Contents (Elt F)),
    binary main_v52 main_v54 main_v55 (addf : (⟨S100000x2, .f32⟩ : BufTy).Contents (Elt F) → (⟨S100000x2, .f32⟩ : BufTy).Contents (Elt F) → (⟨S100000x2, .f32⟩ : BufTy).Contents (Elt F)) ]

set_option maxRecDepth 8192 in
set_option maxHeartbeats 4000000 in
theorem main_eq (c : Dev nD) : main (F := F) c = seq ops := rfl
theorem scopedRefs_eq : (Finset.univ.filter fun b : Ref sig .tc => b.isScoped) = ∅ := by decide
theorem scopedSems_eq : (Finset.univ.filter fun sm : SemLoc sig => sm.isScoped .tc) = ∅ := by decide
set_option maxRecDepth 8192 in
theorem ops_sub : (ops : List (HloOp τ sig (Elt F))).Forall fun op => op.bufs ⊆ tcRefs τ sig :=
  ⟨nullary_bufs_sub .., unary_bufs_sub .., nullary_bufs_sub .., unary_bufs_sub .., unary_bufs_sub .., ternary_bufs_sub .., nullary_bufs_sub .., unary_bufs_sub .., unary_bufs_sub .., ternary_bufs_sub .., nullary_bufs_sub .., unary_bufs_sub .., binary_bufs_sub .., nullary_bufs_sub .., unary_bufs_sub .., binary_bufs_sub .., nullary_bufs_sub .., unary_bufs_sub .., unary_bufs_sub .., ternary_bufs_sub .., unary_bufs_sub .., nullary_bufs_sub .., unary_bufs_sub .., binary_bufs_sub .., nullary_bufs_sub .., unary_bufs_sub .., binary_bufs_sub .., nullary_bufs_sub .., unary_bufs_sub .., unary_bufs_sub .., ternary_bufs_sub .., unary_bufs_sub .., unary_bufs_sub .., binary_bufs_sub .., nullary_bufs_sub .., unary_bufs_sub .., binary_bufs_sub .., nullary_bufs_sub .., unary_bufs_sub .., binary_bufs_sub .., ternary_bufs_sub .., unary_bufs_sub .., binary_bufs_sub .., nullary_bufs_sub .., unary_bufs_sub .., unary_bufs_sub .., ternary_bufs_sub .., binary_bufs_sub .., unary_bufs_sub .., binary_bufs_sub .., unary_bufs_sub .., unary_bufs_sub .., binary_bufs_sub .., nullary_bufs_sub .., unary_bufs_sub .., binary_bufs_sub .., unary_bufs_sub .., binary_bufs_sub .., binary_bufs_sub .., nullary_bufs_sub .., unary_bufs_sub .., binary_bufs_sub .., nullary_bufs_sub .., unary_bufs_sub .., binary_bufs_sub .., ternary_bufs_sub .., unary_bufs_sub .., binary_bufs_sub .., nullary_bufs_sub .., unary_bufs_sub .., unary_bufs_sub .., ternary_bufs_sub .., unary_bufs_sub .., binary_bufs_sub .., unary_bufs_sub .., unary_bufs_sub .., binary_bufs_sub ..⟩

set_option maxRecDepth 8192 in
/-- The result array as the composed term of the argument arrays. -/
def res_main_v55 (m : (ℓ : Loc nD τ sig) → Buf (Elt F) ℓ) (c : Dev nD) : Buf (Elt F) ((c.tc : Thread nD τ).loc main_v55) :=
  addf (mulf (Host.scatterAdd scatter_S100000x2_S1600000x1_S1600000x2_1_0_0_1 (broadcastInDim S100000x2 ![] bcast_S_S100000x2 (constant S_ .f32 0x00000000#32)) (broadcastInDim S1600000x1 ![0] bcast_S1600000_S1600000x1_0 (m ((c.tc : Thread nD τ).loc main_arg6))) (Host.gather gather_S100000x2_S1600000x1_S1600000x2_1_0_n_n_0_1_12 (Host.dotGeneral dot_S100000x128_S128x2_S100000x2_1_0_0_1_n_n none (mulf (maximumf (addf (mulf (Host.dotGeneral dot_S100000x128_S128x128_S100000x128_1_0_0_1_n_n none (Host.scatterAdd scatter_S100000x128_S1600000x1_S1600000x128_1_0_0_1 (broadcastInDim S100000x128 ![] bcast_S_S100000x128 (constant S_ .f32 0x00000000#32)) (broadcastInDim S1600000x1 ![0] bcast_S1600000_S1600000x1_0 (m ((c.tc : Thread nD τ).loc main_arg6))) (Host.gather gather_S100000x128_S1600000x1_S1600000x128_1_0_n_n_0_1_1128 (mulf (m ((c.tc : Thread nD τ).loc main_arg0)) (broadcastInDim S100000x128 ![0, 1] bcast_S100000x1_S100000x128_0_1 (broadcastInDim S100000x1 ![0] bcast_S100000_S100000x1_0 (select (cmpf (F := F) .ogt (Host.scatterAdd scatter_S100000_S1600000x1_S1600000_n_0_0_1 (broadcastInDim S100000 ![] bcast_S_S100000 (constant S_ .f32 0x00000000#32)) (broadcastInDim S1600000x1 ![0] bcast_S1600000_S1600000x1_0 (m ((c.tc : Thread nD τ).loc main_arg5))) (broadcastInDim S1600000 ![] bcast_S_S1600000 (constant S_ .f32 0x3F800000#32))) (broadcastInDim S100000 ![] bcast_S_S100000 (constant S_ .f32 0x00000000#32))) (Host.powf (Host.scatterAdd scatter_S100000_S1600000x1_S1600000_n_0_0_1 (broadcastInDim S100000 ![] bcast_S_S100000 (constant S_ .f32 0x00000000#32)) (broadcastInDim S1600000x1 ![0] bcast_S1600000_S1600000x1_0 (m ((c.tc : Thread nD τ).loc main_arg5))) (broadcastInDim S1600000 ![] bcast_S_S1600000 (constant S_ .f32 0x3F800000#32))) (broadcastInDim S100000 ![] bcast_S_S100000 (constant S_ .f32 0xBF000000#32))) (broadcastInDim S100000 ![] bcast_S_S100000 (id (constant S_ .f32 0x00000000#32))))))) (broadcastInDim S1600000x1 ![0] bcast_S1600000_S1600000x1_0 (select (cmpi .slt (m ((c.tc : Thread nD τ).loc main_arg5)) (broadcastInDim S1600000 ![] bcast_S_S1600000 (constantI S_ 32 0#32))) (addi (m ((c.tc : Thread nD τ).loc main_arg5)) (broadcastInDim S1600000 ![] bcast_S_S1600000 (constantI S_ 32 100000#32))) (m ((c.tc : Thread nD τ).loc main_arg5)))))) (m ((c.tc : Thread nD τ).loc main_arg1))) (broadcastInDim S100000x128 ![0, 1] bcast_S100000x1_S100000x128_0_1 (broadcastInDim S100000x1 ![0] bcast_S100000_S100000x1_0 (select (cmpf (F := F) .ogt (Host.scatterAdd scatter_S100000_S1600000x1_S1600000_n_0_0_1 (broadcastInDim S100000 ![] bcast_S_S100000 (constant S_ .f32 0x00000000#32)) (broadcastInDim S1600000x1 ![0] bcast_S1600000_S1600000x1_0 (m ((c.tc : Thread nD τ).loc main_arg6))) (broadcastInDim S1600000 ![] bcast_S_S1600000 (constant S_ .f32 0x3F800000#32))) (broadcastInDim S100000 ![] bcast_S_S100000 (constant S_ .f32 0x00000000#32))) (Host.powf (Host.scatterAdd scatter_S100000_S1600000x1_S1600000_n_0_0_1 (broadcastInDim S100000 ![] bcast_S_S100000 (constant S_ .f32 0x00000000#32)) (broadcastInDim S1600000x1 ![0] bcast_S1600000_S1600000x1_0 (m ((c.tc : Thread nD τ).loc main_arg6))) (broadcastInDim S1600000 ![] bcast_S_S1600000 (constant S_ .f32 0x3F800000#32))) (broadcastInDim S100000 ![] bcast_S_S100000 (constant S_ .f32 0xBF000000#32))) (broadcastInDim S100000 ![] bcast_S_S100000 (id (constant S_ .f32 0x00000000#32))))))) (broadcastInDim S100000x128 ![0, 1] bcast_S1x128_S100000x128_0_1 (broadcastInDim S1x128 ![1] bcast_S128_S1x128_1 (m ((c.tc : Thread nD τ).loc main_arg2))))) (broadcastInDim S100000x128 ![] bcast_S_S100000x128 (constant S_ .f32 0x00000000#32))) (broadcastInDim S100000x128 ![0, 1] bcast_S100000x1_S100000x128_0_1 (broadcastInDim S100000x1 ![0] bcast_S100000_S100000x1_0 (select (cmpf (F := F) .ogt (Host.scatterAdd scatter_S100000_S1600000x1_S1600000_n_0_0_1 (broadcastInDim S100000 ![] bcast_S_S100000 (constant S_ .f32 0x00000000#32)) (broadcastInDim S1600000x1 ![0] bcast_S1600000_S1600000x1_0 (m ((c.tc : Thread nD τ).loc main_arg5))) (broadcastInDim S1600000 ![] bcast_S_S1600000 (constant S_ .f32 0x3F800000#32))) (broadcastInDim S100000 ![] bcast_S_S100000 (constant S_ .f32 0x00000000#32))) (Host.powf (Host.scatterAdd scatter_S100000_S1600000x1_S1600000_n_0_0_1 (broadcastInDim S100000 ![] bcast_S_S100000 (constant S_ .f32 0x00000000#32)) (broadcastInDim S1600000x1 ![0] bcast_S1600000_S1600000x1_0 (m ((c.tc : Thread nD τ).loc main_arg5))) (broadcastInDim S1600000 ![] bcast_S_S1600000 (constant S_ .f32 0x3F800000#32))) (broadcastInDim S100000 ![] bcast_S_S100000 (constant S_ .f32 0xBF000000#32))) (broadcastInDim S100000 ![] bcast_S_S100000 (id (constant S_ .f32 0x00000000#32))))))) (m ((c.tc : Thread nD τ).loc main_arg3))) (broadcastInDim S1600000x1 ![0] bcast_S1600000_S1600000x1_0 (select (cmpi .slt (m ((c.tc : Thread nD τ).loc main_arg5)) (broadcastInDim S1600000 ![] bcast_S_S1600000 (constantI S_ 32 0#32))) (addi (m ((c.tc : Thread nD τ).loc main_arg5)) (broadcastInDim S1600000 ![] bcast_S_S1600000 (constantI S_ 32 100000#32))) (m ((c.tc : Thread nD τ).loc main_arg5)))))) (broadcastInDim S100000x2 ![0, 1] bcast_S100000x1_S100000x2_0_1 (broadcastInDim S100000x1 ![0] bcast_S100000_S100000x1_0 (select (cmpf (F := F) .ogt (Host.scatterAdd scatter_S100000_S1600000x1_S1600000_n_0_0_1 (broadcastInDim S100000 ![] bcast_S_S100000 (constant S_ .f32 0x00000000#32)) (broadcastInDim S1600000x1 ![0] bcast_S1600000_S1600000x1_0 (m ((c.tc : Thread nD τ).loc main_arg6))) (broadcastInDim S1600000 ![] bcast_S_S1600000 (constant S_ .f32 0x3F800000#32))) (broadcastInDim S100000 ![] bcast_S_S100000 (constant S_ .f32 0x00000000#32))) (Host.powf (Host.scatterAdd scatter_S100000_S1600000x1_S1600000_n_0_0_1 (broadcastInDim S100000 ![] bcast_S_S100000 (constant S_ .f32 0x00000000#32)) (broadcastInDim S1600000x1 ![0] bcast_S1600000_S1600000x1_0 (m ((c.tc : Thread nD τ).loc main_arg6))) (broadcastInDim S1600000 ![] bcast_S_S1600000 (constant S_ .f32 0x3F800000#32))) (broadcastInDim S100000 ![] bcast_S_S100000 (constant S_ .f32 0xBF000000#32))) (broadcastInDim S100000 ![] bcast_S_S100000 (id (constant S_ .f32 0x00000000#32))))))) (broadcastInDim S100000x2 ![0, 1] bcast_S1x2_S100000x2_0_1 (broadcastInDim S1x2 ![1] bcast_S2_S1x2_1 (m ((c.tc : Thread nD τ).loc main_arg4))))

/-- The result by its position among the values the program returns. -/
abbrev res_out0 (m : (ℓ : Loc nD τ sig) → Buf (Elt F) ℓ) (c : Dev nD) : Buf (Elt F) ((c.tc : Thread nD τ).loc main_v55) := res_main_v55 m c

set_option maxRecDepth 8192 in
set_option maxHeartbeats 30800000 in
/-- On every device, for any float values, from any memory with zero counters: every weakly fair execution of
    @main terminates with each result at the operations' composed term of the arguments and the arguments
    unchanged. -/
theorem run (m : (ℓ : Loc nD τ sig) → Buf (Elt F) ℓ) (ρ : Dev nD → PrngReg) :
    θ_run defs (onTc (τ := τ) (main (F := F))) ⟨m, fun _ => 0, ρ⟩ fun r => ∀ c : Dev nD,
      r.2.mem ((c.tc : Thread nD τ).loc main_v55) = res_main_v55 m c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6) :=
  (θ_run defs _ _).mono (fun _ h c => ⟨(h c main_v55).trans (by after_results_simp <;> rfl <;> (unfold res_main_v55; rfl)),
      (h c main_arg0).trans (by after_results_simp <;> rfl),
      (h c main_arg1).trans (by after_results_simp <;> rfl),
      (h c main_arg2).trans (by after_results_simp <;> rfl),
      (h c main_arg3).trans (by after_results_simp <;> rfl),
      (h c main_arg4).trans (by after_results_simp <;> rfl),
      (h c main_arg5).trans (by after_results_simp <;> rfl),
      (h c main_arg6).trans (by after_results_simp <;> rfl)⟩)
    (run_seq scopedRefs_eq scopedSems_eq defs main (fun _ => ops) main_eq (fun _ => ops_sub) m ρ)

/-! ## The stages of the result term -/

/-- An index vector as a one-column array of index words. -/
def col (x : (⟨S1600000, .i32⟩ : BufTy).Contents (Elt F)) : (⟨S1600000x1, .i32⟩ : BufTy).Contents (Elt F) :=
  broadcastInDim S1600000x1 ![0] bcast_S1600000_S1600000x1_0 x

/-- The degree count of every node: ones scatter-added by the index words. -/
def deg (ib : (⟨S1600000x1, .i32⟩ : BufTy).Contents (Elt F)) : (⟨S100000, .f32⟩ : BufTy).Contents (Elt F) :=
  Host.scatterAdd scatter_S100000_S1600000x1_S1600000_n_0_0_1 (broadcastInDim S100000 ![] bcast_S_S100000 (constant S_ .f32 0x00000000#32)) ib (broadcastInDim S1600000 ![] bcast_S_S1600000 (constant S_ .f32 0x3F800000#32))

/-- The degree scale: the count to the power minus one half where the count is positive, zero elsewhere. -/
def scale (ib : (⟨S1600000x1, .i32⟩ : BufTy).Contents (Elt F)) : (⟨S100000, .f32⟩ : BufTy).Contents (Elt F) :=
  select (cmpf (F := F) .ogt (deg ib) (broadcastInDim S100000 ![] bcast_S_S100000 (constant S_ .f32 0x00000000#32))) (Host.powf (deg ib) (broadcastInDim S100000 ![] bcast_S_S100000 (constant S_ .f32 0xBF000000#32))) (broadcastInDim S100000 ![] bcast_S_S100000 (id (constant S_ .f32 0x00000000#32)))

/-- The degree scale as a one-column array. -/
def scaleCol (ib : (⟨S1600000x1, .i32⟩ : BufTy).Contents (Elt F)) : (⟨S100000x1, .f32⟩ : BufTy).Contents (Elt F) :=
  broadcastInDim S100000x1 ![0] bcast_S100000_S100000x1_0 (scale ib)

/-- The source words with a negative word wrapped around by the number of nodes, as a one-column array. -/
def wrap (x5 : (⟨S1600000, .i32⟩ : BufTy).Contents (Elt F)) : (⟨S1600000x1, .i32⟩ : BufTy).Contents (Elt F) :=
  broadcastInDim S1600000x1 ![0] bcast_S1600000_S1600000x1_0 (select (cmpi .slt x5 (broadcastInDim S1600000 ![] bcast_S_S1600000 (constantI S_ 32 0#32))) (addi x5 (broadcastInDim S1600000 ![] bcast_S_S1600000 (constantI S_ 32 100000#32))) x5)

/-- Aggregation over edges of a 128-column node array: gather the source rows, scatter-add them by destination. -/
def agg128 (x5 x6 : (⟨S1600000, .i32⟩ : BufTy).Contents (Elt F)) (X : (⟨S100000x128, .f32⟩ : BufTy).Contents (Elt F)) :
    (⟨S100000x128, .f32⟩ : BufTy).Contents (Elt F) :=
  Host.scatterAdd scatter_S100000x128_S1600000x1_S1600000x128_1_0_0_1 (broadcastInDim S100000x128 ![] bcast_S_S100000x128 (constant S_ .f32 0x00000000#32)) (col x6) (Host.gather gather_S100000x128_S1600000x1_S1600000x128_1_0_n_n_0_1_1128 X (wrap x5))

/-- Aggregation over edges of a 2-column node array. -/
def agg2 (x5 x6 : (⟨S1600000, .i32⟩ : BufTy).Contents (Elt F)) (X : (⟨S100000x2, .f32⟩ : BufTy).Contents (Elt F)) :
    (⟨S100000x2, .f32⟩ : BufTy).Contents (Elt F) :=
  Host.scatterAdd scatter_S100000x2_S1600000x1_S1600000x2_1_0_0_1 (broadcastInDim S100000x2 ![] bcast_S_S100000x2 (constant S_ .f32 0x00000000#32)) (col x6) (Host.gather gather_S100000x2_S1600000x1_S1600000x2_1_0_n_n_0_1_12 X (wrap x5))

/-- The first layer: aggregate the scaled features, multiply by the weights, scale, add the bias, relu. -/
def layer1 (x0 : (⟨S100000x128, .f32⟩ : BufTy).Contents (Elt F)) (x1 : (⟨S128x128, .f32⟩ : BufTy).Contents (Elt F))
    (x2 : (⟨S128, .f32⟩ : BufTy).Contents (Elt F)) (x5 x6 : (⟨S1600000, .i32⟩ : BufTy).Contents (Elt F)) :
    (⟨S100000x128, .f32⟩ : BufTy).Contents (Elt F) :=
  maximumf (addf (mulf (Host.dotGeneral dot_S100000x128_S128x128_S100000x128_1_0_0_1_n_n none (agg128 x5 x6 (mulf x0 (broadcastInDim S100000x128 ![0, 1] bcast_S100000x1_S100000x128_0_1 (scaleCol (col x5))))) x1) (broadcastInDim S100000x128 ![0, 1] bcast_S100000x1_S100000x128_0_1 (scaleCol (col x6)))) (broadcastInDim S100000x128 ![0, 1] bcast_S1x128_S100000x128_0_1 (broadcastInDim S1x128 ![1] bcast_S128_S1x128_1 x2))) (broadcastInDim S100000x128 ![] bcast_S_S100000x128 (constant S_ .f32 0x00000000#32))

/-- The whole reference: the second layer over the first. -/
def result (x0 : (⟨S100000x128, .f32⟩ : BufTy).Contents (Elt F)) (x1 : (⟨S128x128, .f32⟩ : BufTy).Contents (Elt F))
    (x2 : (⟨S128, .f32⟩ : BufTy).Contents (Elt F)) (x3 : (⟨S128x2, .f32⟩ : BufTy).Contents (Elt F))
    (x4 : (⟨S2, .f32⟩ : BufTy).Contents (Elt F)) (x5 x6 : (⟨S1600000, .i32⟩ : BufTy).Contents (Elt F)) :
    (⟨S100000x2, .f32⟩ : BufTy).Contents (Elt F) :=
  addf (mulf (agg2 x5 x6 (Host.dotGeneral dot_S100000x128_S128x2_S100000x2_1_0_0_1_n_n none (mulf (layer1 x0 x1 x2 x5 x6) (broadcastInDim S100000x128 ![0, 1] bcast_S100000x1_S100000x128_0_1 (scaleCol (col x5)))) x3)) (broadcastInDim S100000x2 ![0, 1] bcast_S100000x1_S100000x2_0_1 (scaleCol (col x6)))) (broadcastInDim S100000x2 ![0, 1] bcast_S1x2_S100000x2_0_1 (broadcastInDim S1x2 ![1] bcast_S2_S1x2_1 x4))

/-- The composed term of the run is the staged one: the same operations, named. -/
theorem res_eq (m : (ℓ : Loc nD τ sig) → Buf (Elt F) ℓ) (c : Dev nD) :
    res_main_v55 (F := F) m c = result (m ((c.tc : Thread nD τ).loc main_arg0)) (m ((c.tc : Thread nD τ).loc main_arg1))
      (m ((c.tc : Thread nD τ).loc main_arg2)) (m ((c.tc : Thread nD τ).loc main_arg3)) (m ((c.tc : Thread nD τ).loc main_arg4))
      (m ((c.tc : Thread nD τ).loc main_arg5)) (m ((c.tc : Thread nD τ).loc main_arg6)) := rfl

end Cert.Gcn.RefRun

end
-- ==== Proof.Finite.lean ====
/-
  What the precondition says: the node features and the first weight matrix hold real numbers.

  The precondition is the conjunction, over the five float arguments, of "every entry's absolute value is below plus
  infinity", each an `and`-reduction of an elementwise comparison, the whole answering one. A conjunction that is one has
  both conjuncts one; an `and`-reduction that is one had a one at every index; and an extended real whose absolute value
  is below the upper infinity is neither infinity, that is, a real number.
-/
import proofs.«127194_j20126216749771_2_alg».proof.Pre_finite_inputs
import proofs.«127194_j20126216749771_2_alg».proof.Proof.Gen.Pre_finite_inputs
import proofs.«127194_j20126216749771_2_alg».proof.Proof.LibFinite
import Idealize.ShloMosaic.Lib.ReduceAll
import Idealize.ShloMosaic.Lib.ValueIdx

noncomputable section

namespace Cert.Gcn.Finite

open Idealize.ShloMosaic Cert.Pre_finite_inputs Cert.LibFinite

instance : Subsingleton S_.Idx := ⟨fun a b => funext fun d => d.elim0⟩

/-- The float pattern of plus infinity reads as the upper infinity. -/
theorem inf_top : Ideal.ofBits .f32 0x7F800000#32 = (⊤ : EReal) := by
  simp [Ideal.ofBits, Ideal.ieee]

/-- Under the precondition the first two arguments (the node features and the first weight matrix) are arrays of real
    numbers. -/
theorem real_of_pre (a0 : FVec Ideal S100000x128 .f32) (a1 : FVec Ideal S128x128 .f32) (a2 : FVec Ideal S128 .f32)
    (a3 : FVec Ideal S128x2 .f32) (a4 : FVec Ideal S2 .f32) (a5 a6 : IVec S1600000 32)
    (h : fn (F := Ideal) a0 a1 a2 a3 a4 a5 a6 = fun _ => 1#1) : AllReal a0 ∧ AllReal a1 := by
  have h0 := congrFun h ValueIdx.ix0
  dsimp only [fn, fn_part1] at h0
  obtain ⟨h1, -⟩ := IntOp.andi_eq_one.1 h0
  obtain ⟨h2, -⟩ := IntOp.andi_eq_one.1 h1
  obtain ⟨h3, -⟩ := IntOp.andi_eq_one.1 h2
  obtain ⟨h4, h5⟩ := IntOp.andi_eq_one.1 h3
  exact ⟨allReal_of_abs_lt (fun _ => inf_top) (fun i => Host.reduce_andi_all _ _ _ _ _ h4 i),
    allReal_of_abs_lt (fun _ => inf_top) (fun i => Host.reduce_andi_all _ _ _ _ _ h5 i)⟩

end Cert.Gcn.Finite

end
-- ==== Proof.RefValue.lean ====
/-
  The reference's result, read at an index.

  Each stage of the reference's result term is read at an index built from literal coordinates: the layout
  operations (a vector set as a column or a row, a column or a row or a scalar repeated), the two aggregations over
  edges (a row gather by the wrapped source words, then a row scatter-add by the destination words into zeros), the two
  dense products, and the elementwise arithmetic between them. Put together, the result at node n and column c is the
  specification's output over the first layer written aggregation first and product after. The degree scale is a
  real number at every node: a finite count raised to a real power, or the literal zero.
-/
import proofs.«127194_j20126216749771_2_alg».proof.Proof.RefRun
import proofs.«127194_j20126216749771_2_alg».proof.Proof.GcnSpec
import proofs.«127194_j20126216749771_2_alg».proof.Proof.LibScatterRows
import proofs.«127194_j20126216749771_2_alg».proof.Proof.LibGatherRows
import proofs.«127194_j20126216749771_2_alg».proof.Proof.LibDense
import proofs.«127194_j20126216749771_2_alg».proof.Proof.LibFinite
import Idealize.ShloMosaic.Lib.Pipeline.Value
import Idealize.ShloMosaic.Lib.ValueIdx
import Idealize.ShloMosaic.Lib.ValueLayout
import Idealize.ShloMosaic.PureOps.Ideal.Laws

noncomputable section

open scoped BigOperators

namespace Cert.Gcn.Ref

open Cert.ReferenceIdeal Cert.ReferenceIdeal.Gen Cert.Gcn.RefRun Idealize.ShloMosaic Idealize.ShloMosaic.ValueIdx
open Cert.LibFinite

/-! ## Layout operations read at an index

Every broadcast of the reference either sets a vector as a one-column (or one-row) array, or repeats a one-column array
along the columns, a one-row array along the rows, or a scalar everywhere. Read at an index built from literal
coordinates, each is the operand at the coordinates that survive. -/

/-- A vector of 100000 entries set as a one-column array, read in row r: the vector's entry r. -/
theorem column_apply {α : Type} (y : S100000.Idx → α) (r : Fin 100000) :
    broadcastInDim S100000x1 ![0] bcast_S100000_S100000x1_0 y (ix2 r (0 : Fin 1)) = y (ix1 r) :=
  broadcastInDim_apply _ bcast_S100000_S100000x1_0 y (ix2 r (0 : Fin 1)) (ix1 r) (fun a => match a with
    | ⟨0, _⟩ => by show r.val = if (100000 : Nat) = 1 then 0 else r.val; rw [if_neg (by decide)])

/-- A one-column array repeated over 128 columns, read at (r, q): the column's entry in row r. -/
theorem spread128_apply {α : Type} (y : S100000x1.Idx → α) (r : Fin 100000) (q : Fin 128) :
    broadcastInDim S100000x128 ![0, 1] bcast_S100000x1_S100000x128_0_1 y (ix2 r q) = y (ix2 r (0 : Fin 1)) :=
  broadcastInDim_apply _ bcast_S100000x1_S100000x128_0_1 y (ix2 r q) (ix2 r (0 : Fin 1)) (fun a => match a with
    | ⟨0, _⟩ => by show r.val = if (100000 : Nat) = 1 then 0 else r.val; rw [if_neg (by decide)]
    | ⟨1, _⟩ => by show 0 = if (1 : Nat) = 1 then 0 else q.val; rw [if_pos rfl])

/-- A one-column array repeated over 2 columns, read at (r, c): the column's entry in row r. -/
theorem spread2_apply {α : Type} (y : S100000x1.Idx → α) (r : Fin 100000) (c : Fin 2) :
    broadcastInDim S100000x2 ![0, 1] bcast_S100000x1_S100000x2_0_1 y (ix2 r c) = y (ix2 r (0 : Fin 1)) :=
  broadcastInDim_apply _ bcast_S100000x1_S100000x2_0_1 y (ix2 r c) (ix2 r (0 : Fin 1)) (fun a => match a with
    | ⟨0, _⟩ => by show r.val = if (100000 : Nat) = 1 then 0 else r.val; rw [if_neg (by decide)]
    | ⟨1, _⟩ => by show 0 = if (1 : Nat) = 1 then 0 else c.val; rw [if_pos rfl])

/-- A vector of 128 entries set as one row and repeated over the 100000 rows, read at (r, k): the vector's entry k. -/
theorem bias128_apply {α : Type} (b : S128.Idx → α) (r : Fin 100000) (k : Fin 128) :
    broadcastInDim S100000x128 ![0, 1] bcast_S1x128_S100000x128_0_1 (broadcastInDim S1x128 ![1] bcast_S128_S1x128_1 b) (ix2 r k)
      = b (ix1 k) := by
  refine (broadcastInDim_apply _ bcast_S1x128_S100000x128_0_1 _ (ix2 r k) (ix2 (0 : Fin 1) k) (fun a => match a with
    | ⟨0, _⟩ => by show 0 = if (1 : Nat) = 1 then 0 else r.val; rw [if_pos rfl]
    | ⟨1, _⟩ => by show k.val = if (128 : Nat) = 1 then 0 else k.val; rw [if_neg (by decide)])).trans ?_
  exact broadcastInDim_apply _ bcast_S128_S1x128_1 b (ix2 (0 : Fin 1) k) (ix1 k) (fun a => match a with
    | ⟨0, _⟩ => by show k.val = if (128 : Nat) = 1 then 0 else k.val; rw [if_neg (by decide)])

/-- A vector of 2 entries set as one row and repeated over the 100000 rows, read at (r, c): the vector's entry c. -/
theorem bias2_apply {α : Type} (b : S2.Idx → α) (r : Fin 100000) (c : Fin 2) :
    broadcastInDim S100000x2 ![0, 1] bcast_S1x2_S100000x2_0_1 (broadcastInDim S1x2 ![1] bcast_S2_S1x2_1 b) (ix2 r c)
      = b (ix1 c) := by
  refine (broadcastInDim_apply _ bcast_S1x2_S100000x2_0_1 _ (ix2 r c) (ix2 (0 : Fin 1) c) (fun a => match a with
    | ⟨0, _⟩ => by show 0 = if (1 : Nat) = 1 then 0 else r.val; rw [if_pos rfl]
    | ⟨1, _⟩ => by show c.val = if (2 : Nat) = 1 then 0 else c.val; rw [if_neg (by decide)])).trans ?_
  exact broadcastInDim_apply _ bcast_S2_S1x2_1 b (ix2 (0 : Fin 1) c) (ix1 c) (fun a => match a with
    | ⟨0, _⟩ => by show c.val = if (2 : Nat) = 1 then 0 else c.val; rw [if_neg (by decide)])

/-- The zero literal spread over a 100000 by 128 array is the extended real zero at every index. -/
theorem zero128_apply (i : S100000x128.Idx) :
    broadcastInDim S100000x128 ![] bcast_S_S100000x128 (constant (F := Ideal) S_ .f32 0x00000000#32) i = (0 : EReal) :=
  (broadcastInDim_apply _ bcast_S_S100000x128 _ i ix0 (fun a => a.elim0)).trans
    ((constant_apply _ _).trans Ideal.ofBits_zero_f32)

/-- The zero literal spread over a 100000 by 2 array is the extended real zero at every index. -/
theorem zero2_apply (i : S100000x2.Idx) :
    broadcastInDim S100000x2 ![] bcast_S_S100000x2 (constant (F := Ideal) S_ .f32 0x00000000#32) i = (0 : EReal) :=
  (broadcastInDim_apply _ bcast_S_S100000x2 _ i ix0 (fun a => a.elim0)).trans
    ((constant_apply _ _).trans Ideal.ofBits_zero_f32)

/-- The degree scale as a one-column array, read in row r, is the scale of node r. -/
theorem scaleCol_apply (ib : (⟨S1600000x1, .i32⟩ : BufTy).Contents (Elt Ideal)) (r : Fin 100000) :
    scaleCol (F := Ideal) ib (ix2 r (0 : Fin 1)) = scale (F := Ideal) ib (ix1 r) := by
  unfold scaleCol
  generalize scale (F := Ideal) ib = y
  exact column_apply y r

/-! ## The two aggregations over edges -/

/-- Aggregation of a 128-column node array, read at (n, q): zero plus the sum, over the edges whose destination word
    reads n, of the entry in column q of the row the edge's wrapped source word names (clamped into the rows). The
    scatter-add contributes the filter over the edges, the gather the row. -/
theorem agg128_apply (x5 x6 : (⟨S1600000, .i32⟩ : BufTy).Contents (Elt Ideal))
    (X : (⟨S100000x128, .f32⟩ : BufTy).Contents (Elt Ideal)) (n : Fin 100000) (q : Fin 128) :
    agg128 (F := Ideal) x5 x6 X (ix2 n q)
      = Cert.Gcn.aggr (wrap (F := Ideal) x5) (col (F := Ideal) x6) (fun r k => X (ix2 r k)) n q := by
  unfold agg128
  generalize wrap (F := Ideal) x5 = sg
  generalize col (F := Ideal) x6 = db
  refine (ScatterRows.scatterAdd_rows2 scatter_S100000x128_S1600000x1_S1600000x128_1_0_0_1_wf
    scatter_S100000x128_S1600000x1_S1600000x128_1_0_0_1 rfl _ db _ n q).trans ?_
  unfold Cert.Gcn.aggr Cert.Gcn.inEdges
  rw [zero128_apply]
  refine congrArg _ (Finset.sum_congr rfl fun e _ => ?_)
  exact GatherRows.gather_rows (by decide) gather_S100000x128_S1600000x1_S1600000x128_1_0_n_n_0_1_1128_wf
    gather_S100000x128_S1600000x1_S1600000x128_1_0_n_n_0_1_1128 rfl X sg e q

/-- Aggregation of a 2-column node array, read at (n, c): the same sum over the edges into n. -/
theorem agg2_apply (x5 x6 : (⟨S1600000, .i32⟩ : BufTy).Contents (Elt Ideal))
    (X : (⟨S100000x2, .f32⟩ : BufTy).Contents (Elt Ideal)) (n : Fin 100000) (c : Fin 2) :
    agg2 (F := Ideal) x5 x6 X (ix2 n c)
      = Cert.Gcn.aggr (wrap (F := Ideal) x5) (col (F := Ideal) x6) (fun r k => X (ix2 r k)) n c := by
  unfold agg2
  generalize wrap (F := Ideal) x5 = sg
  generalize col (F := Ideal) x6 = db
  refine (ScatterRows.scatterAdd_rows2 scatter_S100000x2_S1600000x1_S1600000x2_1_0_0_1_wf
    scatter_S100000x2_S1600000x1_S1600000x2_1_0_0_1 rfl _ db _ n c).trans ?_
  unfold Cert.Gcn.aggr Cert.Gcn.inEdges
  rw [zero2_apply]
  refine congrArg _ (Finset.sum_congr rfl fun e _ => ?_)
  exact GatherRows.gather_rows (by decide) gather_S100000x2_S1600000x1_S1600000x2_1_0_n_n_0_1_12_wf
    gather_S100000x2_S1600000x1_S1600000x2_1_0_n_n_0_1_12 rfl X sg e c

/-- Aggregation of a 128-column array whose entries are known index by index. -/
theorem agg128_of (x5 x6 : (⟨S1600000, .i32⟩ : BufTy).Contents (Elt Ideal))
    (X : (⟨S100000x128, .f32⟩ : BufTy).Contents (Elt Ideal)) (Y : Fin 100000 → Fin 128 → EReal)
    (h : ∀ r k, X (ix2 r k) = Y r k) (n : Fin 100000) (q : Fin 128) :
    agg128 (F := Ideal) x5 x6 X (ix2 n q) = Cert.Gcn.aggr (wrap (F := Ideal) x5) (col (F := Ideal) x6) Y n q := by
  rw [agg128_apply, show (fun r k => X (ix2 r k)) = Y from funext fun r => funext fun k => h r k]

/-- Aggregation of a 2-column array whose entries are known index by index. -/
theorem agg2_of (x5 x6 : (⟨S1600000, .i32⟩ : BufTy).Contents (Elt Ideal))
    (X : (⟨S100000x2, .f32⟩ : BufTy).Contents (Elt Ideal)) (Y : Fin 100000 → Fin 2 → EReal)
    (h : ∀ r k, X (ix2 r k) = Y r k) (n : Fin 100000) (c : Fin 2) :
    agg2 (F := Ideal) x5 x6 X (ix2 n c) = Cert.Gcn.aggr (wrap (F := Ideal) x5) (col (F := Ideal) x6) Y n c := by
  rw [agg2_apply, show (fun r k => X (ix2 r k)) = Y from funext fun r => funext fun k => h r k]

/-! ## The two dense products -/

/-- In the first product the left operand's row coordinate is the output's row. -/
theorem dot128_left (i : S100000x128.Idx) (q : dot_S100000x128_S128x128_S100000x128_1_0_0_1_n_n.contr.Idx) :
    (dot_S100000x128_S128x128_S100000x128_1_0_0_1_n_n.lhsIdx i q 0).val = (i 0).val := by
  unfold DotDims.lhsIdx
  rw [dif_neg (show ¬(0 : Fin S100000x128.rank) ∈ dot_S100000x128_S128x128_S100000x128_1_0_0_1_n_n.lhsBatch by decide),
    dif_pos (show (0 : Fin S100000x128.rank) ∈ dot_S100000x128_S128x128_S100000x128_1_0_0_1_n_n.lhsNonContracting by decide)]
  rfl

/-- In the first product the right operand's column coordinate is the output's column. -/
theorem dot128_right (i : S100000x128.Idx) (q : dot_S100000x128_S128x128_S100000x128_1_0_0_1_n_n.contr.Idx) :
    (dot_S100000x128_S128x128_S100000x128_1_0_0_1_n_n.rhsIdx i q 1).val = (i 1).val := by
  unfold DotDims.rhsIdx
  rw [dif_neg (show ¬(1 : Fin S128x128.rank) ∈ dot_S100000x128_S128x128_S100000x128_1_0_0_1_n_n.rhsBatch by decide),
    dif_pos (show (1 : Fin S128x128.rank) ∈ dot_S100000x128_S128x128_S100000x128_1_0_0_1_n_n.rhsNonContracting by decide)]
  rfl

/-- The first product read at (r, q): the sum over k of the left operand at (r, k) times the weight at (k, q). -/
theorem dot128_apply (A : (⟨S100000x128, .f32⟩ : BufTy).Contents (Elt Ideal)) (W : (⟨S128x128, .f32⟩ : BufTy).Contents (Elt Ideal))
    (r : Fin 100000) (q : Fin 128) :
    Host.dotGeneral (F := Ideal) (φ₁ := .f32) (φ₂ := .f32) dot_S100000x128_S128x128_S100000x128_1_0_0_1_n_n none A W (ix2 r q)
      = ∑ k : Fin 128, A (ix2 r k) * W (ix2 k q) :=
  congrFun (Cert.LibDense.dotGeneral_eq dot_S100000x128_S128x128_S100000x128_1_0_0_1_n_n rfl rfl rfl rfl
    dot128_left dot128_right none .single A W) (ix2 r q)

/-- In the second product the left operand's row coordinate is the output's row. -/
theorem dot2_left (i : S100000x2.Idx) (q : dot_S100000x128_S128x2_S100000x2_1_0_0_1_n_n.contr.Idx) :
    (dot_S100000x128_S128x2_S100000x2_1_0_0_1_n_n.lhsIdx i q 0).val = (i 0).val := by
  unfold DotDims.lhsIdx
  rw [dif_neg (show ¬(0 : Fin S100000x128.rank) ∈ dot_S100000x128_S128x2_S100000x2_1_0_0_1_n_n.lhsBatch by decide),
    dif_pos (show (0 : Fin S100000x128.rank) ∈ dot_S100000x128_S128x2_S100000x2_1_0_0_1_n_n.lhsNonContracting by decide)]
  rfl

/-- In the second product the right operand's column coordinate is the output's column. -/
theorem dot2_right (i : S100000x2.Idx) (q : dot_S100000x128_S128x2_S100000x2_1_0_0_1_n_n.contr.Idx) :
    (dot_S100000x128_S128x2_S100000x2_1_0_0_1_n_n.rhsIdx i q 1).val = (i 1).val := by
  unfold DotDims.rhsIdx
  rw [dif_neg (show ¬(1 : Fin S128x2.rank) ∈ dot_S100000x128_S128x2_S100000x2_1_0_0_1_n_n.rhsBatch by decide),
    dif_pos (show (1 : Fin S128x2.rank) ∈ dot_S100000x128_S128x2_S100000x2_1_0_0_1_n_n.rhsNonContracting by decide)]
  rfl

/-- The second product read at (r, c): the sum over k of the left operand at (r, k) times the weight at (k, c). -/
theorem dot2_apply (A : (⟨S100000x128, .f32⟩ : BufTy).Contents (Elt Ideal)) (W : (⟨S128x2, .f32⟩ : BufTy).Contents (Elt Ideal))
    (r : Fin 100000) (c : Fin 2) :
    Host.dotGeneral (F := Ideal) (φ₁ := .f32) (φ₂ := .f32) dot_S100000x128_S128x2_S100000x2_1_0_0_1_n_n none A W (ix2 r c)
      = ∑ k : Fin 128, A (ix2 r k) * W (ix2 k c) :=
  congrFun (Cert.LibDense.dotGeneral_eq dot_S100000x128_S128x2_S100000x2_1_0_0_1_n_n rfl rfl rfl rfl
    dot2_left dot2_right none .single A W) (ix2 r c)

/-! ## The degree scale is a real number -/

/-- The ideal power of a real number by a real number is a real number (the real power, whatever the base's sign). -/
theorem isReal_pow {a b : EReal} (ha : IsReal a) (hb : IsReal b) : IsReal (Ideal.pow a b) := by
  obtain ⟨a, rfl⟩ := ha
  obtain ⟨b, rfl⟩ := hb
  exact ⟨Real.rpow a b, rfl⟩

/-- The host's power of an array of real numbers by an array of real numbers is an array of real numbers. -/
theorem allReal_powf {s : Shape} {φ : FTy} {x y : FVec Ideal s φ} (hx : AllReal x) (hy : AllReal y) :
    AllReal (Host.powf x y) := by
  intro i
  show IsReal (FloatOps.hostPowf (x i) (y i))
  rw [Ideal.hostPowf_def]
  exact isReal_pow (hx i) (hy i)

/-- The f32 pattern 0xBF000000 is minus one half. -/
theorem ofBits_f32_negHalf : Ideal.ofBits .f32 0xBF000000#32 = (((-1 / 2 : ℝ)) : EReal) := by
  simp [Ideal.ofBits, Ideal.ieee, -EReal.coe_mul]; norm_num

/-- Minus one half is a real number. -/
theorem isReal_negHalf : IsReal (Ideal.ofBits .f32 0xBF000000#32) := ⟨_, ofBits_f32_negHalf⟩

/-- The degree count of a node is a real number: zero plus a finite sum of ones. -/
theorem real_deg (ib : (⟨S1600000x1, .i32⟩ : BufTy).Contents (Elt Ideal)) (i : S100000.Idx) :
    IsReal (deg (F := Ideal) ib i) := by
  unfold deg
  exact allReal_scatterAdd (all_broadcastInDim (all_constant isReal_ofBits_f32_zero))
    (all_broadcastInDim (all_constant isPos_ofBits_f32_one.isReal)) i

/-- the degree scale is a real number at every node: the count is a finite sum of ones onto zero, hence real; the ideal
    power of two real numbers is a real number; the select picks that or the literal zero -/
theorem real_scale (ib : (⟨S1600000x1, .i32⟩ : BufTy).Contents (Elt Ideal)) (r : Fin 100000) :
    Cert.LibFinite.IsReal (scale (F := Ideal) ib (ix1 r)) := by
  unfold scale
  exact all_select (allReal_powf (fun i => real_deg ib i) (all_broadcastInDim (all_constant isReal_negHalf)))
    (all_broadcastInDim (all_id (all_constant isReal_ofBits_f32_zero))) (ix1 r)

/-! ## The first layer and the result -/

/-- The scaled features read at (r, k): the feature times the outgoing scale of node r. -/
theorem scaled_apply (X : (⟨S100000x128, .f32⟩ : BufTy).Contents (Elt Ideal)) (ib : (⟨S1600000x1, .i32⟩ : BufTy).Contents (Elt Ideal))
    (r : Fin 100000) (k : Fin 128) :
    mulf (F := Ideal) (s := S100000x128) (φ := .f32) X
        (broadcastInDim S100000x128 ![0, 1] bcast_S100000x1_S100000x128_0_1 (scaleCol (F := Ideal) ib)) (ix2 r k)
      = X (ix2 r k) * scale (F := Ideal) ib (ix1 r) := by
  rw [mulf_apply, spread128_apply, scaleCol_apply]

/-- The first product over the aggregate of the scaled features, read at (r, q): the first layer before its scale, bias
    and rectifier, the edges summed first and the product taken after. -/
theorem pre1_apply (x0 : (⟨S100000x128, .f32⟩ : BufTy).Contents (Elt Ideal)) (x1 : (⟨S128x128, .f32⟩ : BufTy).Contents (Elt Ideal))
    (x5 x6 : (⟨S1600000, .i32⟩ : BufTy).Contents (Elt Ideal)) (r : Fin 100000) (q : Fin 128) :
    Host.dotGeneral (F := Ideal) (φ₁ := .f32) (φ₂ := .f32) dot_S100000x128_S128x128_S100000x128_1_0_0_1_n_n none
        (agg128 (F := Ideal) x5 x6 (mulf (F := Ideal) (s := S100000x128) (φ := .f32) x0
          (broadcastInDim S100000x128 ![0, 1] bcast_S100000x1_S100000x128_0_1 (scaleCol (F := Ideal) (col (F := Ideal) x5))))) x1 (ix2 r q)
      = Cert.Gcn.layer1R (fun r k => x0 (ix2 r k)) (fun r => scale (F := Ideal) (col (F := Ideal) x5) (ix1 r))
          (fun k q => x1 (ix2 k q)) (wrap (F := Ideal) x5) (col (F := Ideal) x6) r q := by
  rw [dot128_apply]
  unfold Cert.Gcn.layer1R
  refine Finset.sum_congr rfl fun k _ => ?_
  exact congrArg (fun t => t * x1 (ix2 k q))
    (agg128_of x5 x6 _ _ (fun r' k' => scaled_apply x0 (col (F := Ideal) x5) r' k') r k)

/-- The first layer read at (r, q): the aggregate of the scaled features times the weights (aggregation first, product
    after), times the incoming scale, plus the bias, rectified. -/
theorem layer1_apply (x0 : (⟨S100000x128, .f32⟩ : BufTy).Contents (Elt Ideal)) (x1 : (⟨S128x128, .f32⟩ : BufTy).Contents (Elt Ideal))
    (x2 : (⟨S128, .f32⟩ : BufTy).Contents (Elt Ideal)) (x5 x6 : (⟨S1600000, .i32⟩ : BufTy).Contents (Elt Ideal))
    (r : Fin 100000) (q : Fin 128) :
    layer1 (F := Ideal) x0 x1 x2 x5 x6 (ix2 r q)
      = max (Cert.Gcn.layer1R (fun r k => x0 (ix2 r k)) (fun r => scale (F := Ideal) (col (F := Ideal) x5) (ix1 r))
              (fun k q => x1 (ix2 k q)) (wrap (F := Ideal) x5) (col (F := Ideal) x6) r q
            * scale (F := Ideal) (col (F := Ideal) x6) (ix1 r) + x2 (ix1 q)) 0 := by
  unfold layer1
  rw [maximumf_apply, addf_apply, mulf_apply, zero128_apply, bias128_apply, spread128_apply, scaleCol_apply, pre1_apply]

/-- The second product over the scaled hidden activations, read at (r, c). -/
theorem pre2_apply (x0 : (⟨S100000x128, .f32⟩ : BufTy).Contents (Elt Ideal)) (x1 : (⟨S128x128, .f32⟩ : BufTy).Contents (Elt Ideal))
    (x2 : (⟨S128, .f32⟩ : BufTy).Contents (Elt Ideal)) (x3 : (⟨S128x2, .f32⟩ : BufTy).Contents (Elt Ideal))
    (x5 x6 : (⟨S1600000, .i32⟩ : BufTy).Contents (Elt Ideal)) (r : Fin 100000) (c : Fin 2) :
    Host.dotGeneral (F := Ideal) (φ₁ := .f32) (φ₂ := .f32) dot_S100000x128_S128x2_S100000x2_1_0_0_1_n_n none
        (mulf (F := Ideal) (s := S100000x128) (φ := .f32) (layer1 (F := Ideal) x0 x1 x2 x5 x6)
          (broadcastInDim S100000x128 ![0, 1] bcast_S100000x1_S100000x128_0_1 (scaleCol (F := Ideal) (col (F := Ideal) x5)))) x3 (ix2 r c)
      = Cert.Gcn.h2mm
          (Cert.Gcn.layer1R (fun r k => x0 (ix2 r k)) (fun r => scale (F := Ideal) (col (F := Ideal) x5) (ix1 r)) (fun k q => x1 (ix2 k q))
            (wrap (F := Ideal) x5) (col (F := Ideal) x6))
          (fun r => scale (F := Ideal) (col (F := Ideal) x5) (ix1 r)) (fun r => scale (F := Ideal) (col (F := Ideal) x6) (ix1 r))
          (fun k => x2 (ix1 k)) (fun k c => x3 (ix2 k c)) r c := by
  rw [dot2_apply]
  unfold Cert.Gcn.h2mm Cert.Gcn.hidden
  refine Finset.sum_congr rfl fun k _ => ?_
  rw [scaled_apply, layer1_apply]

/-- the reference's result at an index is the specification's output over its own first-layer arrangement (aggregate, then multiply) -/
theorem ref_apply (x0 : (⟨S100000x128, .f32⟩ : BufTy).Contents (Elt Ideal)) (x1 : (⟨S128x128, .f32⟩ : BufTy).Contents (Elt Ideal))
    (x2 : (⟨S128, .f32⟩ : BufTy).Contents (Elt Ideal)) (x3 : (⟨S128x2, .f32⟩ : BufTy).Contents (Elt Ideal))
    (x4 : (⟨S2, .f32⟩ : BufTy).Contents (Elt Ideal)) (x5 x6 : (⟨S1600000, .i32⟩ : BufTy).Contents (Elt Ideal))
    (n : Fin 100000) (c : Fin 2) :
    result (F := Ideal) x0 x1 x2 x3 x4 x5 x6 (ix2 n c)
      = Cert.Gcn.out
          (Cert.Gcn.layer1R (fun r k => x0 (ix2 r k)) (fun r => scale (F := Ideal) (col (F := Ideal) x5) (ix1 r)) (fun k q => x1 (ix2 k q))
            (wrap (F := Ideal) x5) (col (F := Ideal) x6))
          (fun r => scale (F := Ideal) (col (F := Ideal) x5) (ix1 r)) (fun r => scale (F := Ideal) (col (F := Ideal) x6) (ix1 r))
          (fun k => x2 (ix1 k)) (fun k c => x3 (ix2 k c)) (fun c => x4 (ix1 c))
          (wrap (F := Ideal) x5) (col (F := Ideal) x6) n c := by
  unfold result
  rw [addf_apply, mulf_apply, bias2_apply, spread2_apply, scaleCol_apply]
  unfold Cert.Gcn.out
  exact congrArg (fun t => t * scale (F := Ideal) (col (F := Ideal) x6) (ix1 n) + x4 (ix1 c))
    (agg2_of x5 x6 _ _ (fun r' c' => pre2_apply x0 x1 x2 x3 x5 x6 r' c') n c)

end Cert.Gcn.Ref

end
-- ==== Proof.Bridge.lean ====
/-
  The two programs compute one function of the argument arrays.

  Read at an index, the reference's result is the specification's output over the aggregate-then-multiply arrangement of
  layer one, and the kernel's the same output over the multiply-then-aggregate arrangement; the host stages the two
  programs share (the degree scales, the index columns, the wrapped source words) are the same terms, spelt with each
  program's own dimension records. Under the precondition the node features and the first weights are real numbers, and
  the degree scale is always a real number, so the two arrangements of layer one agree and the results are equal.
-/
import proofs.«127194_j20126216749771_2_alg».proof.Proof.KernelStages
import proofs.«127194_j20126216749771_2_alg».proof.Proof.RefValue
import proofs.«127194_j20126216749771_2_alg».proof.Proof.GcnSpec

set_option maxRecDepth 16384

noncomputable section

namespace Cert.Gcn.Bridge

open Idealize.ShloMosaic Idealize.ShloMosaic.ValueIdx Cert.LibFinite

/-! ## The shared host stages, spelt by either program, are the same terms -/

theorem col_eq (x : IVec ⟨1, ![1600000]⟩ 32) :
    Cert.KernelIdeal.Chain.col (F := Ideal) x = Cert.Gcn.RefRun.col (F := Ideal) x := rfl

theorem wrap_eq (x : IVec ⟨1, ![1600000]⟩ 32) :
    Cert.KernelIdeal.Chain.wrap (F := Ideal) x = Cert.Gcn.RefRun.wrap (F := Ideal) x := rfl

theorem deg_eq (ib : IVec ⟨2, ![1600000, 1]⟩ 32) :
    Cert.KernelIdeal.Chain.deg (F := Ideal) ib = Cert.Gcn.RefRun.deg (F := Ideal) ib := by
  unfold Cert.KernelIdeal.Chain.deg Cert.Gcn.RefRun.deg
  rfl

theorem scale_eq (ib : IVec ⟨2, ![1600000, 1]⟩ 32) :
    Cert.KernelIdeal.Chain.scale (F := Ideal) ib = Cert.Gcn.RefRun.scale (F := Ideal) ib := by
  unfold Cert.KernelIdeal.Chain.scale Cert.Gcn.RefRun.scale
  rw [deg_eq]

/-! ## The results are equal -/

/-- On real features and first weights the reference's result array is the kernel's composition of its three dense
    passes and two aggregations. -/
theorem value_eq (x0 : FVec Ideal ⟨2, ![100000, 128]⟩ .f32) (x1 : FVec Ideal ⟨2, ![128, 128]⟩ .f32) (x2 : FVec Ideal ⟨1, ![128]⟩ .f32)
    (x3 : FVec Ideal ⟨2, ![128, 2]⟩ .f32) (x4 : FVec Ideal ⟨1, ![2]⟩ .f32) (x5 x6 : IVec ⟨1, ![1600000]⟩ 32)
    (hx0 : AllReal x0) (hx1 : AllReal x1) :
    Cert.Gcn.RefRun.result (F := Ideal) x0 x1 x2 x3 x4 x5 x6
      = Cert.KernelIdeal.Chain.composed x5 x6 x0 x1 x2 x3 x4 := by
  funext i
  obtain ⟨n, c, rfl⟩ : ∃ (n : Fin 100000) (c : Fin 2), i = ix2 n c := ⟨i 0, i 1, eq_ix2 i⟩
  rw [Cert.Gcn.Ref.ref_apply, Cert.KernelIdeal.Chain.kernel_apply]
  simp only [scale_eq, col_eq, wrap_eq]
  rw [Cert.Gcn.layer1_eq _ _ _ _ _ (fun r k => hx0 (ix2 r k)) (fun r => Cert.Gcn.Ref.real_scale _ r) (fun k q => hx1 (ix2 k q))]

end Cert.Gcn.Bridge

end
-- ==== Proof.lean ====
/-
  A two-layer graph convolution as three pipelined dense passes with host gather / scatter-add between them, against
  its plain array-program reference, on the extended reals.

  Both programs compute the degree scales `no` and `ni` (the out- and in-degree of every node to the power minus one half,
  zero at a node of degree zero) and then `relu (A (x * no) W1 * ni + b1)` followed by `A ((h * no) W2) * ni + b2`, where
  `A` sums, into every node, the rows of its operand named by the edges into that node. The kernel takes the first
  product before the aggregation, `A ((x * no) W1)`, the reference after it, `(A (x * no)) W1`. The two agree because
  the entries of `x`, `no` and `W1` are real numbers (the precondition for `x` and `W1`; a degree scale is always real),
  and a finite sum of reals times a real distributes. Everything else is the same arithmetic in the same order, read
  block by block in the kernel and whole in the reference.

  The kernel's value: each region leaves its output array at a whole-array dense pass of its input arrays (Region0,
  Region1, Region2), the host stretches between them are read buffer by buffer (KernelChain), and the composition is read
  at an index against the specification (KernelStages). The reference's value: its run (RefRun) read at an index
  (RefValue). The specification and the law between the two arrangements are GcnSpec; the precondition's content is
  Finite; Bridge joins the two sides.
-/
import proofs.«127194_j20126216749771_2_alg».proof.Defs
import proofs.«127194_j20126216749771_2_alg».proof.Proof.Gen.Kernel
import proofs.«127194_j20126216749771_2_alg».proof.Proof.Gen.Kernel.Skeleton
import proofs.«127194_j20126216749771_2_alg».proof.Proof.Gen.Kernel.Launch
import proofs.«127194_j20126216749771_2_alg».proof.Proof.Gen.Kernel.Points
import proofs.«127194_j20126216749771_2_alg».proof.Proof.Gen.Kernel.Frame
import proofs.«127194_j20126216749771_2_alg».proof.Proof.Gen.KernelIdeal
import proofs.«127194_j20126216749771_2_alg».proof.Proof.Gen.KernelIdeal.Skeleton
import proofs.«127194_j20126216749771_2_alg».proof.Proof.Gen.KernelIdeal.Launch
import proofs.«127194_j20126216749771_2_alg».proof.Proof.Gen.KernelIdeal.Points
import proofs.«127194_j20126216749771_2_alg».proof.Proof.Gen.KernelIdeal.Frame
import proofs.«127194_j20126216749771_2_alg».proof.Proof.Gen.ReferenceIdeal
import proofs.«127194_j20126216749771_2_alg».proof.Proof.Gen.Pre_finite_inputs
import proofs.«127194_j20126216749771_2_alg».proof.Proof.KernelRun
import proofs.«127194_j20126216749771_2_alg».proof.Proof.KernelChain
import proofs.«127194_j20126216749771_2_alg».proof.Proof.RefRun
import proofs.«127194_j20126216749771_2_alg».proof.Proof.Finite
import proofs.«127194_j20126216749771_2_alg».proof.Proof.Bridge
import Idealize.ShloMosaic.Adequacy
import Idealize.ShloMosaic.Init

set_option maxRecDepth 16384

noncomputable section

namespace Cert.Proof

open Idealize.ShloMosaic Idealize.SL.Sem

/-- The word-level kernel runs and leaves its arguments as launched. -/
theorem frame_kernel : Cert.frame_Kernel := fun m ρ _ => Cert.Kernel.Gen.frame m ρ

/-- The idealized kernel runs and leaves its arguments as launched. -/
theorem frame_kernelIdeal : Cert.frame_KernelIdeal := fun m ρ _ => Cert.KernelIdeal.Gen.frame m ρ

/-- The reference runs and leaves its arguments as launched: its run with the result dropped. -/
theorem frame_referenceIdeal : Cert.frame_ReferenceIdeal := fun m ρ _ =>
  (θ_run Cert.ReferenceIdeal.defs _ _).mono (fun _ h c => (h c).2) (Cert.Gcn.RefRun.run (F := Ideal) m ρ)

/-- The idealization rewrote no operation: there is nothing to preserve. -/
theorem preserves : Cert.preserves_Kernel_KernelIdeal := trivial

/-- Run from memories agreeing on the arguments, the idealized kernel and the reference both end, with the same result
    array: the kernel's composition of its three dense passes and two aggregations over the argument arrays. -/
theorem algebraic : Cert.algebraic_KernelIdeal_ReferenceIdeal := by
  intro m ρ m' ρ' hpre hagree
  refine ⟨fun c => Cert.KernelIdeal.Chain.composed (m ((c.tc : Thread Cert.KernelIdeal.nD Cert.KernelIdeal.τ).loc Cert.KernelIdeal.main_arg5)) (m ((c.tc : Thread Cert.KernelIdeal.nD Cert.KernelIdeal.τ).loc Cert.KernelIdeal.main_arg6))
    (m ((c.tc : Thread Cert.KernelIdeal.nD Cert.KernelIdeal.τ).loc Cert.KernelIdeal.main_arg0)) (m ((c.tc : Thread Cert.KernelIdeal.nD Cert.KernelIdeal.τ).loc Cert.KernelIdeal.main_arg1))
    (m ((c.tc : Thread Cert.KernelIdeal.nD Cert.KernelIdeal.τ).loc Cert.KernelIdeal.main_arg2)) (m ((c.tc : Thread Cert.KernelIdeal.nD Cert.KernelIdeal.τ).loc Cert.KernelIdeal.main_arg3))
    (m ((c.tc : Thread Cert.KernelIdeal.nD Cert.KernelIdeal.τ).loc Cert.KernelIdeal.main_arg4)), ?_, ?_⟩
  · exact (θ_run Cert.KernelIdeal.defs _ _).mono
      (fun r h c => ⟨(h c).1.trans (Cert.KernelIdeal.Chain.kernel_value m ρ c), (h c).2⟩)
      (Cert.KernelIdeal.RunValue.run_main (F := Ideal) m ρ)
  · refine (θ_run Cert.ReferenceIdeal.defs _ _).mono (fun r h c => ⟨(h c).1.trans ?_, (h c).2⟩)
      (Cert.Gcn.RefRun.run (F := Ideal) m' ρ')
    obtain ⟨hx0, hx1⟩ := Cert.Gcn.Finite.real_of_pre _ _ _ _ _ _ _ (hpre c)
    rw [Cert.Gcn.RefRun.res_eq, (hagree c).1, (hagree c).2.1, (hagree c).2.2.1, (hagree c).2.2.2.1, (hagree c).2.2.2.2.1,
      (hagree c).2.2.2.2.2.1, (hagree c).2.2.2.2.2.2]
    exact Cert.Gcn.Bridge.value_eq _ _ _ _ _ _ _ hx0 hx1

theorem claim : Cert.Claim := ⟨Cert.Kernel.Gen.facts, Cert.KernelIdeal.Gen.facts, Cert.ReferenceIdeal.Gen.facts, Cert.Pre_finite_inputs.Gen.facts,
  frame_kernel, frame_kernelIdeal, frame_referenceIdeal, preserves, algebraic⟩

end Cert.Proof

end
